-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v36)) (v3 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v36) = v2 c
          ∧ r.2.mem ((c.tc : Thread Cert.KernelIdeal.nD Cert.KernelIdeal.τ).loc Cert.KernelIdeal.main_v28) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x2048x117 : Shape := ⟨3, ![128, 2048, 117]⟩
abbrev S128x2048x4 : Shape := ⟨3, ![128, 2048, 4]⟩
abbrev S128x2048 : Shape := ⟨2, ![128, 2048]⟩
abbrev S128x2 : Shape := ⟨2, ![128, 2]⟩
abbrev S_ : Shape := ⟨0, ![]⟩

class Facts : Prop where
  bcast_S_S128x2048x117 : S_.BroadcastsInDim S128x2048x117 (![] : Fin 0 → Fin S128x2048x117.rank)
  reducesTo_S128x2048x117_S_d0_1_2 : S128x2048x117.ReducesTo [0, 1, 2] S_
  h_S_ : 0 < S_.numel
  bcast_S_S128x2048x4 : S_.BroadcastsInDim S128x2048x4 (![] : Fin 0 → Fin S128x2048x4.rank)
  reducesTo_S128x2048x4_S_d0_1_2 : S128x2048x4.ReducesTo [0, 1, 2] S_
  bcast_S_S128x2 : S_.BroadcastsInDim S128x2 (![] : Fin 0 → Fin S128x2.rank)
  reducesTo_S128x2_S_d0_1 : S128x2.ReducesTo [0, 1] S_

variable [Facts]

def fn_part1 {F : FTy → Type} [FloatOps F] (main_arg6 : FVec F S128x2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S128x2 .f32 := Host.absf main_arg6
  let main_cst_6 : FVec F S_ .f32 := constant S_ .f32 0x7F800000#32
  let main_v20 : FVec F S128x2 .f32 := broadcastInDim S128x2 ![] bcast_S_S128x2 main_cst_6
  let main_v21 : IVec S128x2 1 := cmpf .olt main_v19 main_v20
  let main_c_7 : IVec S_ 1 := constantI S_ 1 1#1
  let main_v22 : IVec S_ 1 := (fun x v => Host.reduce IntOp.andi x v reducesTo_S128x2_S_d0_1 h_S_) main_v21 main_c_7
  let main_v23 : IVec S_ 1 := andi main_v18 main_v22
  main_v23

def fn {F : FTy → Type} [FloatOps F] (main_arg0 : FVec F S128x2048x117 .f32) (main_arg1 : FVec F S128x2048x4 .f32) (main_arg2 : FVec F S128x2048x4 .f32) (main_arg3 : IVec S128x2048 32) (main_arg4 : IVec S128x2048 32) (main_arg5 : FVec F S128x2 .f32) (main_arg6 : FVec F S128x2 .f32) : IVec S_ 1 :=
  let main_v0 : FVec F S128x2048x117 .f32 := Host.absf main_arg0
  let main_cst : FVec F S_ .f32 := constant S_ .f32 0x7F800000#32
  let main_v1 : FVec F S128x2048x117 .f32 := broadcastInDim S128x2048x117 ![] bcast_S_S128x2048x117 main_cst
  let main_v2 : IVec S128x2048x117 1 := cmpf .olt main_v0 main_v1
  let main_c : IVec S_ 1 := constantI S_ 1 1#1
  let main_v3 : IVec S_ 1 := (fun x v => Host.reduce IntOp.andi x v reducesTo_S128x2048x117_S_d0_1_2 h_S_) main_v2 main_c
  let main_v4 : FVec F S128x2048x4 .f32 := Host.absf main_arg1
  let main_cst_0 : FVec F S_ .f32 := constant S_ .f32 0x7F800000#32
  let main_v5 : FVec F S128x2048x4 .f32 := broadcastInDim S128x2048x4 ![] bcast_S_S128x2048x4 main_cst_0
  let main_v6 : IVec S128x2048x4 1 := cmpf .olt main_v4 main_v5
  let main_c_1 : IVec S_ 1 := constantI S_ 1 1#1
  let main_v7 : IVec S_ 1 := (fun x v => Host.reduce IntOp.andi x v reducesTo_S128x2048x4_S_d0_1_2 h_S_) main_v6 main_c_1
  let main_v8 : IVec S_ 1 := andi main_v3 main_v7
  let main_v9 : FVec F S128x2048x4 .f32 := Host.absf main_arg2
  let main_cst_2 : FVec F S_ .f32 := constant S_ .f32 0x7F800000#32
  let main_v10 : FVec F S128x2048x4 .f32 := broadcastInDim S128x2048x4 ![] bcast_S_S128x2048x4 main_cst_2
  let main_v11 : IVec S128x2048x4 1 := cmpf .olt main_v9 main_v10
  let main_c_3 : IVec S_ 1 := constantI S_ 1 1#1
  let main_v12 : IVec S_ 1 := (fun x v => Host.reduce IntOp.andi x v reducesTo_S128x2048x4_S_d0_1_2 h_S_) main_v11 main_c_3
  let main_v13 : IVec S_ 1 := andi main_v8 main_v12
  let main_v14 : FVec F S128x2 .f32 := Host.absf main_arg5
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg6 main_v13 main_v16
-- ==== Kernel.lean ====
abbrev S128x2048x117 : Shape := ⟨3, ![128, 2048, 117]⟩
abbrev S128x2048x4 : Shape := ⟨3, ![128, 2048, 4]⟩
abbrev S128x2048 : Shape := ⟨2, ![128, 2048]⟩
abbrev S128x2 : Shape := ⟨2, ![128, 2]⟩
abbrev S128x1 : Shape := ⟨2, ![128, 1]⟩
abbrev S128 : Shape := ⟨1, ![128]⟩
abbrev S128x4 : Shape := ⟨2, ![128, 4]⟩
abbrev S128x1x4 : Shape := ⟨3, ![128, 1, 4]⟩
abbrev S262144x4 : Shape := ⟨2, ![262144, 4]⟩
abbrev S262144x117 : Shape := ⟨2, ![262144, 117]⟩
abbrev S262144x1 : Shape := ⟨2, ![262144, 1]⟩
abbrev S4096x117 : Shape := ⟨2, ![4096, 117]⟩
abbrev S4096x4 : Shape := ⟨2, ![4096, 4]⟩
abbrev S4096x1 : Shape := ⟨2, ![4096, 1]⟩
abbrev S4096 : Shape := ⟨1, ![4096]⟩
abbrev S_ : Shape := ⟨0, ![]⟩
abbrev S128x4096x4 : Shape := ⟨3, ![128, 4096, 4]⟩
abbrev S128x4096 : Shape := ⟨2, ![128, 4096]⟩

abbrev nBuf : Space → Nat
  | .hbm => 53
  | .vmem => 16
  | .smem => 0
  | _ => 0

abbrev bufTy : (tb : Table) → Fin (tcTables nBuf tb) → BufTy
  | .hbm, ⟨0, _⟩ => ⟨S128x2048x117, .f32⟩
  | .hbm, ⟨1, _⟩ => ⟨S128x2048x4, .f32⟩
  | .hbm, ⟨2, _⟩ => ⟨S128x2048x4, .f32⟩
  | .hbm, ⟨3, _⟩ => ⟨S128x2048, .i32⟩
  | .hbm, ⟨4, _⟩ => ⟨S128x2048, .i32⟩
  | .hbm, ⟨5, _⟩ => ⟨S128x2, .f32⟩
  | .hbm, ⟨6, _⟩ => ⟨S128x2, .f32⟩
  | .hbm, ⟨7, _⟩ => ⟨S128x1, .f32⟩
  | .hbm, ⟨8, _⟩ => ⟨S128, .f32⟩
  | .hbm, ⟨9, _⟩ => ⟨S128x1, .f32⟩
  | .hbm, ⟨10, _⟩ => ⟨S128, .f32⟩
  | .hbm, ⟨11, _⟩ => ⟨S128, .f32⟩
  | .hbm, ⟨12, _⟩ => ⟨S128x1, .f32⟩
  | .hbm, ⟨13, _⟩ => ⟨S128, .f32⟩
  | .hbm, ⟨14, _⟩ => ⟨S128x1, .f32⟩
  | .hbm, ⟨15, _⟩ => ⟨S128, .f32⟩
  | .hbm, ⟨16, _⟩ => ⟨S128, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x4, .f32⟩
  | .hbm, ⟨22, _⟩ => ⟨S128x1x4, .f32⟩
  | .hbm, ⟨23, _⟩ => ⟨S128x2048x4, .f32⟩
  | .hbm, ⟨24, _⟩ => ⟨S262144x4, .f32⟩
  | .hbm, ⟨25, _⟩ => ⟨S262144x117, .f32⟩
  | .hbm, ⟨26, _⟩ => ⟨S262144x4, .f32⟩
  | .hbm, ⟨27, _⟩ => ⟨S262144x4, .f32⟩
  | .hbm, ⟨28, _⟩ => ⟨S262144x117, .f32⟩
  | .hbm, ⟨29, _⟩ => ⟨S262144x4, .f32⟩
  | .hbm, ⟨30, _⟩ => ⟨S262144x4, .f32⟩
  | .hbm, ⟨31, _⟩ => ⟨S262144x1, .i32⟩
  | .hbm, ⟨32, _⟩ => ⟨S128x2048x117, .f32⟩
  | .hbm, ⟨33, _⟩ => ⟨S128x2048x4, .f32⟩
  | .hbm, ⟨34, _⟩ => ⟨S128x2048x4, .f32⟩
  | .hbm, ⟨35, _⟩ => ⟨S128x2048, .i32⟩
  | .hbm, ⟨36, _⟩ => ⟨S_, .i32⟩
  | .hbm, ⟨37, _⟩ => ⟨S128x2048, .i32⟩
  | .hbm, ⟨38, _⟩ => ⟨S128x2048, .i1⟩
  | .hbm, ⟨39, _⟩ => ⟨S128x2048, .i1⟩
  | .hbm, ⟨40, _⟩ => ⟨S128x4096x4, .f32⟩
  | .hbm, ⟨41, _⟩ => ⟨S_, .i32⟩
  | .hbm, ⟨42, _⟩ => ⟨S128x2048, .i32⟩
  | .hbm, ⟨43, _⟩ => ⟨S128x2048, .i32⟩
  | .hbm, ⟨44, _⟩ => ⟨S_, .i32⟩
  | .hbm, ⟨45, _⟩ => ⟨S128x2048, .i32⟩
  | .hbm, ⟨46, _⟩ => ⟨S128x2048, .i32⟩
  | .hbm, ⟨47, _⟩ => ⟨S128x4096, .i32⟩
  | .hbm, ⟨48, _⟩ => ⟨S128x4096, .i1⟩
  | .hbm, ⟨49, _⟩ => ⟨S_, .i32⟩
  | .hbm, ⟨50, _⟩ => ⟨S_, .i32⟩
  | .hbm, ⟨51, _⟩ => ⟨S128x4096, .i32⟩
  | .hbm, ⟨52, _⟩ => ⟨S128x4096, .i32⟩
  | .local _ .vmem, ⟨0, _⟩ => ⟨S4096x117, .f32⟩
  | .local _ .vmem, ⟨1, _⟩ => ⟨S4096x117, .f32⟩
  | .local _ .vmem, ⟨2, _⟩ => ⟨S4096x4, .f32⟩
  | .local _ .vmem, ⟨3, _⟩ => ⟨S4096x4, .f32⟩
  | .local _ .vmem, ⟨4, _⟩ => ⟨S4096x4, .f32⟩
  | .local _ .vmem, ⟨5, _⟩ => ⟨S4096x4, .f32⟩
  | .local _ .vmem, ⟨6, _⟩ => ⟨S4096x4, .f32⟩
  | .local _ .vmem, ⟨7, _⟩ => ⟨S4096x4, .f32⟩
  | .local _ .vmem, ⟨8, _⟩ => ⟨S4096x117, .f32⟩
  | .local _ .vmem, ⟨9, _⟩ => ⟨S4096x117, .f32⟩
  | .local _ .vmem, ⟨10, _⟩ => ⟨S4096x4, .f32⟩
  | .local _ .vmem, ⟨11, _⟩ => ⟨S4096x4, .f32⟩
  | .local _ .vmem, ⟨12, _⟩ => ⟨S4096x4, .f32⟩
  | .local _ .vmem, ⟨13, _⟩ => ⟨S4096x4, .f32⟩
  | .local _ .vmem, ⟨14, _⟩ => ⟨S4096x1, .i32⟩
  | .local _ .vmem, ⟨15, _⟩ => ⟨S4096x1, .i32⟩
  | _, _ => ⟨S128x2048x117, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev main_v21_2 : Ref sig .tc := ⟨.hbm, 30, rfl⟩
abbrev main_v21_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_0 : Ref sig .tc := ⟨.hbm, 41, rfl⟩
abbrev main_v30 : Ref sig .tc := ⟨.hbm, 42, rfl⟩
abbrev main_v31 : Ref sig .tc := ⟨.hbm, 43, rfl⟩
abbrev main_c_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_2 : Ref sig .tc := ⟨.hbm, 49, rfl⟩
abbrev main_call0_v0 : Ref sig .tc := ⟨.hbm, 50, rfl⟩
abbrev main_call0_v1 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x117 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x117 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S128x2_S128x1_0_1 : S128x2.Slices ![0, 1] S128x1
  shapeCasts_S128x1_S128 : S128x1.ShapeCasts S128
  slices_S128x2_S128x1_0_0 : S128x2.Slices ![0, 0] S128x1
  bcast_S128_S128x1_0 : S128.BroadcastsInDim S128x1 (![0] : Fin 1 → Fin S128x1.rank)
  concatenates_S128x1_S128x1_S128x1_S128x1_S128x4_d1 : Shape.Concatenates [S128x1, S128x1, S128x1, S128x1] S128x4 1
  bcast_S128x4_S128x1x4_0_2 : S128x4.BroadcastsInDim S128x1x4 (![0, 2] : Fin 2 → Fin S128x1x4.rank)
  bcast_S128x1x4_S128x2048x4_0_1_2 : S128x1x4.BroadcastsInDim S128x2048x4 (![0, 1, 2] : Fin 3 → Fin S128x2048x4.rank)
  shapeCasts_S128x2048x4_S262144x4 : S128x2048x4.ShapeCasts S262144x4
  shapeCasts_S128x2048x117_S262144x117 : S128x2048x117.ShapeCasts S262144x117
  inb_S4096x117_S4096x117_0_0 : ∀ a, (![0, 0] : Fin 2 → Nat) a + S4096x117.size a ≤ S4096x117.size a
  h_S4096x117 : 0 < S4096x117.numel
  shapeCasts_S4096x117_S4096x117 : S4096x117.ShapeCasts S4096x117
  reduces_S4096x117_S4096 : S4096x117.Reduces [1] S4096
  shapeCasts_S4096_S4096x1 : S4096.ShapeCasts S4096x1
  broadcasts_S4096x1_S4096x117 : S4096x1.Broadcasts S4096x117
  natLt_1_32 : 1 < 32
  inb_S4096x4_S4096x4_0_0 : ∀ a, (![0, 0] : Fin 2 → Nat) a + S4096x4.size a ≤ S4096x4.size a
  h_S4096x4 : 0 < S4096x4.numel
  shapeCasts_S4096x4_S4096x4 : S4096x4.ShapeCasts S4096x4
  shapeCasts_S4096x1_S4096x1 : S4096x1.ShapeCasts S4096x1
  broadcasts_S4096x1_S4096x4 : S4096x1.Broadcasts S4096x4
  inb_S4096x1_S4096x1_0_0 : ∀ a, (![0, 0] : Fin 2 → Nat) a + S4096x1.size a ≤ S4096x1.size a
  h_S4096x1 : 0 < S4096x1.numel
  shapeCasts_S262144x117_S128x2048x117 : S262144x117.ShapeCasts S128x2048x117
  shapeCasts_S262144x4_S128x2048x4 : S262144x4.ShapeCasts S128x2048x4
  shapeCasts_S262144x1_S128x2048 : S262144x1.ShapeCasts S128x2048
  bcast_S_S128x2048 : S_.BroadcastsInDim S128x2048 (![] : Fin 0 → Fin S128x2048.rank)
  concatenates_S128x2048x4_S128x2048x4_S128x4096x4_d1 : Shape.Concatenates [S128x2048x4, S128x2048x4] S128x4096x4 1
  concatenates_S128x2048_S128x2048_S128x4096_d1 : Shape.Concatenates [S128x2048, S128x2048] S128x4096 1
  bcast_S_S128x4096 : S_.BroadcastsInDim S128x4096 (![] : Fin 0 → Fin S128x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x117.size a ≤ S262144x117.size a
  hwx0_0 : ∀ i : grid0.Coords, EltTy.bits .f32 = 32 ∨ (Rect.block (s := S262144x117) S4096x117.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x4.size a ≤ S262144x4.size a
  hwx0_1 : ∀ i : grid0.Coords, EltTy.bits .f32 = 32 ∨ (Rect.block (s := S262144x4) S4096x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x4.size a ≤ S262144x4.size a
  hwx0_2 : ∀ i : grid0.Coords, EltTy.bits .f32 = 32 ∨ (Rect.block (s := S262144x4) S4096x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x4.size a ≤ S262144x4.size a
  hwx0_3 : ∀ i : grid0.Coords, EltTy.bits .f32 = 32 ∨ (Rect.block (s := S262144x4) S4096x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x117.size a ≤ S262144x117.size a
  hwx0_4 : ∀ i : grid0.Coords, EltTy.bits .f32 = 32 ∨ (Rect.block (s := S262144x117) S4096x117.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x4.size a ≤ S262144x4.size a
  hwx0_5 : ∀ i : grid0.Coords, EltTy.bits .f32 = 32 ∨ (Rect.block (s := S262144x4) S4096x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x4.size a ≤ S262144x4.size a
  hwx0_6 : ∀ i : grid0.Coords, EltTy.bits .f32 = 32 ∨ (Rect.block (s := S262144x4) S4096x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x1.size a ≤ S262144x1.size a
  hwx0_7 : ∀ i : grid0.Coords, EltTy.bits .i32 = 32 ∨ (Rect.block (s := S262144x1) S4096x1.size (cc0_transform_7 i) (hinb0_7 i)).WholeWords (EltTy.packing .i32)

variable [Facts₀]

abbrev win0_0 : Pipeline.Window sig grid0 :=
  Pipeline.Window.ofSpec (Memref.whole main_v18) S4096x117.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S4096x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4096x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S4096x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21_0) S4096x117.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21_1) S4096x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_2) S4096x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v21_3) S4096x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S128x2048x117 : Shape := ⟨3, ![128, 2048, 117]⟩
abbrev S128x2048x4 : Shape := ⟨3, ![128, 2048, 4]⟩
abbrev S128x2048 : Shape := ⟨2, ![128, 2048]⟩
abbrev S128x2 : Shape := ⟨2, ![128, 2]⟩
abbrev S128x1 : Shape := ⟨2, ![128, 1]⟩
abbrev S128 : Shape := ⟨1, ![128]⟩
abbrev S128x4 : Shape := ⟨2, ![128, 4]⟩
abbrev S128x1x4 : Shape := ⟨3, ![128, 1, 4]⟩
abbrev S_ : Shape := ⟨0, ![]⟩
abbrev S128x2048x1 : Shape := ⟨3, ![128, 2048, 1]⟩
abbrev S128x4096x4 : Shape := ⟨3, ![128, 4096, 4]⟩
abbrev S128x4096 : Shape := ⟨2, ![128, 4096]⟩

abbrev nBuf : Space → Nat
  | .hbm => 67
  | .vmem => 0
  | .smem => 0
  | _ => 0

abbrev bufTy : (tb : Table) → Fin (tcTables nBuf tb) → BufTy
  | .hbm, ⟨0, _⟩ => ⟨S128x2048x117, .f32⟩
  | .hbm, ⟨1, _⟩ => ⟨S128x2048x4, .f32⟩
  | .hbm, ⟨2, _⟩ => ⟨S128x2048x4, .f32⟩
  | .hbm, ⟨3, _⟩ => ⟨S128x2048, .i32⟩
  | .hbm, ⟨4, _⟩ => ⟨S128x2048, .i32⟩
  | .hbm, ⟨5, _⟩ => ⟨S128x2, .f32⟩
  | .hbm, ⟨6, _⟩ => ⟨S128x2, .f32⟩
  | .hbm, ⟨7, _⟩ => ⟨S128x1, .f32⟩
  | .hbm, ⟨8, _⟩ => ⟨S128, .f32⟩
  | .hbm, ⟨9, _⟩ => ⟨S128x1, .f32⟩
  | .hbm, ⟨10, _⟩ => ⟨S128, .f32⟩
  | .hbm, ⟨11, _⟩ => ⟨S128, .f32⟩
  | .hbm, ⟨12, _⟩ => ⟨S128x1, .f32⟩
  | .hbm, ⟨13, _⟩ => ⟨S128, .f32⟩
  | .hbm, ⟨14, _⟩ => ⟨S128x1, .f32⟩
  | .hbm, ⟨15, _⟩ => ⟨S128, .f32⟩
  | .hbm, ⟨16, _⟩ => ⟨S128, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x4, .f32⟩
  | .hbm, ⟨22, _⟩ => ⟨S128x1x4, .f32⟩
  | .hbm, ⟨23, _⟩ => ⟨S_, .f32⟩
  | .hbm, ⟨24, _⟩ => ⟨S128x2048, .f32⟩
  | .hbm, ⟨25, _⟩ => ⟨S_, .f32⟩
  | .hbm, ⟨26, _⟩ => ⟨S128x2048, .f32⟩
  | .hbm, ⟨27, _⟩ => ⟨S128x2048, .f32⟩
  | .hbm, ⟨28, _⟩ => ⟨S128x2048x1, .f32⟩
  | .hbm, ⟨29, _⟩ => ⟨S128x2048x117, .f32⟩
  | .hbm, ⟨30, _⟩ => ⟨S128x2048x117, .f32⟩
  | .hbm, ⟨31, _⟩ => ⟨S128x2048x117, .f32⟩
  | .hbm, ⟨32, _⟩ => ⟨S_, .f32⟩
  | .hbm, ⟨33, _⟩ => ⟨S128x2048, .f32⟩
  | .hbm, ⟨34, _⟩ => ⟨S128x2048x1, .f32⟩
  | .hbm, ⟨35, _⟩ => ⟨S128x2048x117, .f32⟩
  | .hbm, ⟨36, _⟩ => ⟨S128x2048x117, .f32⟩
  | .hbm, ⟨37, _⟩ => ⟨S_, .f32⟩
  | .hbm, ⟨38, _⟩ => ⟨S128x2048, .f32⟩
  | .hbm, ⟨39, _⟩ => ⟨S_, .f32⟩
  | .hbm, ⟨40, _⟩ => ⟨S128x2048, .f32⟩
  | .hbm, ⟨41, _⟩ => ⟨S128x2048, .i1⟩
  | .hbm, ⟨42, _⟩ => ⟨S128x2048x1, .i1⟩
  | .hbm, ⟨43, _⟩ => ⟨S128x2048x1, .f32⟩
  | .hbm, ⟨44, _⟩ => ⟨S128x2048x4, .f32⟩
  | .hbm, ⟨45, _⟩ => ⟨S128x2048x4, .f32⟩
  | .hbm, ⟨46, _⟩ => ⟨S128x2048x4, .f32⟩
  | .hbm, ⟨47, _⟩ => ⟨S128x2048x4, .f32⟩
  | .hbm, ⟨48, _⟩ => ⟨S128x2048x4, .f32⟩
  | .hbm, ⟨49, _⟩ => ⟨S128x2048x4, .f32⟩
  | .hbm, ⟨50, _⟩ => ⟨S128x2048x4, .f32⟩
  | .hbm, ⟨51, _⟩ => ⟨S128x2048x4, .f32⟩
  | .hbm, ⟨52, _⟩ => ⟨S128x4096x4, .f32⟩
  | .hbm, ⟨53, _⟩ => ⟨S128x2048x117, .f32⟩
  | .hbm, ⟨54, _⟩ => ⟨S128x2048x117, .f32⟩
  | .hbm, ⟨55, _⟩ => ⟨S_, .i32⟩
  | .hbm, ⟨56, _⟩ => ⟨S128x2048, .i32⟩
  | .hbm, ⟨57, _⟩ => ⟨S128x2048, .i32⟩
  | .hbm, ⟨58, _⟩ => ⟨S_, .i32⟩
  | .hbm, ⟨59, _⟩ => ⟨S128x2048, .i32⟩
  | .hbm, ⟨60, _⟩ => ⟨S128x2048, .i32⟩
  | .hbm, ⟨61, _⟩ => ⟨S128x4096, .i32⟩
  | .hbm, ⟨62, _⟩ => ⟨S128x4096, .i1⟩
  | .hbm, ⟨63, _⟩ => ⟨S_, .i32⟩
  | .hbm, ⟨64, _⟩ => ⟨S_, .i32⟩
  | .hbm, ⟨65, _⟩ => ⟨S128x4096, .i32⟩
  | .hbm, ⟨66, _⟩ => ⟨S128x4096, .i32⟩
  | _, _ => ⟨S128x2048x117, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_1 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_5 : Ref sig .tc := ⟨.hbm, 63, rfl⟩
abbrev main_call0_v0 : Ref sig .tc := ⟨.hbm, 64, rfl⟩
abbrev main_call0_v1 : Ref sig .tc := ⟨.hbm, 65, rfl⟩
abbrev main_v49 : Ref sig .tc := ⟨.hbm, 66, rfl⟩

abbrev nD : Nat := 1
abbrev τ : Topo := Topo.v7x

variable {F : FTy → Type} [FloatOps F]

class Facts₀ : Prop where
  slices_S128x2_S128x1_0_1 : S128x2.Slices ![0, 1] S128x1
  shapeCasts_S128x1_S128 : S128x1.ShapeCasts S128
  slices_S128x2_S128x1_0_0 : S128x2.Slices ![0, 0] S128x1
  bcast_S128_S128x1_0 : S128.BroadcastsInDim S128x1 (![0] : Fin 1 → Fin S128x1.rank)
  concatenates_S128x1_S128x1_S128x1_S128x1_S128x4_d1 : Shape.Concatenates [S128x1, S128x1, S128x1, S128x1] S128x4 1
  bcast_S128x4_S128x1x4_0_2 : S128x4.BroadcastsInDim S128x1x4 (![0, 2] : Fin 2 → Fin S128x1x4.rank)
  reducesTo_S128x2048x117_S128x2048_d2 : S128x2048x117.ReducesTo [2] S128x2048
  h_S_ : 0 < S_.numel
  bcast_S_S128x2048 : S_.BroadcastsInDim S128x2048 (![] : Fin 0 → Fin S128x2048.rank)
  bcast_S128x2048_S128x2048x1_0_1 : S128x2048.BroadcastsInDim S128x2048x1 (![0, 1] : Fin 2 → Fin S128x2048x1.rank)
  bcast_S128x2048x1_S128x2048x117_0_1_2 : S128x2048x1.BroadcastsInDim S128x2048x117 (![0, 1, 2] : Fin 3 → Fin S128x2048x117.rank)
  bcast_S128x1x4_S128x2048x4_0_1_2 : S128x1x4.BroadcastsInDim S128x2048x4 (![0, 1, 2] : Fin 3 → Fin S128x2048x4.rank)
  bcast_S128x2048x1_S128x2048x4_0_1_2 : S128x2048x1.BroadcastsInDim S128x2048x4 (![0, 1, 2] : Fin 3 → Fin S128x2048x4.rank)
  concatenates_S128x2048x4_S128x2048x4_S128x4096x4_d1 : Shape.Concatenates [S128x2048x4, S128x2048x4] S128x4096x4 1
  concatenates_S128x2048_S128x2048_S128x4096_d1 : Shape.Concatenates [S128x2048, S128x2048] S128x4096 1
  bcast_S_S128x4096 : S_.BroadcastsInDim S128x4096 (![] : Fin 0 → Fin S128x4096.rank)

variable [Facts₀]

class Facts : Prop extends Facts₀ where

variable [Facts]
-- ==== Proof.KernelRegion.lean ====
/-
  The run of `Kernel`'s @main around its one region, at any float instance `F`.

  @main is: twenty-one host lines (the two scale quotients, the four-column scale row, its broadcast over the 2048
  candidates of an image, and the four arrays flattened to 262144 rows), the region, and twenty-one host lines after it
  (the four results un-flattened, the boxes and labels joined, the labels masked).  The region runs the body at 64 grid
  points; at point t every window's block is rows 4096·t … 4096·t+4095 of its array.  The body reads the four input
  blocks whole and stores each of the four output blocks whole, so what an output block holds after the body is a
  function of the input blocks alone: the score block scaled by the row's keep flag, the two box blocks scaled by the
  scale block and by the flag, and the flag itself as a 32-bit word.

  Proved here: the body's triple, the pipeline's proof data, the body obligation at every point, and from the
  library's launch theorem the run: every weakly fair execution ends, without a fault, with every array of the
  pipeline at what the write-backs left and every other buffer as the host lines after the region leave it; and
  from that run, that the seven argument arrays end as they were.
-/
import proofs.«126910_j32856499814727_2_alg».proof.Proof.Gen.Kernel.Launch
import proofs.«126910_j32856499814727_2_alg».proof.Proof.Gen.Kernel.Skeleton
import proofs.«126910_j32856499814727_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region: @main's own, then the three of the masking function it calls. -/
abbrev tailOps : List (List (HloOp τ sig (Elt F))) := [hostOps1, hostOps1_1]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is its host lines, the region, its later host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is none of the pipeline's eight arrays. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point (it is fetched at every point, uncut and
    never idle), for any proof data over the region-entry arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (it is fetched at every point, uncut and
    never idle), for any proof data over the region-entry arrays whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (it is fetched at every point, uncut and
    never idle), for any proof data over the region-entry arrays whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (it is fetched at every point, uncut and
    never idle), for any proof data over the region-entry arrays whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read and written whole -/

abbrev rScores : Rect S4096x117 := Rect.unit (s := S4096x117) ![0, 0] S4096x117.size inb_S4096x117_S4096x117_0_0
abbrev rBoxes : Rect S4096x4 := Rect.unit (s := S4096x4) ![0, 0] S4096x4.size inb_S4096x4_S4096x4_0_0
abbrev rFlag : Rect S4096x1 := Rect.unit (s := S4096x1) ![0, 0] S4096x1.size inb_S4096x1_S4096x1_0_0

/-! ## What the body leaves in each output block, from the input blocks
    (`xs` the score block, `xa` `xb` the two box blocks, `xk` the scale block) -/

/-- The score block times the row's keep flag. -/
def outScores (xs : Vec F S4096x117 .f32) : Vec F S4096x117 .f32 :=
  View.canon [⟨rScores, k0_pay4 (View.ld xs rScores)⟩]
/-- The first box block times the scale block times the row's keep flag. -/
def outBoxesA (xs : Vec F S4096x117 .f32) (xk xa : Vec F S4096x4 .f32) : Vec F S4096x4 .f32 :=
  View.canon [⟨rBoxes, k0_pay7 (View.ld xs rScores) (View.ld xk rBoxes) (View.ld xa rBoxes)⟩]
/-- The second box block likewise. -/
def outBoxesB (xs : Vec F S4096x117 .f32) (xk xb : Vec F S4096x4 .f32) : Vec F S4096x4 .f32 :=
  View.canon [⟨rBoxes, k0_pay8 (View.ld xs rScores) (View.ld xk rBoxes) (View.ld xb rBoxes)⟩]
/-- The row's keep flag as a 32-bit word. -/
def outFlag (xs : Vec F S4096x117 .f32) : Vec F S4096x1 .i32 :=
  View.canon [⟨rFlag, k0_pay9 (View.ld xs rScores)⟩]

/-- One whole-block store covers the block. -/
theorem coverScores (p0 : Vec F S4096x117 .f32) (y : S4096x117.Idx) :
    ∃ pc ∈ ([⟨rScores, p0⟩] : List (View.Piece (Elt F) S4096x117 .f32)), y ∈ pc.1.set :=
  View.cover_of_tiled [⟨rScores, p0⟩] S4096x117.size (by rfl) y
theorem coverBoxes (p0 : Vec F S4096x4 .f32) (y : S4096x4.Idx) :
    ∃ pc ∈ ([⟨rBoxes, p0⟩] : List (View.Piece (Elt F) S4096x4 .f32)), y ∈ pc.1.set :=
  View.cover_of_tiled [⟨rBoxes, p0⟩] S4096x4.size (by rfl) y
theorem coverFlag (p0 : Vec F S4096x1 .i32) (y : S4096x1.Idx) :
    ∃ pc ∈ ([⟨rFlag, p0⟩] : List (View.Piece (Elt F) S4096x1 .i32)), y ∈ pc.1.set :=
  View.cover_of_tiled [⟨rFlag, p0⟩] S4096x1.size (by rfl) y

/-! ## The body's triple -/

set_option maxHeartbeats 4000000 in
/-- The body on whole staging buffers, the inputs' at known contents and the outputs' at anything, runs to the
    continuation with the inputs' as they were and each output's at the value above of the inputs'. -/
theorem sound_kernel (c : Dev nD) (E : Set ℕ) (i : grid0.Coords)
    (arg1 : Memref sig .tc .vmem S4096x117 .f32) (harg1 : arg1.IsWhole) (arg2 : Memref sig .tc .vmem S4096x4 .f32) (harg2 : arg2.IsWhole)
    (arg3 : Memref sig .tc .vmem S4096x4 .f32) (harg3 : arg3.IsWhole) (arg4 : Memref sig .tc .vmem S4096x4 .f32) (harg4 : arg4.IsWhole)
    (arg5 : Memref sig .tc .vmem S4096x117 .f32) (harg5 : arg5.IsWhole) (arg6 : Memref sig .tc .vmem S4096x4 .f32) (harg6 : arg6.IsWhole)
    (arg7 : Memref sig .tc .vmem S4096x4 .f32) (harg7 : arg7.IsWhole) (arg8 : Memref sig .tc .vmem S4096x1 .i32) (harg8 : arg8.IsWhole)
    (xs : Vec F S4096x117 .f32) (xa xb xk : Vec F S4096x4 .f32) (K : PUnit → sProp 𝕄) :
    iprop(owns (c : Thread nD τ) arg1 fullShare xs ∗ owns (c : Thread nD τ) arg2 fullShare xa
        ∗ owns (c : Thread nD τ) arg3 fullShare xb ∗ owns (c : Thread nD τ) arg4 fullShare xk
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare xs ∗ owns (c : Thread nD τ) arg2 fullShare xa
            ∗ owns (c : Thread nD τ) arg3 fullShare xb ∗ owns (c : Thread nD τ) arg4 fullShare xk
            ∗ owns (c : Thread nD τ) arg5 fullShare (outScores xs) ∗ owns (c : Thread nD τ) arg6 fullShare (outBoxesA xs xk xa)
            ∗ owns (c : Thread nD τ) arg7 fullShare (outBoxesB xs xk xb) ∗ owns (c : Thread nD τ) arg8 fullShare (outFlag xs)) -∗ K ⟨⟩))
      ⊢ wp frame (wpE (defs₀ (F := F)) Variants.none c none) E
          (cc0__postprocess_kernel i arg1 harg1 arg2 harg2 arg3 harg3 arg4 harg4 arg5 harg5 arg6 harg6 arg7 harg7 arg8 harg8) K := by
  simp only [cc0__postprocess_kernel_eq_skeleton]; unfold cc0__postprocess_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverScores _)
  isplitl [H6]
  · iexists _; isplitr
    swap; · iexact H6
    ipureintro
    exact View.read_writes_eq_canon _ _ _ (coverBoxes _)
  isplitl [H7]
  · iexists _; isplitr
    swap; · iexact H7
    ipureintro
    exact View.read_writes_eq_canon _ _ _ (coverBoxes _)
  iexists _; isplitr
  swap; · iexact H8
  ipureintro
  exact View.read_writes_eq_canon _ _ _ (coverFlag _)

/-! ## The pipeline's proof data -/

/-- On core `c`: the arrays as the region finds them; after the body at point `t` each input's buffer at its block
    and each output's at the value above of the input blocks; the class's invariant (the scoped rest and the
    generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScores (iblk m c 0 t)
    | ⟨5, _⟩ => outBoxesA (iblk m c 0 t) (iblk m c 3 t) (iblk m c 1 t)
    | ⟨6, _⟩ => outBoxesB (iblk m c 0 t) (iblk m c 3 t) (iblk m c 2 t)
    | ⟨7, _⟩ => outFlag (iblk m c 0 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outScores (iblk m c 0 t) := by dsimp only [dats]
theorem after_5 (c : Dev nD) (t : Fin cfg0.N) : (dats m 0 c).after 5 t = outBoxesA (iblk m c 0 t) (iblk m c 3 t) (iblk m c 1 t) := by dsimp only [dats]
theorem after_6 (c : Dev nD) (t : Fin cfg0.N) : (dats m 0 c).after 6 t = outBoxesB (iblk m c 0 t) (iblk m c 3 t) (iblk m c 2 t) := by dsimp only [dats]
theorem after_7 (c : Dev nD) (t : Fin cfg0.N) : (dats m 0 c).after 7 t = outFlag (iblk m c 0 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, without a fault, with every array of the pipeline at what the
    write-backs left and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The seven argument arrays end as launched: none is an array of the pipeline, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.Kernel.Region

end
-- ==== Proof.KernelIdealRegion.lean ====
/-
  The run of `KernelIdeal`'s @main around its one region, at any float instance `F`.

  @main is: twenty-one host lines (the two scale quotients, the four-column scale row, its broadcast over the 2048
  candidates of an image, and the four arrays flattened to 262144 rows), the region, and twenty-one host lines after it
  (the four results un-flattened, the boxes and labels joined, the labels masked).  The region runs the body at 64 grid
  points; at point t every window's block is rows 4096·t … 4096·t+4095 of its array.  The body reads the four input
  blocks whole and stores each of the four output blocks whole, so what an output block holds after the body is a
  function of the input blocks alone: the score block scaled by the row's keep flag, the two box blocks scaled by the
  scale block and by the flag, and the flag itself as a 32-bit word.

  Proved here: the body's triple, the pipeline's proof data, the body obligation at every point, and from the
  library's launch theorem the run: every weakly fair execution ends, without a fault, with every array of the
  pipeline at what the write-backs left and every other buffer as the host lines after the region leave it; and
  from that run, that the seven argument arrays end as they were.
-/
import proofs.«126910_j32856499814727_2_alg».proof.Proof.Gen.KernelIdeal.Launch
import proofs.«126910_j32856499814727_2_alg».proof.Proof.Gen.KernelIdeal.Skeleton
import proofs.«126910_j32856499814727_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- What core `c`'s buffers hold when the region is entered: the launch contents after the host lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The host lines after the region: @main's own, then the three of the masking function it calls. -/
abbrev tailOps : List (List (HloOp τ sig (Elt F))) := [hostOps1, hostOps1_1]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is its host lines, the region, its later host lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl
  · exact Pipeline.sub_ucRefs op ((List.forall_iff_forall_mem.mp hostOps1_sub) op hop)
  · exact Pipeline.sub_ucRefs op ((List.forall_iff_forall_mem.mp hostOps1_1_sub) op hop)
/-- They allocate nothing. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl
  · exact (List.forall_iff_forall_mem.mp hostOps1_fresh) op hop
  · exact (List.forall_iff_forall_mem.mp hostOps1_1_fresh) op hop
/-- And each writes only its own result buffer, which is none of the pipeline's eight arrays. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- No host line before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) tailOps c main_arg4 = m ((c : Thread nD τ).loc main_arg4) := by
  unfold Pipeline.afterTail₀
  rw [StableHlo.after_of_forall_not_mem (b := Proc.devRef .tc main_arg4) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) tailOps c main_arg5 = m ((c : Thread nD τ).loc main_arg5) := by
  unfold Pipeline.afterTail₀
  rw [StableHlo.after_of_forall_not_mem (b := Proc.devRef .tc main_arg5) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

/-- Nor does a line after it, and it is no array of the pipeline: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) tailOps c main_arg6 = m ((c : Thread nD τ).loc main_arg6) := by
  unfold Pipeline.afterTail₀
  rw [StableHlo.after_of_forall_not_mem (b := Proc.devRef .tc main_arg6) _ _ (List.forall_iff_forall_mem.mp (by
      simp only [tailOps, hostOps1, hostOps1_1, List.flatten_cons, List.flatten_nil, List.append_nil, List.cons_append,
        List.nil_append, List.Forall, StableHlo.nullary_writes, StableHlo.unary_writes, StableHlo.binary_writes, StableHlo.ternary_writes, StableHlo.reshape_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point (it is fetched at every point, uncut and
    never idle), for any proof data over the region-entry arrays whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point (it is fetched at every point, uncut and
    never idle), for any proof data over the region-entry arrays whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point (it is fetched at every point, uncut and
    never idle), for any proof data over the region-entry arrays whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point (it is fetched at every point, uncut and
    never idle), for any proof data over the region-entry arrays whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer is read and written whole -/

abbrev rScores : Rect S4096x117 := Rect.unit (s := S4096x117) ![0, 0] S4096x117.size inb_S4096x117_S4096x117_0_0
abbrev rBoxes : Rect S4096x4 := Rect.unit (s := S4096x4) ![0, 0] S4096x4.size inb_S4096x4_S4096x4_0_0
abbrev rFlag : Rect S4096x1 := Rect.unit (s := S4096x1) ![0, 0] S4096x1.size inb_S4096x1_S4096x1_0_0

/-! ## What the body leaves in each output block, from the input blocks
    (`xs` the score block, `xa` `xb` the two box blocks, `xk` the scale block) -/

/-- The score block times the row's keep flag. -/
def outScores (xs : Vec F S4096x117 .f32) : Vec F S4096x117 .f32 :=
  View.canon [⟨rScores, k0_pay4 (View.ld xs rScores)⟩]
/-- The first box block times the scale block times the row's keep flag. -/
def outBoxesA (xs : Vec F S4096x117 .f32) (xk xa : Vec F S4096x4 .f32) : Vec F S4096x4 .f32 :=
  View.canon [⟨rBoxes, k0_pay7 (View.ld xs rScores) (View.ld xk rBoxes) (View.ld xa rBoxes)⟩]
/-- The second box block likewise. -/
def outBoxesB (xs : Vec F S4096x117 .f32) (xk xb : Vec F S4096x4 .f32) : Vec F S4096x4 .f32 :=
  View.canon [⟨rBoxes, k0_pay8 (View.ld xs rScores) (View.ld xk rBoxes) (View.ld xb rBoxes)⟩]
/-- The row's keep flag as a 32-bit word. -/
def outFlag (xs : Vec F S4096x117 .f32) : Vec F S4096x1 .i32 :=
  View.canon [⟨rFlag, k0_pay9 (View.ld xs rScores)⟩]

/-- One whole-block store covers the block. -/
theorem coverScores (p0 : Vec F S4096x117 .f32) (y : S4096x117.Idx) :
    ∃ pc ∈ ([⟨rScores, p0⟩] : List (View.Piece (Elt F) S4096x117 .f32)), y ∈ pc.1.set :=
  View.cover_of_tiled [⟨rScores, p0⟩] S4096x117.size (by rfl) y
theorem coverBoxes (p0 : Vec F S4096x4 .f32) (y : S4096x4.Idx) :
    ∃ pc ∈ ([⟨rBoxes, p0⟩] : List (View.Piece (Elt F) S4096x4 .f32)), y ∈ pc.1.set :=
  View.cover_of_tiled [⟨rBoxes, p0⟩] S4096x4.size (by rfl) y
theorem coverFlag (p0 : Vec F S4096x1 .i32) (y : S4096x1.Idx) :
    ∃ pc ∈ ([⟨rFlag, p0⟩] : List (View.Piece (Elt F) S4096x1 .i32)), y ∈ pc.1.set :=
  View.cover_of_tiled [⟨rFlag, p0⟩] S4096x1.size (by rfl) y

/-! ## The body's triple -/

set_option maxHeartbeats 4000000 in
/-- The body on whole staging buffers, the inputs' at known contents and the outputs' at anything, runs to the
    continuation with the inputs' as they were and each output's at the value above of the inputs'. -/
theorem sound_kernel (c : Dev nD) (E : Set ℕ) (i : grid0.Coords)
    (arg1 : Memref sig .tc .vmem S4096x117 .f32) (harg1 : arg1.IsWhole) (arg2 : Memref sig .tc .vmem S4096x4 .f32) (harg2 : arg2.IsWhole)
    (arg3 : Memref sig .tc .vmem S4096x4 .f32) (harg3 : arg3.IsWhole) (arg4 : Memref sig .tc .vmem S4096x4 .f32) (harg4 : arg4.IsWhole)
    (arg5 : Memref sig .tc .vmem S4096x117 .f32) (harg5 : arg5.IsWhole) (arg6 : Memref sig .tc .vmem S4096x4 .f32) (harg6 : arg6.IsWhole)
    (arg7 : Memref sig .tc .vmem S4096x4 .f32) (harg7 : arg7.IsWhole) (arg8 : Memref sig .tc .vmem S4096x1 .i32) (harg8 : arg8.IsWhole)
    (xs : Vec F S4096x117 .f32) (xa xb xk : Vec F S4096x4 .f32) (K : PUnit → sProp 𝕄) :
    iprop(owns (c : Thread nD τ) arg1 fullShare xs ∗ owns (c : Thread nD τ) arg2 fullShare xa
        ∗ owns (c : Thread nD τ) arg3 fullShare xb ∗ owns (c : Thread nD τ) arg4 fullShare xk
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare xs ∗ owns (c : Thread nD τ) arg2 fullShare xa
            ∗ owns (c : Thread nD τ) arg3 fullShare xb ∗ owns (c : Thread nD τ) arg4 fullShare xk
            ∗ owns (c : Thread nD τ) arg5 fullShare (outScores xs) ∗ owns (c : Thread nD τ) arg6 fullShare (outBoxesA xs xk xa)
            ∗ owns (c : Thread nD τ) arg7 fullShare (outBoxesB xs xk xb) ∗ owns (c : Thread nD τ) arg8 fullShare (outFlag xs)) -∗ K ⟨⟩))
      ⊢ wp frame (wpE (defs₀ (F := F)) Variants.none c none) E
          (cc0__postprocess_kernel i arg1 harg1 arg2 harg2 arg3 harg3 arg4 harg4 arg5 harg5 arg6 harg6 arg7 harg7 arg8 harg8) K := by
  simp only [cc0__postprocess_kernel_eq_skeleton]; unfold cc0__postprocess_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverScores _)
  isplitl [H6]
  · iexists _; isplitr
    swap; · iexact H6
    ipureintro
    exact View.read_writes_eq_canon _ _ _ (coverBoxes _)
  isplitl [H7]
  · iexists _; isplitr
    swap; · iexact H7
    ipureintro
    exact View.read_writes_eq_canon _ _ _ (coverBoxes _)
  iexists _; isplitr
  swap; · iexact H8
  ipureintro
  exact View.read_writes_eq_canon _ _ _ (coverFlag _)

/-! ## The pipeline's proof data -/

/-- On core `c`: the arrays as the region finds them; after the body at point `t` each input's buffer at its block
    and each output's at the value above of the input blocks; the class's invariant (the scoped rest and the
    generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outScores (iblk m c 0 t)
    | ⟨5, _⟩ => outBoxesA (iblk m c 0 t) (iblk m c 3 t) (iblk m c 1 t)
    | ⟨6, _⟩ => outBoxesB (iblk m c 0 t) (iblk m c 3 t) (iblk m c 2 t)
    | ⟨7, _⟩ => outFlag (iblk m c 0 t)
  Φ _ := Pipeline.ΦA spec0 c
  q _ := fullShare
  owed _ := 0

/-- The proof data's arrays are the region-entry contents (the definition projected, the host prefix never unfolded). -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = outScores (iblk m c 0 t) := by dsimp only [dats]
theorem after_5 (c : Dev nD) (t : Fin cfg0.N) : (dats m 0 c).after 5 t = outBoxesA (iblk m c 0 t) (iblk m c 3 t) (iblk m c 1 t) := by dsimp only [dats]
theorem after_6 (c : Dev nD) (t : Fin cfg0.N) : (dats m 0 c).after 6 t = outBoxesB (iblk m c 0 t) (iblk m c 3 t) (iblk m c 2 t) := by dsimp only [dats]
theorem after_7 (c : Dev nD) (t : Fin cfg0.N) : (dats m 0 c).after 7 t = outFlag (iblk m c 0 t) := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main ends, without a fault, with every array of the pipeline at what the
    write-backs left and every other unscoped buffer as the host lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The seven argument arrays end as launched: none is an array of the pipeline, and no host line writes one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.KernelIdeal.Region

end
-- ==== Proof.Spec.lean ====
/-
  The specification both programs are compared with, written over ONE ROW of scores and over no program.

  A row is `r : Fin 117 → EReal`, the 117 class scores of one candidate as extended reals. From it:
  the row's maximum `rowMax r`; the shifted exponentials `rowExp r k = exp (r k - rowMax r)`; their sum
  `rowSum r`; the probabilities `rowProb r k = rowExp r k / rowSum r` (the division of the ideal values, with
  its corners at zero and the infinities); the largest probability `rowPeak r`; the one-bit word
  `rowKeep r` that says whether the largest probability reaches one half; and that bit as the real 0 or 1,
  `rowKeepF r`. The box scale of a batch entry at box coordinate `d` is `scaleAt w h d`: the width ratio `w` at
  coordinates 0 and 2, the height ratio `h` at coordinates 1 and 3.

  Float literals stay words: −∞ is `Ideal.ofBits .f32 0xFF800000#32`, one half is
  `Ideal.ofBits .f32 0x3F000000#32`; neither is ever evaluated. Three facts stand at the end. Two are the only laws
  of the extended reals a comparison with this specification needs beyond unfolding: a maximum with the fold's own
  starting value changes nothing, and the zero word added to a sum changes nothing. The third is about words: the
  signed conversion of a bit widened to 32 bits is the unsigned conversion of the bit.
-/
import Idealize.ShloMosaic.PureOps.Ideal
import Idealize.ShloMosaic.PureOps.Ideal.Laws
import Idealize.ShloMosaic.Lib.ValueIdx

noncomputable section

open scoped BigOperators

namespace Cert.Proof.Spec

open Idealize.ShloMosaic

/-- The row's maximum: `Finset.fold max` over `Finset.univ : Finset (Fin 117)`, started from the value of the
    f32 word `0xFF800000` (−∞), of the row itself — the form in which a maximum-reduction over one axis of
    extent 117, started from that word, reads at a result index (the fold of `max` from the initial value over
    the reduced axis's coordinates). -/
def rowMax (r : Fin 117 → EReal) : EReal :=
  (Finset.univ : Finset (Fin 117)).fold max (Ideal.ofBits .f32 0xFF800000#32) r

/-- The exponential of a score less the row's maximum. -/
def rowExp (r : Fin 117 → EReal) (k : Fin 117) : EReal :=
  Ideal.exp (r k - rowMax r)

/-- The sum of the row's shifted exponentials, a plain `∑` over `Fin 117` (no initial value added). -/
def rowSum (r : Fin 117 → EReal) : EReal :=
  ∑ k : Fin 117, rowExp r k

/-- A class's probability: its shifted exponential over the row's sum. -/
def rowProb (r : Fin 117 → EReal) (k : Fin 117) : EReal :=
  Ideal.div (rowExp r k) (rowSum r)

/-- The largest probability of the row: the same fold as `rowMax` — `Finset.fold max` over
    `Finset.univ : Finset (Fin 117)` from the value of the word `0xFF800000` — of the probabilities. -/
def rowPeak (r : Fin 117 → EReal) : EReal :=
  (Finset.univ : Finset (Fin 117)).fold max (Ideal.ofBits .f32 0xFF800000#32) (rowProb r)

/-- Whether the candidate is kept: the one-bit word of `rowPeak r ≥ 1/2`, the ordered comparison of the ideal
    values against the value of the f32 word `0x3F000000`. -/
def rowKeep (r : Fin 117 → EReal) : BitVec 1 :=
  Ideal.cmp .oge (rowPeak r) (Ideal.ofBits .f32 0x3F000000#32)

/-- The kept bit as a float: the bit's value as a natural number (0 or 1), as a real — what an unsigned
    integer-to-float conversion of the one-bit word is at the ideal values. -/
def rowKeepF (r : Fin 117 → EReal) : EReal :=
  (((rowKeep r).toNat : ℝ) : EReal)

/-- The scale of box coordinate `d`: boxes are (x, y, x, y), so the width ratio `w` at 0 and 2 and the height
    ratio `h` at 1 and 3. -/
def scaleAt (w h : EReal) (d : Fin 4) : EReal :=
  match d with
  | ⟨0, _⟩ => w
  | ⟨1, _⟩ => h
  | ⟨2, _⟩ => w
  | ⟨3, _⟩ => h

/-- A fold of `max` is at least its starting value, so a further maximum with that value changes nothing:
    `max (−∞ word) (rowMax r) = rowMax r`, with the word never evaluated. -/
theorem max_init_rowMax (r : Fin 117 → EReal) :
    max (Ideal.ofBits .f32 0xFF800000#32) (rowMax r) = rowMax r :=
  max_eq_right ((Finset.le_fold_max _).mpr (Or.inl le_rfl))

/-- The f32 zero word added in front of the row's sum changes nothing. -/
theorem zero_add_rowSum (r : Fin 117 → EReal) :
    Ideal.ofBits .f32 0x00000000#32 + rowSum r = rowSum r := by
  rw [Ideal.ofBits_zero_f32, zero_add]

/-- A one-bit word widened to 32 bits without sign and then read as a signed integer has the bit's own value:
    the signed conversion of the widened word and the unsigned conversion of the bit are the same real. -/
theorem keepF_of_widened (b : BitVec 1) :
    (((b.setWidth 32).toInt : ℝ) : EReal) = (((b.toNat : ℕ) : ℝ) : EReal) := by
  rcases BitVec.eq_zero_or_eq_one b with h | h <;> subst h <;> simp

end Cert.Proof.Spec

end
-- ==== Proof.LibColBroadcast.lean ====
/-
  A COLUMN BROADCAST ACROSS COLUMNS, READ AT AN ELEMENT.

  An array of shape [a, 1] — one number per row — broadcast to shape [a, b] holds, at (p, c), the number of row p,
  whatever the column c.
-/
import Idealize.ShloMosaic.Lib.Pipeline.Value
import Idealize.ShloMosaic.Lib.ValueIdx

noncomputable section

namespace Cert.Lib

open Idealize.ShloMosaic Idealize.ShloMosaic.ValueIdx

/-- A column of a numbers broadcast to an a-by-b array reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibSoftmaxRows.lean ====
/-
  SOFTMAX ALONG THE ROWS OF A MATRIX, READ AT AN ELEMENT.

  For a row x of n extended reals put  m = max(-inf, max_k x_k)  (the maximum taken from minus infinity, as both a
  vector reduction and a host reduction take it) and  softmax(x)_d = exp(x_d - m) / sum_k exp(x_k - m).
  A kernel block computes this with a lane maximum, a keep-dims column re-laid and spread over the columns, an
  exponential, a lane sum and a quotient; a host program with a reduce by maximum, a maximum with a splat of minus
  infinity, two broadcasts, an exponential, a reduce by addition from zero and a quotient. Both, read at (r, c) at the
  ideal values, are  softmaxRow (row r) c.
-/
import Idealize.ShloMosaic.PureOps.Ideal.Laws
import Idealize.ShloMosaic.Lib.Pipeline.Value
import Idealize.ShloMosaic.Lib.ValueIdx
import Idealize.ShloMosaic.Lib.IdealHost
import proofs.«126910_j32856499814727_2_alg».proof.Proof.LibColBroadcast
import proofs.«126910_j32856499814727_2_alg».proof.Proof.LibHostRead

noncomputable section

open scoped BigOperators

namespace Cert.Lib

open Idealize.ShloMosaic Idealize.ShloMosaic.ValueIdx

/-- The maximum of a row, taken from minus infinity (the f32 word 0xFF800000) and met once more with it. -/
def rowMax {n : ℕ} (x : Fin n → EReal) : EReal :=
  max (Ideal.ofBits .f32 0xFF800000#32) ((Finset.univ : Finset (Fin n)).fold max (Ideal.ofBits .f32 0xFF800000#32) x)

/-- Softmax of a row at entry d: exp (x d - max) over the sum of exp (x k - max). -/
def softmaxRow {n : ℕ} (x : Fin n → EReal) (d : Fin n) : EReal :=
  Ideal.div (Ideal.exp (x d - rowMax x)) (∑ k : Fin n, Ideal.exp (x k - rowMax x))

/-- Inserting the column k into the row index r of an R-by-C matrix gives (r, k). -/
theorem lift_row {R C : ℕ} (h : (⟨2, ![R, C]⟩ : Shape).Reduces [(1 : Fin 2)] ⟨1, ![R]⟩) (r : Fin R)
    (k : Fin ((⟨2, ![R, C]⟩ : Shape).size (1 : Fin 2))) :
    h.lift (ix1 r) k = ix2 r (⟨k.val, k.isLt⟩ : Fin C) := by
  funext c
  apply Fin.ext
  rw [Shape.Reduces.lift_val]
  unfold Shape.Reduces.liftVal
  match c with
  | ⟨0, _⟩ => simp
  | ⟨1, _⟩ => simp

/-- A vector of R numbers re-laid as an R-by-1 column and spread over C columns holds, at (p, c), its entry p. -/
theorem colOfVec_apply {α : Type} {R C : ℕ} (v : (⟨1, ![R]⟩ : Shape).Idx → α)
    (hsc : (⟨1, ![R]⟩ : Shape).ShapeCasts ⟨2, ![R, 1]⟩) (hbc : (⟨2, ![R, 1]⟩ : Shape).Broadcasts ⟨2, ![R, C]⟩)
    (p : Fin R) (c : Fin C) :
    broadcastTo ⟨2, ![R, C]⟩ (shapeCast ⟨2, ![R, 1]⟩ v hsc) hbc (ix2 p c) = v (ix1 p) := by
  rw [broadcastTo_a1_ab_apply]
  refine shapeCast_apply v hsc (ix2 p (0 : Fin 1)) (ix1 p) ?_
  rw [Shape.rowMajor_val_two, Shape.rowMajor_val_one]
  show p.val = p.val * 1 + 0
  omega

/-! ## The kernel's spelling -/

/-- The kernel's row maxima as a matrix: the lane maximum from minus infinity, met with a splat of minus infinity,
    re-laid as a column and spread over the columns. -/
abbrev kMaxSpread {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩) :
    FVec Ideal ⟨2, ![R, C]⟩ .f32 :=
  broadcastTo ⟨2, ![R, C]⟩ (shapeCast ⟨2, ![R, 1]⟩
    (maximumf (broadcast ⟨1, ![R]⟩ (Scalar.ofBits (F := Ideal) .f32 0xFF800000#32))
      (multiReduction .maximumf [(1 : Fin 2)] ⟨1, ![R]⟩ x 0xFF800000#32 hred hφ haccM)) hsc) hbc

theorem kMaxSpread_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, C]⟩)
    (p : Fin R) (k : Fin C) :
    kMaxSpread x hred hφ haccM hsc hbc (ix2 p k) = rowMax (fun k => x (ix2 p k)) := by
  show broadcastTo ⟨2, ![R, C]⟩ (shapeCast ⟨2, ![R, 1]⟩ _ hsc) hbc (ix2 p k) = _
  rw [colOfVec_apply]
  show max (Ideal.ofBits .f32 0xFF800000#32)
    (multiReduction .maximumf [(1 : Fin 2)] ⟨1, ![R]⟩ x 0xFF800000#32 hred hφ haccM (ix1 p)) = _
  rw [Ideal.multiReduction_maximumf_single]
  have e : (x ∘ hred.lift (ix1 p)) = fun k : Fin C => x (ix2 p k) :=
    funext fun k => congrArg x (lift_row hred p k)
  rw [e]
  rfl

/-- The kernel's softmax of a block's rows, read at (r, c). -/
theorem kernelSoftmax_apply {R C : ℕ} (x : FVec Ideal ⟨2, ![R, C]⟩ .f32)
    (hred : (⟨2, ![R, C]⟩ : Shape).Reduces [(1 : Fin 2)] ⟨1, ![R]⟩) (hφ : FKind.Formats .f32)
    (haccM : (0xFF800000#32 : BitVec 32) = FKind.maximumf.neutral .f32 hφ)
    (haccA : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, C]⟩)
    (r : Fin R) (c : Fin C) :
    divf (exp (subf x (kMaxSpread x hred hφ haccM hsc hbc)))
      (broadcastTo ⟨2, ![R, C]⟩ (shapeCast ⟨2, ![R, 1]⟩
        (multiReduction .add [(1 : Fin 2)] ⟨1, ![R]⟩ (exp (subf x (kMaxSpread x hred hφ haccM hsc hbc)))
          0x00000000#32 hred hφ haccA) hsc) hbc) (ix2 r c)
      = softmaxRow (fun k => x (ix2 r k)) c := by
  have hm := kMaxSpread_apply x hred hφ haccM hsc hbc
  show Ideal.div (Ideal.exp (x (ix2 r c) - kMaxSpread x hred hφ haccM hsc hbc (ix2 r c)))
    (broadcastTo ⟨2, ![R, C]⟩ (shapeCast ⟨2, ![R, 1]⟩ _ hsc) hbc (ix2 r c)) = _
  rw [hm r c, colOfVec_apply, Ideal.multiReduction_add_single]
  unfold softmaxRow
  refine congrArg (Ideal.div _) (Finset.sum_congr rfl fun k _ => ?_)
  rw [lift_row hred r k]
  show Ideal.exp (x (ix2 r ⟨k.val, k.isLt⟩) - kMaxSpread x hred hφ haccM hsc hbc (ix2 r ⟨k.val, k.isLt⟩)) = _
  rw [hm r ⟨k.val, k.isLt⟩]
  rfl

/-! ## The host's spelling -/

/-- The host's row maxima as a matrix: a reduce by maximum from minus infinity, met with a splat of minus infinity,
    broadcast to a column and then over the columns. -/
abbrev hMaxSpread {R C : ℕ} (x : FVec Ideal ⟨2, ![R, C]⟩ .f32)
    (h' : (⟨2, ![R, C]⟩ : Shape).ReducesTo [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) : FVec Ideal ⟨2, ![R, C]⟩ .f32 :=
  broadcastInDim ⟨2, ![R, C]⟩ ![0, 1] hb2 (broadcastInDim ⟨2, ![R, 1]⟩ ![0] hb1
    (maximumf (broadcastInDim ⟨1, ![R]⟩ ![] hb0 (constant (F := Ideal) ⟨0, ![]⟩ .f32 0xFF800000#32))
      (Host.reduce FloatOps.maximumf x (constant (F := Ideal) ⟨0, ![]⟩ .f32 0xFF800000#32) h' hS)))

theorem hMaxSpread_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (p : Fin R) (k : Fin C) :
    hMaxSpread x h' hS hb0 hb1 hb2 (ix2 p k) = rowMax (fun k => x (ix2 p k)) := by
  show broadcastInDim ⟨2, ![R, C]⟩ ![0, 1] hb2 (broadcastInDim (s := ⟨1, ![R]⟩) ⟨2, ![R, 1]⟩ ![0] hb1 _) (ix2 p k) = _
  rw [colSpread_apply ![0] rfl hb1 ![0, 1] rfl rfl hb2]
  show max (broadcastInDim ⟨1, ![R]⟩ ![] hb0 (constant (F := Ideal) ⟨0, ![]⟩ .f32 0xFF800000#32) (ix1 p))
    (Host.reduce FloatOps.maximumf x (constant (F := Ideal) ⟨0, ![]⟩ .f32 0xFF800000#32) h' hS (ix1 p)) = _
  rw [splat_apply, Host.reduce_eq_fold_single FloatOps.maximumf x _ h' hred hS (ix1 p)]
  have e : (x ∘ hred.lift (ix1 p)) = fun k : Fin C => x (ix2 p k) :=
    funext fun k => congrArg x (lift_row hred p k)
  rw [e]
  rfl

/-- The host's softmax of a matrix's rows, read at (r, c). -/
theorem hostSoftmax_apply {R C : ℕ} (x : FVec Ideal ⟨2, ![R, C]⟩ .f32)
    (h' : (⟨2, ![R, C]⟩ : Shape).ReducesTo [(1 : Fin 2)] ⟨1, ![R]⟩)
    (hred : (⟨2, ![R, C]⟩ : Shape).Reduces [(1 : Fin 2)] ⟨1, ![R]⟩) (hS : 0 < (⟨0, ![]⟩ : Shape).numel)
    (hb0 : (⟨0, ![]⟩ : Shape).BroadcastsInDim ⟨1, ![R]⟩ ![])
    (hb1 : (⟨1, ![R]⟩ : Shape).BroadcastsInDim ⟨2, ![R, 1]⟩ ![0])
    (hb2 : (⟨2, ![R, 1]⟩ : Shape).BroadcastsInDim ⟨2, ![R, C]⟩ ![0, 1]) (r : Fin R) (c : Fin C) :
    Host.divf (Host.exp (subf x (hMaxSpread x h' hS hb0 hb1 hb2)))
      (broadcastInDim ⟨2, ![R, C]⟩ ![0, 1] hb2 (broadcastInDim ⟨2, ![R, 1]⟩ ![0] hb1
        (Host.reduceAdd (Host.exp (subf x (hMaxSpread x h' hS hb0 hb1 hb2)))
          (constant (F := Ideal) ⟨0, ![]⟩ .f32 0x00000000#32) h' hS))) (ix2 r c)
      = softmaxRow (fun k => x (ix2 r k)) c := by
  have hm := hMaxSpread_apply x h' hred hS hb0 hb1 hb2
  show Ideal.div (Ideal.exp (x (ix2 r c) - hMaxSpread x h' hS hb0 hb1 hb2 (ix2 r c)))
    (broadcastInDim ⟨2, ![R, C]⟩ ![0, 1] hb2 (broadcastInDim (s := ⟨1, ![R]⟩) ⟨2, ![R, 1]⟩ ![0] hb1 _) (ix2 r c)) = _
  rw [hm r c, colSpread_apply ![0] rfl hb1 ![0, 1] rfl rfl hb2]
  simp only [Host.reduceAdd, Ideal.hostReduceAdd_def]
  rw [Ideal.hostReduceAdd_single h' hred]
  show Ideal.div _ (Ideal.ofBits .f32 0x00000000#32 + _) = _
  rw [Ideal.ofBits_zero_f32, zero_add]
  unfold softmaxRow
  refine congrArg (Ideal.div _) (Finset.sum_congr rfl fun k _ => ?_)
  rw [lift_row hred r k]
  show Ideal.exp (x (ix2 r ⟨k.val, k.isLt⟩) - hMaxSpread x h' hS hb0 hb1 hb2 (ix2 r ⟨k.val, k.isLt⟩)) = _
  rw [hm r ⟨k.val, k.isLt⟩]
  rfl

end Cert.Lib

end
-- ==== Proof.KernelRows.lean ====
/-
  What the body stores, read at an element, at the ideal values.

  A block of scores is a 4096-by-117 matrix x; its row q is the 117 scores of one candidate.  The body takes the
  row's maximum (a lane maximum from minus infinity), subtracts it, exponentiates, divides by the lane sum, takes
  the largest quotient, compares it with one half, and turns that bit into the float 0 or 1.  Read at row q these are
  exactly the row quantities of the specification, so:
    the stored scores at (q, k) are   x(q, k) · keepF(row q),
    the stored boxes  at (q, d) are   (box(q, d) · scale(q, d)) · keepF(row q),
    the stored flag   at (q, 0) is    keep(row q) widened to 32 bits.
  Nothing here needs the scores to be finite: both sides are the same expression of the row.
-/
import proofs.«126910_j32856499814727_2_alg».proof.Proof.Gen.KernelIdeal.Skeleton
import proofs.«126910_j32856499814727_2_alg».proof.Proof.Spec
import proofs.«126910_j32856499814727_2_alg».proof.Proof.LibSoftmaxRows
import Idealize.ShloMosaic.Lib.ValueIdx
import Idealize.ShloMosaic.Lib.Pipeline.Value
import Idealize.ShloMosaic.PureOps.Ideal.Laws

noncomputable section

open scoped BigOperators

namespace Cert.Proof.KernelRows

open Idealize.ShloMosaic Idealize.ShloMosaic.ValueIdx
open Cert.KernelIdeal Cert.KernelIdeal.Gen
open Cert.Proof

/-- Row q of a block of scores. -/
abbrev row (x : FVec Ideal S4096x117 .f32) (q : Fin 4096) : Fin 117 → EReal := fun k => x (ix2 q k)

/-- The comparison of two ideal values is the comparison of the extended reals (whatever the two values are). -/
theorem cmp_at_ideal (p : CmpFPredicate) (a b : EReal) : FloatOps.cmpf (F := Ideal) (φ := .f32) p a b = Ideal.cmp p a b := rfl
/-- A scalar constant of an f32 word is that word's ideal value (whatever the word is). -/
theorem word_at_ideal (w : BitVec 32) : Scalar.ofBits (F := Ideal) .f32 w = Ideal.ofBits .f32 w := rfl

section Lanes

variable (x : FVec Ideal S4096x117 .f32)
  (hred : S4096x117.Reduces [(1 : Fin 2)] S4096) (hφ : FKind.Formats .f32)
  (hM : (0xFF800000#32 : BitVec 32) = FKind.maximumf.neutral .f32 hφ)
  (hA : (0x00000000#32 : BitVec 32) = FKind.add.neutral .f32 hφ)
  (hsc : S4096.ShapeCasts S4096x1) (hbc : S4096x1.Broadcasts S4096x117)

/-- The lane maximum from minus infinity, at row q: the fold of max over the row. -/
theorem laneMax_at (q : Fin 4096) :
    multiReduction .maximumf [(1 : Fin 2)] S4096 x 0xFF800000#32 hred hφ hM (ix1 q)
      = (Finset.univ : Finset (Fin 117)).fold max (Ideal.ofBits .f32 0xFF800000#32) (row x q) := by
  refine (Ideal.multiReduction_maximumf_single x 0xFF800000#32 hred hφ hM (ix1 q)).trans ?_
  have e : (x ∘ hred.lift (ix1 q)) = fun k : Fin 117 => x (ix2 q k) :=
    funext fun k => congrArg x (Cert.Lib.lift_row hred q k)
  rw [e]
  rfl

/-- The lane sum from zero, at row q: the sum over the row. -/
theorem laneSum_at (q : Fin 4096) :
    multiReduction .add [(1 : Fin 2)] S4096 x 0x00000000#32 hred hφ hA (ix1 q) = ∑ k : Fin 117, row x q k := by
  refine (Ideal.multiReduction_add_single x 0x00000000#32 hred hφ hA (ix1 q)).trans ?_
  refine Finset.sum_congr rfl fun k _ => ?_
  exact congrArg x (Cert.Lib.lift_row hred q k)

/-- A vector of 4096 numbers re-laid as a column holds, at (q, 0), its entry q. -/
theorem colCast_at {α : Type} (v : S4096.Idx → α) (q : Fin 4096) :
    shapeCast S4096x1 v hsc (ix2 q (0 : Fin 1)) = v (ix1 q) := by
  refine shapeCast_apply v hsc (ix2 q (0 : Fin 1)) (ix1 q) ?_
  rw [Shape.rowMajor_val_two, Shape.rowMajor_val_one]
  show q.val = q.val * 1 + 0
  omega

/-- The row maxima spread over the columns, as the body spells them. -/
def spreadMax : FVec Ideal S4096x117 .f32 :=
  broadcastTo S4096x117 (shapeCast S4096x1 (multiReduction .maximumf [(1 : Fin 2)] S4096 x 0xFF800000#32 hred hφ hM) hsc) hbc

theorem spreadMax_at (q : Fin 4096) (k : Fin 117) :
    spreadMax x hred hφ hM hsc hbc (ix2 q k) = Spec.rowMax (row x q) := by
  unfold spreadMax
  refine (Cert.Lib.colOfVec_apply _ hsc hbc q k).trans ?_
  exact laneMax_at x hred hφ hM q

/-- The shifted exponentials, as the body spells them. -/
def expsOf : FVec Ideal S4096x117 .f32 := exp (subf x (spreadMax x hred hφ hM hsc hbc))

theorem expsOf_at (q : Fin 4096) (k : Fin 117) :
    expsOf x hred hφ hM hsc hbc (ix2 q k) = Spec.rowExp (row x q) k := by
  show Ideal.exp (x (ix2 q k) - spreadMax x hred hφ hM hsc hbc (ix2 q k)) = _
  rw [spreadMax_at]
  rfl

/-- The probabilities, as the body spells them. -/
def probsOf : FVec Ideal S4096x117 .f32 :=
  divf (expsOf x hred hφ hM hsc hbc)
    (broadcastTo S4096x117 (shapeCast S4096x1
      (multiReduction .add [(1 : Fin 2)] S4096 (expsOf x hred hφ hM hsc hbc) 0x00000000#32 hred hφ hA) hsc) hbc)

theorem probsOf_at (q : Fin 4096) (k : Fin 117) :
    probsOf x hred hφ hM hA hsc hbc (ix2 q k) = Spec.rowProb (row x q) k := by
  show Ideal.div (expsOf x hred hφ hM hsc hbc (ix2 q k))
    (broadcastTo S4096x117 (shapeCast S4096x1 _ hsc) hbc (ix2 q k)) = _
  rw [expsOf_at, Cert.Lib.colOfVec_apply _ hsc hbc q k, laneSum_at]
  unfold Spec.rowProb Spec.rowSum
  refine congrArg (Ideal.div _) (Finset.sum_congr rfl fun k' _ => ?_)
  exact expsOf_at x hred hφ hM hsc hbc q k'

/-- The keep bits as a column, as the body spells them. -/
def keepOf : IVec S4096x1 1 :=
  cmpf .oge (shapeCast S4096x1 (multiReduction .maximumf [(1 : Fin 2)] S4096 (probsOf x hred hφ hM hA hsc hbc) 0xFF800000#32 hred hφ hM) hsc)
    (broadcast S4096x1 (Scalar.ofBits (F := Ideal) .f32 0x3F000000#32))

theorem keepOf_at (q : Fin 4096) :
    keepOf x hred hφ hM hA hsc hbc (ix2 q (0 : Fin 1)) = Spec.rowKeep (row x q) := by
  have hpeak : shapeCast S4096x1 (multiReduction .maximumf [(1 : Fin 2)] S4096 (probsOf x hred hφ hM hA hsc hbc) 0xFF800000#32 hred hφ hM) hsc (ix2 q (0 : Fin 1))
      = Spec.rowPeak (row x q) := by
    rw [colCast_at, laneMax_at]
    unfold Spec.rowPeak
    exact congrArg (fun f => (Finset.univ : Finset (Fin 117)).fold max (Ideal.ofBits .f32 0xFF800000#32) f)
      (funext fun k => probsOf_at x hred hφ hM hA hsc hbc q k)
  unfold keepOf Spec.rowKeep
  rw [cmpf_apply, broadcast_apply, cmp_at_ideal, word_at_ideal, hpeak]

/-- The keep flags as floats, a column. -/
def keepFOf : FVec Ideal S4096x1 .f32 := sitofp .f32 (extui 32 (keepOf x hred hφ hM hA hsc hbc) (by decide))

theorem keepFOf_at (q : Fin 4096) :
    keepFOf x hred hφ hM hA hsc hbc (ix2 q (0 : Fin 1)) = Spec.rowKeepF (row x q) := by
  show ((((keepOf x hred hφ hM hA hsc hbc (ix2 q (0 : Fin 1))).setWidth 32).toInt : ℝ) : EReal) = _
  rw [keepOf_at, Spec.keepF_of_widened]
  rfl

end Lanes

/-! ## The body's own payloads -/

/-- The scores as loaded are the scores (a re-laying to the same shape). -/
theorem pay1_eq (xs : Vec Ideal S4096x117 .f32) : k0_pay1 (F := Ideal) xs = xs := shapeCast_self xs _

theorem pay2_eq (xs : Vec Ideal S4096x117 .f32) :
    k0_pay2 (F := Ideal) xs = keepOf (k0_pay1 (F := Ideal) xs) reduces_S4096x117_S4096 (.inl rfl) rfl rfl shapeCasts_S4096_S4096x1 broadcasts_S4096x1_S4096x117 := rfl

theorem pay3_eq (xs : Vec Ideal S4096x117 .f32) :
    k0_pay3 (F := Ideal) xs = keepFOf (k0_pay1 (F := Ideal) xs) reduces_S4096x117_S4096 (.inl rfl) rfl rfl shapeCasts_S4096_S4096x1 broadcasts_S4096x1_S4096x117 := rfl

/-- The keep flag as a float at row q of the loaded block. -/
theorem pay3_at (xs : Vec Ideal S4096x117 .f32) (q : Fin 4096) :
    k0_pay3 (F := Ideal) xs (ix2 q (0 : Fin 1)) = Spec.rowKeepF (row xs q) := by
  refine (keepFOf_at (k0_pay1 (F := Ideal) xs) reduces_S4096x117_S4096 (.inl rfl) rfl rfl shapeCasts_S4096_S4096x1 broadcasts_S4096x1_S4096x117 q).trans ?_
  rw [pay1_eq]

/-- The stored scores at (q, k). -/
theorem pay4_at (xs : Vec Ideal S4096x117 .f32) (q : Fin 4096) (k : Fin 117) :
    k0_pay4 (F := Ideal) xs (ix2 q k) = xs (ix2 q k) * Spec.rowKeepF (row xs q) := by
  show k0_pay1 (F := Ideal) xs (ix2 q k) * broadcastTo S4096x117 (k0_pay3 (F := Ideal) xs) broadcasts_S4096x1_S4096x117 (ix2 q k) = _
  rw [Cert.Lib.broadcastTo_a1_ab_apply, pay3_at, pay1_eq]

/-- The keep flag spread over the four box coordinates at (q, d). -/
theorem pay6_at (xs : Vec Ideal S4096x117 .f32) (q : Fin 4096) (d : Fin 4) :
    k0_pay6 (F := Ideal) xs (ix2 q d) = Spec.rowKeepF (row xs q) := by
  show broadcastTo S4096x4 (shapeCast S4096x1 (k0_pay3 (F := Ideal) xs) shapeCasts_S4096x1_S4096x1) broadcasts_S4096x1_S4096x4 (ix2 q d) = _
  rw [Cert.Lib.broadcastTo_a1_ab_apply, shapeCast_self, pay3_at]

/-- The first stored boxes at (q, d). -/
theorem pay7_at (xs : Vec Ideal S4096x117 .f32) (xk xa : Vec Ideal S4096x4 .f32) (q : Fin 4096) (d : Fin 4) :
    k0_pay7 (F := Ideal) xs xk xa (ix2 q d) = (xa (ix2 q d) * xk (ix2 q d)) * Spec.rowKeepF (row xs q) := by
  show (shapeCast S4096x4 xa shapeCasts_S4096x4_S4096x4 (ix2 q d) * k0_pay5 (F := Ideal) xk (ix2 q d)) * k0_pay6 (F := Ideal) xs (ix2 q d) = _
  rw [pay6_at, shapeCast_self]
  show (xa (ix2 q d) * shapeCast S4096x4 xk shapeCasts_S4096x4_S4096x4 (ix2 q d)) * _ = _
  rw [shapeCast_self]

/-- The second stored boxes at (q, d). -/
theorem pay8_at (xs : Vec Ideal S4096x117 .f32) (xk xb : Vec Ideal S4096x4 .f32) (q : Fin 4096) (d : Fin 4) :
    k0_pay8 (F := Ideal) xs xk xb (ix2 q d) = (xb (ix2 q d) * xk (ix2 q d)) * Spec.rowKeepF (row xs q) := by
  show (shapeCast S4096x4 xb shapeCasts_S4096x4_S4096x4 (ix2 q d) * k0_pay5 (F := Ideal) xk (ix2 q d)) * k0_pay6 (F := Ideal) xs (ix2 q d) = _
  rw [pay6_at, shapeCast_self]
  show (xb (ix2 q d) * shapeCast S4096x4 xk shapeCasts_S4096x4_S4096x4 (ix2 q d)) * _ = _
  rw [shapeCast_self]

/-- The stored flag at (q, 0): the keep bit widened to 32 bits. -/
theorem pay9_at (xs : Vec Ideal S4096x117 .f32) (q : Fin 4096) :
    k0_pay9 (F := Ideal) xs (ix2 q (0 : Fin 1)) = (Spec.rowKeep (row xs q)).setWidth 32 := by
  refine (congrArg (BitVec.setWidth 32) (keepOf_at (k0_pay1 (F := Ideal) xs) reduces_S4096x117_S4096 (.inl rfl) rfl rfl shapeCasts_S4096_S4096x1 broadcasts_S4096x1_S4096x117 q)).trans ?_
  rw [pay1_eq]

end Cert.Proof.KernelRows

end
-- ==== Proof.ArrayFns.lean ====
/-
  The four output arrays of the region as functions of its input arrays, over no program.

  X is the flattened scores [262144, 117], B a flattened box array and K the flattened scale array [262144, 4].
  Row p of X is one candidate's 117 scores; the specification's row quantities of that row decide the candidate.
-/
import proofs.«126910_j32856499814727_2_alg».proof.Proof.Spec
import Idealize.ShloMosaic.Lib.ValueIdx

noncomputable section

namespace Cert.Proof.ArrayFns

open Idealize.ShloMosaic Idealize.ShloMosaic.ValueIdx
open Cert.Proof

/-- The shape of the flattened scores. -/
abbrev SRows117 : Shape := ⟨2, ![262144, 117]⟩
/-- The shape of a flattened box array. -/
abbrev SRows4 : Shape := ⟨2, ![262144, 4]⟩
/-- The shape of the flags' column. -/
abbrev SRows1 : Shape := ⟨2, ![262144, 1]⟩

/-- Row p of the flattened scores. -/
abbrev rowOf (X : SRows117.Idx → EReal) (p : Fin 262144) : Fin 117 → EReal := fun k => X (ix2 p k)

/-- The scores, zero where the candidate is dropped. -/
def gScores (X : SRows117.Idx → EReal) : SRows117.Idx → EReal :=
  fun i => X i * Spec.rowKeepF (rowOf X (i 0))
/-- A box array times the scale array, zero where the candidate is dropped. -/
def gBoxes (X : SRows117.Idx → EReal) (K B : SRows4.Idx → EReal) : SRows4.Idx → EReal :=
  fun i => (B i * K i) * Spec.rowKeepF (rowOf X (i 0))
/-- The keep bit of each candidate as a 32-bit word. -/
def gFlag (X : SRows117.Idx → EReal) : SRows1.Idx → BitVec 32 :=
  fun i => (Spec.rowKeep (rowOf X (i 0))).setWidth 32

theorem gScores_at (X : SRows117.Idx → EReal) (p : Fin 262144) (k : Fin 117) :
    gScores X (ix2 p k) = X (ix2 p k) * Spec.rowKeepF (rowOf X p) := rfl
theorem gBoxes_at (X : SRows117.Idx → EReal) (K B : SRows4.Idx → EReal) (p : Fin 262144) (d : Fin 4) :
    gBoxes X K B (ix2 p d) = (B (ix2 p d) * K (ix2 p d)) * Spec.rowKeepF (rowOf X p) := rfl
theorem gFlag_at (X : SRows117.Idx → EReal) (p : Fin 262144) (z : Fin 1) :
    gFlag X (ix2 p z) = (Spec.rowKeep (rowOf X p)).setWidth 32 := rfl

end Cert.Proof.ArrayFns

end
-- ==== Proof.KernelArrays.lean ====
/-
  From blocks to arrays: what each of the four output arrays holds after the region, as ONE function of the arrays
  the region finds, index by index, at the ideal values.

  The grid has 64 points and every window's block at point t is rows 4096·t … 4096·t + 4095 of its array, all
  columns.  So element (q, j) of a block is element (4096·t + q, j) of the array, the 64 blocks of an output tile
  its array, and row p of an array is written at point p / 4096.  What the body stores at (q, j) depends only on
  row q of the score block and on element (q, j) of the box and scale blocks; hence after the run
    the scores' array holds at (p, k)   X(p, k) · keepF(row p of X),
    a boxes' array holds at (p, d)      (B(p, d) · K(p, d)) · keepF(row p of X),
    the flags' array holds at (p, 0)    keep(row p of X) widened to 32 bits,
  X the flattened scores, B a flattened box array, K the flattened scale array.
-/
import proofs.«126910_j32856499814727_2_alg».proof.Proof.KernelIdealRegion
import proofs.«126910_j32856499814727_2_alg».proof.Proof.KernelRows
import proofs.«126910_j32856499814727_2_alg».proof.Proof.ArrayFns
import Idealize.ShloMosaic.Lib.Pipeline.Value
import Idealize.ShloMosaic.Lib.ValueIdx

set_option maxRecDepth 16384
set_option maxHeartbeats 1000000

noncomputable section

namespace Cert.Proof.KernelArrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region
open Cert.Proof Cert.Proof.ArrayFns

variable (m : (ℓ : Loc nD τ sig) → Buf (Elt Ideal) ℓ)

-- the arrays the region finds are the launch contents after twenty-one host lines: nothing here looks inside them
attribute [local irreducible] StableHlo.after

/-! ## Where a block sits in its array -/

theorem hz : (![0, 0] : Fin 2 → Nat) = fun _ => 0 := funext fun a => by fin_cases a <;> rfl

/-- The printed index maps, decided over the 64 grid points: block index (t, 0) for every window. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row q of the block of point t is row 4096·t + q of the array. -/
def rowAt (t : Fin cfg0.N) (q : Fin 4096) : Fin 262144 :=
  ⟨t.val * 4096 + q.val, by have := lt_of_lt_of_eq t.isLt N_0; have := q.isLt; omega⟩

/-- Window 0's block at point t puts (q, j) at row 4096·t + q, column j of its array. -/
theorem emb_0 (t : Fin cfg0.N) (q : Fin 4096) (j : Fin 117) :
    ((cfg0.win 0).blk t).view.emb (ix2 q j) = (ix2 (rowAt t q) j : S262144x117.Idx) := by
  have hf := idx_facts t
  funext a; apply Fin.ext
  match a with
  | ⟨0, _⟩ => show win0_0.index t (0 : Fin 2) * 4096 + 1 * q.val = t.val * 4096 + q.val; omega
  | ⟨1, _⟩ => show win0_0.index t (1 : Fin 2) * 117 + 1 * j.val = j.val; omega

/-- Window 1's block at point t puts (q, j) at row 4096·t + q, column j of its array. -/
theorem emb_1 (t : Fin cfg0.N) (q : Fin 4096) (j : Fin 4) :
    ((cfg0.win 1).blk t).view.emb (ix2 q j) = (ix2 (rowAt t q) j : S262144x4.Idx) := by
  have hf := idx_facts t
  funext a; apply Fin.ext
  match a with
  | ⟨0, _⟩ => show win0_1.index t (0 : Fin 2) * 4096 + 1 * q.val = t.val * 4096 + q.val; omega
  | ⟨1, _⟩ => show win0_1.index t (1 : Fin 2) * 4 + 1 * j.val = j.val; omega

/-- Window 2's block at point t puts (q, j) at row 4096·t + q, column j of its array. -/
theorem emb_2 (t : Fin cfg0.N) (q : Fin 4096) (j : Fin 4) :
    ((cfg0.win 2).blk t).view.emb (ix2 q j) = (ix2 (rowAt t q) j : S262144x4.Idx) := by
  have hf := idx_facts t
  funext a; apply Fin.ext
  match a with
  | ⟨0, _⟩ => show win0_2.index t (0 : Fin 2) * 4096 + 1 * q.val = t.val * 4096 + q.val; omega
  | ⟨1, _⟩ => show win0_2.index t (1 : Fin 2) * 4 + 1 * j.val = j.val; omega

/-- Window 3's block at point t puts (q, j) at row 4096·t + q, column j of its array. -/
theorem emb_3 (t : Fin cfg0.N) (q : Fin 4096) (j : Fin 4) :
    ((cfg0.win 3).blk t).view.emb (ix2 q j) = (ix2 (rowAt t q) j : S262144x4.Idx) := by
  have hf := idx_facts t
  funext a; apply Fin.ext
  match a with
  | ⟨0, _⟩ => show win0_3.index t (0 : Fin 2) * 4096 + 1 * q.val = t.val * 4096 + q.val; omega
  | ⟨1, _⟩ => show win0_3.index t (1 : Fin 2) * 4 + 1 * j.val = j.val; omega

/-- Window 4's block at point t puts (q, j) at row 4096·t + q, column j of its array. -/
theorem emb_4 (t : Fin cfg0.N) (q : Fin 4096) (j : Fin 117) :
    ((cfg0.win 4).blk t).view.emb (ix2 q j) = (ix2 (rowAt t q) j : S262144x117.Idx) := by
  have hf := idx_facts t
  funext a; apply Fin.ext
  match a with
  | ⟨0, _⟩ => show win0_4.index t (0 : Fin 2) * 4096 + 1 * q.val = t.val * 4096 + q.val; omega
  | ⟨1, _⟩ => show win0_4.index t (1 : Fin 2) * 117 + 1 * j.val = j.val; omega

/-- Window 5's block at point t puts (q, j) at row 4096·t + q, column j of its array. -/
theorem emb_5 (t : Fin cfg0.N) (q : Fin 4096) (j : Fin 4) :
    ((cfg0.win 5).blk t).view.emb (ix2 q j) = (ix2 (rowAt t q) j : S262144x4.Idx) := by
  have hf := idx_facts t
  funext a; apply Fin.ext
  match a with
  | ⟨0, _⟩ => show win0_5.index t (0 : Fin 2) * 4096 + 1 * q.val = t.val * 4096 + q.val; omega
  | ⟨1, _⟩ => show win0_5.index t (1 : Fin 2) * 4 + 1 * j.val = j.val; omega

/-- Window 6's block at point t puts (q, j) at row 4096·t + q, column j of its array. -/
theorem emb_6 (t : Fin cfg0.N) (q : Fin 4096) (j : Fin 4) :
    ((cfg0.win 6).blk t).view.emb (ix2 q j) = (ix2 (rowAt t q) j : S262144x4.Idx) := by
  have hf := idx_facts t
  funext a; apply Fin.ext
  match a with
  | ⟨0, _⟩ => show win0_6.index t (0 : Fin 2) * 4096 + 1 * q.val = t.val * 4096 + q.val; omega
  | ⟨1, _⟩ => show win0_6.index t (1 : Fin 2) * 4 + 1 * j.val = j.val; omega

/-- Window 7's block at point t puts (q, j) at row 4096·t + q, column j of its array. -/
theorem emb_7 (t : Fin cfg0.N) (q : Fin 4096) (j : Fin 1) :
    ((cfg0.win 7).blk t).view.emb (ix2 q j) = (ix2 (rowAt t q) j : S262144x1.Idx) := by
  have hf := idx_facts t
  funext a; apply Fin.ext
  match a with
  | ⟨0, _⟩ => show win0_7.index t (0 : Fin 2) * 4096 + 1 * q.val = t.val * 4096 + q.val; omega
  | ⟨1, _⟩ => show win0_7.index t (1 : Fin 2) * 1 + 1 * j.val = j.val; omega

/-! ## The four input arrays as the region finds them, at their literal types -/

/-- The flattened scores. -/
abbrev inScores (c : Dev nD) : S262144x117.Idx → EReal := V m c main_v18
/-- The flattened first box array. -/
abbrev inBoxesA (c : Dev nD) : S262144x4.Idx → EReal := V m c main_v19
/-- The flattened second box array. -/
abbrev inBoxesB (c : Dev nD) : S262144x4.Idx → EReal := V m c main_v20
/-- The flattened scale array. -/
abbrev inScale (c : Dev nD) : S262144x4.Idx → EReal := V m c main_v17

/-- The stored flag at (q, z), z the one column. -/
theorem flag_at (xs : Vec Ideal S4096x117 .f32) (q : Fin 4096) (z : Fin 1) :
    k0_pay9 (F := Ideal) xs (ix2 q z) = (Spec.rowKeep (KernelRows.row xs q)).setWidth 32 := by
  obtain rfl : z = 0 := Subsingleton.elim _ _
  exact KernelRows.pay9_at xs q

/-! ## What point t writes back is block t of those functions -/

/-- Row q of the score block of point t is row 4096·t + q of the flattened scores. -/
theorem row_blk (c : Dev nD) (t : Fin cfg0.N) (q : Fin 4096) :
    KernelRows.row (iblk m c 0 t) q = rowOf (inScores m c) (rowAt t q) :=
  funext fun k' => congrArg (inScores m c) (emb_0 t q k')

theorem flushed_4 (c : Dev nD) (t : Fin cfg0.N) :
    (dats m 0 c).flushed 4 t = ((cfg0.win 4).blk t).view.read (Elt Ideal) (gScores (inScores m c)) := by
  show (cfg0.win 4).cut (grid0.coords t) ((dats m 0 c).after 4 t) = _
  rw [after_4]
  unfold outScores
  rw [View.canon_unit_zero hz]
  simp only [View.ld_unit_zero (S := S4096x117) hz]
  funext j
  obtain ⟨q, k, rfl⟩ : ∃ (q : Fin 4096) (k : Fin 117), j = ix2 q k := ⟨j 0, j 1, eq_ix2 j⟩
  refine (KernelRows.pay4_at (iblk m c 0 t) q k).trans ?_
  have e0 : iblk m c 0 t (ix2 q k) = inScores m c (ix2 (rowAt t q) k) := congrArg (inScores m c) (emb_0 t q k)
  have e4 : ((cfg0.win 4).blk t).view.read (Elt Ideal) (gScores (inScores m c)) (ix2 q k)
      = gScores (inScores m c) (ix2 (rowAt t q) k) := congrArg (gScores (inScores m c)) (emb_4 t q k)
  rw [e4, gScores_at, row_blk, e0]

theorem flushed_5 (c : Dev nD) (t : Fin cfg0.N) :
    (dats m 0 c).flushed 5 t = ((cfg0.win 5).blk t).view.read (Elt Ideal) (gBoxes (inScores m c) (inScale m c) (inBoxesA m c)) := by
  show (cfg0.win 5).cut (grid0.coords t) ((dats m 0 c).after 5 t) = _
  rw [after_5]
  unfold outBoxesA
  rw [View.canon_unit_zero hz]
  simp only [View.ld_unit_zero (S := S4096x117) hz, View.ld_unit_zero (S := S4096x4) hz]
  funext j
  obtain ⟨q, d, rfl⟩ : ∃ (q : Fin 4096) (d : Fin 4), j = ix2 q d := ⟨j 0, j 1, eq_ix2 j⟩
  refine (KernelRows.pay7_at (iblk m c 0 t) (iblk m c 3 t) (iblk m c 1 t) q d).trans ?_
  have e1 : iblk m c 1 t (ix2 q d) = inBoxesA m c (ix2 (rowAt t q) d) := congrArg (inBoxesA m c) (emb_1 t q d)
  have e3 : iblk m c 3 t (ix2 q d) = inScale m c (ix2 (rowAt t q) d) := congrArg (inScale m c) (emb_3 t q d)
  have e5 : ((cfg0.win 5).blk t).view.read (Elt Ideal) (gBoxes (inScores m c) (inScale m c) (inBoxesA m c)) (ix2 q d)
      = gBoxes (inScores m c) (inScale m c) (inBoxesA m c) (ix2 (rowAt t q) d) :=
    congrArg (gBoxes (inScores m c) (inScale m c) (inBoxesA m c)) (emb_5 t q d)
  rw [e5, gBoxes_at, row_blk, e1, e3]

theorem flushed_6 (c : Dev nD) (t : Fin cfg0.N) :
    (dats m 0 c).flushed 6 t = ((cfg0.win 6).blk t).view.read (Elt Ideal) (gBoxes (inScores m c) (inScale m c) (inBoxesB m c)) := by
  show (cfg0.win 6).cut (grid0.coords t) ((dats m 0 c).after 6 t) = _
  rw [after_6]
  unfold outBoxesB
  rw [View.canon_unit_zero hz]
  simp only [View.ld_unit_zero (S := S4096x117) hz, View.ld_unit_zero (S := S4096x4) hz]
  funext j
  obtain ⟨q, d, rfl⟩ : ∃ (q : Fin 4096) (d : Fin 4), j = ix2 q d := ⟨j 0, j 1, eq_ix2 j⟩
  refine (KernelRows.pay8_at (iblk m c 0 t) (iblk m c 3 t) (iblk m c 2 t) q d).trans ?_
  have e2 : iblk m c 2 t (ix2 q d) = inBoxesB m c (ix2 (rowAt t q) d) := congrArg (inBoxesB m c) (emb_2 t q d)
  have e3 : iblk m c 3 t (ix2 q d) = inScale m c (ix2 (rowAt t q) d) := congrArg (inScale m c) (emb_3 t q d)
  have e6 : ((cfg0.win 6).blk t).view.read (Elt Ideal) (gBoxes (inScores m c) (inScale m c) (inBoxesB m c)) (ix2 q d)
      = gBoxes (inScores m c) (inScale m c) (inBoxesB m c) (ix2 (rowAt t q) d) :=
    congrArg (gBoxes (inScores m c) (inScale m c) (inBoxesB m c)) (emb_6 t q d)
  rw [e6, gBoxes_at, row_blk, e2, e3]

theorem flushed_7 (c : Dev nD) (t : Fin cfg0.N) :
    (dats m 0 c).flushed 7 t = ((cfg0.win 7).blk t).view.read (Elt Ideal) (gFlag (inScores m c)) := by
  show (cfg0.win 7).cut (grid0.coords t) ((dats m 0 c).after 7 t) = _
  rw [after_7]
  unfold outFlag
  rw [View.canon_unit_zero hz]
  simp only [View.ld_unit_zero (S := S4096x117) hz]
  funext j
  obtain ⟨q, z, rfl⟩ : ∃ (q : Fin 4096) (z : Fin 1), j = ix2 q z := ⟨j 0, j 1, eq_ix2 j⟩
  refine (flag_at (iblk m c 0 t) q z).trans ?_
  have e7 : ((cfg0.win 7).blk t).view.read (Elt Ideal) (gFlag (inScores m c)) (ix2 q z)
      = gFlag (inScores m c) (ix2 (rowAt t q) z) := congrArg (gFlag (inScores m c)) (emb_7 t q z)
  rw [e7, gFlag_at, row_blk]

/-! ## The 64 blocks of an output cover its array -/

/-- Every index of array 4 lies in the block of the point its row falls in. -/
theorem cover_4 (i : S262144x117.Idx) :
    ∃ t : Fin cfg0.N, (cfg0.win 4).flush t = true ∧ i ∈ ((cfg0.win 4).blk t).view.set := by
  have h0 : (i 0).val < 262144 := (i 0).isLt
  have h1 : (i 1).val < 117 := (i 1).isLt
  have hN : cfg0.N = 64 := N_0
  refine ⟨⟨(i 0).val / 4096, by rw [hN]; omega⟩, flush0_4 _, ?_⟩
  generalize ht : (⟨(i 0).val / 4096, by rw [hN]; omega⟩ : Fin cfg0.N) = t
  have hv : t.val = (i 0).val / 4096 := by rw [← ht]
  have hf := idx_facts t
  show i ∈ ((View.whole main_v21_0).slice (win0_4.rect t)).set
  rw [View.set_slice_whole, Rect.mem_set_unit]
  intro a
  match a with
  | ⟨0, _⟩ => show win0_4.index t (0 : Fin 2) * 4096 ≤ (i 0).val ∧ (i 0).val < win0_4.index t (0 : Fin 2) * 4096 + 4096; omega
  | ⟨1, _⟩ => show win0_4.index t (1 : Fin 2) * 117 ≤ (i 1).val ∧ (i 1).val < win0_4.index t (1 : Fin 2) * 117 + 117; omega

/-- Every index of array 5 lies in the block of the point its row falls in. -/
theorem cover_5 (i : S262144x4.Idx) :
    ∃ t : Fin cfg0.N, (cfg0.win 5).flush t = true ∧ i ∈ ((cfg0.win 5).blk t).view.set := by
  have h0 : (i 0).val < 262144 := (i 0).isLt
  have h1 : (i 1).val < 4 := (i 1).isLt
  have hN : cfg0.N = 64 := N_0
  refine ⟨⟨(i 0).val / 4096, by rw [hN]; omega⟩, flush0_5 _, ?_⟩
  generalize ht : (⟨(i 0).val / 4096, by rw [hN]; omega⟩ : Fin cfg0.N) = t
  have hv : t.val = (i 0).val / 4096 := by rw [← ht]
  have hf := idx_facts t
  show i ∈ ((View.whole main_v21_1).slice (win0_5.rect t)).set
  rw [View.set_slice_whole, Rect.mem_set_unit]
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 4 ≤ (i 1).val ∧ (i 1).val < win0_5.index t (1 : Fin 2) * 4 + 4; omega

/-- Every index of array 6 lies in the block of the point its row falls in. -/
theorem cover_6 (i : S262144x4.Idx) :
    ∃ t : Fin cfg0.N, (cfg0.win 6).flush t = true ∧ i ∈ ((cfg0.win 6).blk t).view.set := by
  have h0 : (i 0).val < 262144 := (i 0).isLt
  have h1 : (i 1).val < 4 := (i 1).isLt
  have hN : cfg0.N = 64 := N_0
  refine ⟨⟨(i 0).val / 4096, by rw [hN]; omega⟩, flush0_6 _, ?_⟩
  generalize ht : (⟨(i 0).val / 4096, by rw [hN]; omega⟩ : Fin cfg0.N) = t
  have hv : t.val = (i 0).val / 4096 := by rw [← ht]
  have hf := idx_facts t
  show i ∈ ((View.whole main_v21_2).slice (win0_6.rect t)).set
  rw [View.set_slice_whole, Rect.mem_set_unit]
  intro a
  match a with
  | ⟨0, _⟩ => show win0_6.index t (0 : Fin 2) * 4096 ≤ (i 0).val ∧ (i 0).val < win0_6.index t (0 : Fin 2) * 4096 + 4096; omega
  | ⟨1, _⟩ => show win0_6.index t (1 : Fin 2) * 4 ≤ (i 1).val ∧ (i 1).val < win0_6.index t (1 : Fin 2) * 4 + 4; omega

/-- Every index of array 7 lies in the block of the point its row falls in. -/
theorem cover_7 (i : S262144x1.Idx) :
    ∃ t : Fin cfg0.N, (cfg0.win 7).flush t = true ∧ i ∈ ((cfg0.win 7).blk t).view.set := by
  have h0 : (i 0).val < 262144 := (i 0).isLt
  have h1 : (i 1).val < 1 := (i 1).isLt
  have hN : cfg0.N = 64 := N_0
  refine ⟨⟨(i 0).val / 4096, by rw [hN]; omega⟩, flush0_7 _, ?_⟩
  generalize ht : (⟨(i 0).val / 4096, by rw [hN]; omega⟩ : Fin cfg0.N) = t
  have hv : t.val = (i 0).val / 4096 := by rw [← ht]
  have hf := idx_facts t
  show i ∈ ((View.whole main_v21_3).slice (win0_7.rect t)).set
  rw [View.set_slice_whole, Rect.mem_set_unit]
  intro a
  match a with
  | ⟨0, _⟩ => show win0_7.index t (0 : Fin 2) * 4096 ≤ (i 0).val ∧ (i 0).val < win0_7.index t (0 : Fin 2) * 4096 + 4096; omega
  | ⟨1, _⟩ => show win0_7.index t (1 : Fin 2) * 1 ≤ (i 1).val ∧ (i 1).val < win0_7.index t (1 : Fin 2) * 1 + 1; omega

/-! ## The output arrays after the run -/

theorem final_4 (c : Dev nD) : (dats m 0 c).arrAt 4 cfg0.N = gScores (inScores m c) :=
  (dats m 0 c).arrAt_eq_of_cover 4 _ (fun t _ => flushed_4 m c t) cover_4
theorem final_5 (c : Dev nD) : (dats m 0 c).arrAt 5 cfg0.N = gBoxes (inScores m c) (inScale m c) (inBoxesA m c) :=
  (dats m 0 c).arrAt_eq_of_cover 5 _ (fun t _ => flushed_5 m c t) cover_5
theorem final_6 (c : Dev nD) : (dats m 0 c).arrAt 6 cfg0.N = gBoxes (inScores m c) (inScale m c) (inBoxesB m c) :=
  (dats m 0 c).arrAt_eq_of_cover 6 _ (fun t _ => flushed_6 m c t) cover_6
theorem final_7 (c : Dev nD) : (dats m 0 c).arrAt 7 cfg0.N = gFlag (inScores m c) :=
  (dats m 0 c).arrAt_eq_of_cover 7 _ (fun t _ => flushed_7 m c t) cover_7

end Cert.Proof.KernelArrays

end
-- ==== Proof.KernelHost.lean ====
/-
  The kernel program's host lines, read for any contents: what the 21 operations before the kernel region leave
  in the region's four input arrays, and what the 21 operations after it make of the region's four output arrays
  and the two label arguments — each as a named term, a concatenation in its plain-argument form.
-/
import proofs.«126910_j32856499814727_2_alg».proof.Proof.Gen.KernelIdeal.Launch
import Idealize.ShloMosaic.Lib.StableHlo.Run

noncomputable section

namespace Cert.Proof.KernelHost

open Cert.KernelIdeal Cert.KernelIdeal.Gen Idealize.ShloMosaic Idealize.ShloMosaic.TcCoe Idealize.SL.Sem Idealize.ShloMosaic.StableHlo

variable {F : FTy → Type} [FloatOps F]

/-! ## The values as terms -/

/-- Two `128×2048×4` arrays laid end to end along axis 1. -/
def concatBoxesK (a b : (⟨S128x2048x4, .f32⟩ : BufTy).Contents (Elt F)) : (⟨S128x4096x4, .f32⟩ : BufTy).Contents (Elt F) :=
  concatenate S128x4096x4 1 [⟨S128x2048x4, a⟩, ⟨S128x2048x4, b⟩] concatenates_S128x2048x4_S128x2048x4_S128x4096x4_d1

/-- Two `128×2048` integer arrays laid end to end along axis 1. -/
def concatLabelsK (a b : (⟨S128x2048, .i32⟩ : BufTy).Contents (Elt F)) : (⟨S128x4096, .i32⟩ : BufTy).Contents (Elt F) :=
  concatenate S128x4096 1 [⟨S128x2048, a⟩, ⟨S128x2048, b⟩] concatenates_S128x2048_S128x2048_S128x4096_d1

/-- Two `128×2048` bit arrays laid end to end along axis 1. -/
def concatKeepK (a b : (⟨S128x2048, .i1⟩ : BufTy).Contents (Elt F)) : (⟨S128x4096, .i1⟩ : BufTy).Contents (Elt F) :=
  concatenate S128x4096 1 [⟨S128x2048, a⟩, ⟨S128x2048, b⟩] concatenates_S128x2048_S128x2048_S128x4096_d1

/-- Four `128×1` columns laid side by side. -/
def concat4K (a b c d : (⟨S128x1, .f32⟩ : BufTy).Contents (Elt F)) : (⟨S128x4, .f32⟩ : BufTy).Contents (Elt F) :=
  concatenate S128x4 1 [⟨S128x1, a⟩, ⟨S128x1, b⟩, ⟨S128x1, c⟩, ⟨S128x1, d⟩] concatenates_S128x1_S128x1_S128x1_S128x1_S128x4_d1

/-- Column 1 of `x5` over column 1 of `x6`, per image (`%4`). -/
def ratio1K (x5 x6 : (⟨S128x2, .f32⟩ : BufTy).Contents (Elt F)) : (⟨S128, .f32⟩ : BufTy).Contents (Elt F) :=
  Host.divf (shapeCast S128 (extractStridedSlice S128x1 ![0, 1] x5 slices_S128x2_S128x1_0_1) shapeCasts_S128x1_S128)
    (shapeCast S128 (extractStridedSlice S128x1 ![0, 1] x6 slices_S128x2_S128x1_0_1) shapeCasts_S128x1_S128)

/-- Column 0 of `x5` over column 0 of `x6`, per image (`%9`). -/
def ratio0K (x5 x6 : (⟨S128x2, .f32⟩ : BufTy).Contents (Elt F)) : (⟨S128, .f32⟩ : BufTy).Contents (Elt F) :=
  Host.divf (shapeCast S128 (extractStridedSlice S128x1 ![0, 0] x5 slices_S128x2_S128x1_0_0) shapeCasts_S128x1_S128)
    (shapeCast S128 (extractStridedSlice S128x1 ![0, 0] x6 slices_S128x2_S128x1_0_0) shapeCasts_S128x1_S128)

/-- The four scale factors of an image's boxes, `[r1, r0, r1, r0]` (`%14`). -/
def scaleRowK (x5 x6 : (⟨S128x2, .f32⟩ : BufTy).Contents (Elt F)) : (⟨S128x4, .f32⟩ : BufTy).Contents (Elt F) :=
  concat4K (broadcastInDim S128x1 ![0] bcast_S128_S128x1_0 (ratio1K x5 x6)) (broadcastInDim S128x1 ![0] bcast_S128_S128x1_0 (ratio0K x5 x6))
    (broadcastInDim S128x1 ![0] bcast_S128_S128x1_0 (ratio1K x5 x6)) (broadcastInDim S128x1 ![0] bcast_S128_S128x1_0 (ratio0K x5 x6))

/-- The scale factors with a unit axis for the boxes (`%15`). -/
def scaleK (x5 x6 : (⟨S128x2, .f32⟩ : BufTy).Contents (Elt F)) : (⟨S128x1x4, .f32⟩ : BufTy).Contents (Elt F) :=
  broadcastInDim S128x1x4 ![0, 2] bcast_S128x4_S128x1x4_0_2 (scaleRowK x5 x6)

/-- The scale factors at every row of every image (`%16`). -/
def scaleFullK (x5 x6 : (⟨S128x2, .f32⟩ : BufTy).Contents (Elt F)) : (⟨S128x2048x4, .f32⟩ : BufTy).Contents (Elt F) :=
  broadcastInDim S128x2048x4 ![0, 1, 2] bcast_S128x1x4_S128x2048x4_0_1_2 (scaleK x5 x6)

/-- Whether the region's keep word of a row is not zero (`%28`): the keep bits. -/
def keepK (w3 : (⟨S262144x1, .i32⟩ : BufTy).Contents (Elt F)) : (⟨S128x2048, .i1⟩ : BufTy).Contents (Elt F) :=
  id (cmpi .ne (shapeCast S128x2048 w3 shapeCasts_S262144x1_S128x2048)
    (broadcastInDim S128x2048 ![] bcast_S_S128x2048 (constantI S_ 32 0#32)))

/-- A label array less one (`%31` of `%arg3`, `%33` of `%arg4`). -/
def labelShiftK (x : (⟨S128x2048, .i32⟩ : BufTy).Contents (Elt F)) : (⟨S128x2048, .i32⟩ : BufTy).Contents (Elt F) :=
  subi x (broadcastInDim S128x2048 ![] bcast_S_S128x2048 (constantI S_ 32 1#32))

/-! ## Reading the fold

Each concatenation equals a function of plain arguments applied to its operands (by unfolding), so its operands are
read like any other operation's. The reshapes' and the four-operand concatenation's results are stated at these
references, for any contents. -/

theorem concatBoxesK_fold (a b : (⟨S128x2048x4, .f32⟩ : BufTy).Contents (Elt F)) :
    concatenate (α := no_index (Elt F .f32)) S128x4096x4 1 [⟨S128x2048x4, a⟩, ⟨S128x2048x4, b⟩] concatenates_S128x2048x4_S128x2048x4_S128x4096x4_d1
      = concatBoxesK a b := rfl

theorem concatLabelsK_fold (a b : (⟨S128x2048, .i32⟩ : BufTy).Contents (Elt F)) :
    concatenate (α := no_index (Elt F .i32)) S128x4096 1 [⟨S128x2048, a⟩, ⟨S128x2048, b⟩] concatenates_S128x2048_S128x2048_S128x4096_d1
      = concatLabelsK a b := rfl

theorem concatKeepK_fold (a b : (⟨S128x2048, .i1⟩ : BufTy).Contents (Elt F)) :
    concatenate (α := no_index (Elt F .i1)) S128x4096 1 [⟨S128x2048, a⟩, ⟨S128x2048, b⟩] concatenates_S128x2048_S128x2048_S128x4096_d1
      = concatKeepK a b := rfl

theorem reshape_v1 (V : Valuation τ sig (Elt F)) (hx hy) :
    (reshape main_v0 main_v1 rfl shapeCasts_S128x1_S128 hx hy : HloOp τ sig (Elt F)).result V (no_index (Proc.devRef .tc main_v1))
      = shapeCast S128 (V (Proc.devRef .tc main_v0)) shapeCasts_S128x1_S128 := by
  rw [reshape_result]; rfl

theorem reshape_v3 (V : Valuation τ sig (Elt F)) (hx hy) :
    (reshape main_v2 main_v3 rfl shapeCasts_S128x1_S128 hx hy : HloOp τ sig (Elt F)).result V (no_index (Proc.devRef .tc main_v3))
      = shapeCast S128 (V (Proc.devRef .tc main_v2)) shapeCasts_S128x1_S128 := by
  rw [reshape_result]; rfl

theorem reshape_v6 (V : Valuation τ sig (Elt F)) (hx hy) :
    (reshape main_v5 main_v6 rfl shapeCasts_S128x1_S128 hx hy : HloOp τ sig (Elt F)).result V (no_index (Proc.devRef .tc main_v6))
      = shapeCast S128 (V (Proc.devRef .tc main_v5)) shapeCasts_S128x1_S128 := by
  rw [reshape_result]; rfl

theorem reshape_v8 (V : Valuation τ sig (Elt F)) (hx hy) :
    (reshape main_v7 main_v8 rfl shapeCasts_S128x1_S128 hx hy : HloOp τ sig (Elt F)).result V (no_index (Proc.devRef .tc main_v8))
      = shapeCast S128 (V (Proc.devRef .tc main_v7)) shapeCasts_S128x1_S128 := by
  rw [reshape_result]; rfl

theorem reshape_v17 (V : Valuation τ sig (Elt F)) (hx hy) :
    (reshape main_v16 main_v17 rfl shapeCasts_S128x2048x4_S262144x4 hx hy : HloOp τ sig (Elt F)).result V (no_index (Proc.devRef .tc main_v17))
      = shapeCast S262144x4 (V (Proc.devRef .tc main_v16)) shapeCasts_S128x2048x4_S262144x4 := by
  rw [reshape_result]; rfl

theorem reshape_v18 (V : Valuation τ sig (Elt F)) (hx hy) :
    (reshape main_arg0 main_v18 rfl shapeCasts_S128x2048x117_S262144x117 hx hy : HloOp τ sig (Elt F)).result V (no_index (Proc.devRef .tc main_v18))
      = shapeCast S262144x117 (V (Proc.devRef .tc main_arg0)) shapeCasts_S128x2048x117_S262144x117 := by
  rw [reshape_result]; rfl

theorem reshape_v19 (V : Valuation τ sig (Elt F)) (hx hy) :
    (reshape main_arg1 main_v19 rfl shapeCasts_S128x2048x4_S262144x4 hx hy : HloOp τ sig (Elt F)).result V (no_index (Proc.devRef .tc main_v19))
      = shapeCast S262144x4 (V (Proc.devRef .tc main_arg1)) shapeCasts_S128x2048x4_S262144x4 := by
  rw [reshape_result]; rfl

theorem reshape_v20 (V : Valuation τ sig (Elt F)) (hx hy) :
    (reshape main_arg2 main_v20 rfl shapeCasts_S128x2048x4_S262144x4 hx hy : HloOp τ sig (Elt F)).result V (no_index (Proc.devRef .tc main_v20))
      = shapeCast S262144x4 (V (Proc.devRef .tc main_arg2)) shapeCasts_S128x2048x4_S262144x4 := by
  rw [reshape_result]; rfl

theorem reshape_v22 (V : Valuation τ sig (Elt F)) (hx hy) :
    (reshape main_v21_0 main_v22 rfl shapeCasts_S262144x117_S128x2048x117 hx hy : HloOp τ sig (Elt F)).result V (no_index (Proc.devRef .tc main_v22))
      = shapeCast S128x2048x117 (V (Proc.devRef .tc main_v21_0)) shapeCasts_S262144x117_S128x2048x117 := by
  rw [reshape_result]; rfl

theorem reshape_v23 (V : Valuation τ sig (Elt F)) (hx hy) :
    (reshape main_v21_1 main_v23 rfl shapeCasts_S262144x4_S128x2048x4 hx hy : HloOp τ sig (Elt F)).result V (no_index (Proc.devRef .tc main_v23))
      = shapeCast S128x2048x4 (V (Proc.devRef .tc main_v21_1)) shapeCasts_S262144x4_S128x2048x4 := by
  rw [reshape_result]; rfl

theorem reshape_v24 (V : Valuation τ sig (Elt F)) (hx hy) :
    (reshape main_v21_2 main_v24 rfl shapeCasts_S262144x4_S128x2048x4 hx hy : HloOp τ sig (Elt F)).result V (no_index (Proc.devRef .tc main_v24))
      = shapeCast S128x2048x4 (V (Proc.devRef .tc main_v21_2)) shapeCasts_S262144x4_S128x2048x4 := by
  rw [reshape_result]; rfl

theorem reshape_v25 (V : Valuation τ sig (Elt F)) (hx hy) :
    (reshape main_v21_3 main_v25 rfl shapeCasts_S262144x1_S128x2048 hx hy : HloOp τ sig (Elt F)).result V (no_index (Proc.devRef .tc main_v25))
      = shapeCast S128x2048 (V (Proc.devRef .tc main_v21_3)) shapeCasts_S262144x1_S128x2048 := by
  rw [reshape_result]; rfl

theorem nary_v14 (V : Valuation τ sig (Elt F)) (hxs hy) :
    (nary ![main_v10, main_v11, main_v12, main_v13] main_v14
        (fun u => concatenate S128x4 1 [⟨S128x1, u 0⟩, ⟨S128x1, u 1⟩, ⟨S128x1, u 2⟩, ⟨S128x1, u 3⟩] concatenates_S128x1_S128x1_S128x1_S128x1_S128x4_d1)
        hxs hy : HloOp τ sig (Elt F)).result V (no_index (Proc.devRef .tc main_v14))
      = concat4K (V (Proc.devRef .tc main_v10)) (V (Proc.devRef .tc main_v11)) (V (Proc.devRef .tc main_v12)) (V (Proc.devRef .tc main_v13)) := by
  rw [nary_result]; rfl

/-- The contents of a reference after one of the program's host stretches, or two of them in a row: the operation
    that writes it gives its function's value, every other leaves it. -/
macro "read_after_k" : tactic =>
  `(tactic| simp (disch := decide) only [List.cons_append, List.nil_append, after_cons, after_nil,
      ↓concatBoxesK_fold, ↓concatLabelsK_fold, ↓concatKeepK_fold, reshape_v1, reshape_v3, reshape_v6, reshape_v8, reshape_v17, reshape_v18, reshape_v19, reshape_v20, reshape_v22, reshape_v23, reshape_v24, reshape_v25, nary_v14, cast_eq,
      nullary_result', unary_result', binary_result', ternary_result',
      nullary_result_ne', unary_result_ne', binary_result_ne', ternary_result_ne', reshape_result_ne', nary_result_ne'])

/-! ## Before the region: its four input arrays -/

set_option maxRecDepth 8192 in
set_option maxHeartbeats 2000000 in
theorem head_v18 (M : Valuation τ sig (Elt F)) :
    after (hostOps0 (F := F)) M (Proc.devRef .tc main_v18)
      = shapeCast S262144x117 (M (Proc.devRef .tc main_arg0)) shapeCasts_S128x2048x117_S262144x117 := by
  read_after_k

set_option maxRecDepth 8192 in
set_option maxHeartbeats 2000000 in
theorem head_v19 (M : Valuation τ sig (Elt F)) :
    after (hostOps0 (F := F)) M (Proc.devRef .tc main_v19)
      = shapeCast S262144x4 (M (Proc.devRef .tc main_arg1)) shapeCasts_S128x2048x4_S262144x4 := by
  read_after_k

set_option maxRecDepth 8192 in
set_option maxHeartbeats 2000000 in
theorem head_v20 (M : Valuation τ sig (Elt F)) :
    after (hostOps0 (F := F)) M (Proc.devRef .tc main_v20)
      = shapeCast S262144x4 (M (Proc.devRef .tc main_arg2)) shapeCasts_S128x2048x4_S262144x4 := by
  read_after_k

set_option maxRecDepth 8192 in
set_option maxHeartbeats 2000000 in
theorem head_v17 (M : Valuation τ sig (Elt F)) :
    after (hostOps0 (F := F)) M (Proc.devRef .tc main_v17)
      = shapeCast S262144x4 (scaleFullK (M (Proc.devRef .tc main_arg5)) (M (Proc.devRef .tc main_arg6))) shapeCasts_S128x2048x4_S262144x4 := by
  read_after_k
  unfold scaleFullK scaleK scaleRowK ratio1K ratio0K
  with_reducible rfl

/-! ## After the region: the program's four results -/

set_option maxRecDepth 8192 in
set_option maxHeartbeats 2000000 in
theorem tail_v22 (W : Valuation τ sig (Elt F)) :
    after ((hostOps1 (F := F)) ++ (hostOps1_1 (F := F))) W (Proc.devRef .tc main_v22)
      = shapeCast S128x2048x117 (W (Proc.devRef .tc main_v21_0)) shapeCasts_S262144x117_S128x2048x117 := by
  read_after_k

set_option maxRecDepth 8192 in
set_option maxHeartbeats 2000000 in
theorem tail_v28 (W : Valuation τ sig (Elt F)) :
    after ((hostOps1 (F := F)) ++ (hostOps1_1 (F := F))) W (Proc.devRef .tc main_v28) = keepK (W (Proc.devRef .tc main_v21_3)) := by
  read_after_k
  unfold keepK
  with_reducible rfl

set_option maxRecDepth 8192 in
set_option maxHeartbeats 2000000 in
theorem tail_v29 (W : Valuation τ sig (Elt F)) :
    after ((hostOps1 (F := F)) ++ (hostOps1_1 (F := F))) W (Proc.devRef .tc main_v29)
      = concatBoxesK (shapeCast S128x2048x4 (W (Proc.devRef .tc main_v21_1)) shapeCasts_S262144x4_S128x2048x4)
          (shapeCast S128x2048x4 (W (Proc.devRef .tc main_v21_2)) shapeCasts_S262144x4_S128x2048x4) := by
  read_after_k

set_option maxRecDepth 8192 in
set_option maxHeartbeats 2000000 in
theorem tail_v36 (W : Valuation τ sig (Elt F)) :
    after ((hostOps1 (F := F)) ++ (hostOps1_1 (F := F))) W (Proc.devRef .tc main_v36)
      = select (concatKeepK (keepK (W (Proc.devRef .tc main_v21_3))) (keepK (W (Proc.devRef .tc main_v21_3))))
          (concatLabelsK (labelShiftK (W (Proc.devRef .tc main_arg3))) (labelShiftK (W (Proc.devRef .tc main_arg4))))
          (broadcastInDim S128x4096 ![] bcast_S_S128x4096 (id (constantI S_ 32 4294967295#32))) := by
  read_after_k
  unfold keepK labelShiftK
  with_reducible rfl

end Cert.Proof.KernelHost

end
-- ==== Proof.RefStages.lean ====
/-
  The reference computation, stage by stage, as functions of the argument arrays at the ideal values.

  Arguments: `x0` the scores [128, 2048, 117]; `x1`, `x2` the subject and object boxes [128, 2048, 4]; `x3`, `x4`
  the subject and object categories [128, 2048]; `x5`, `x6` the original and current image sizes [128, 2], each
  row (height, width). Every stage is one operation applied to earlier stages, in the order and with the shape
  facts of the printed reference program; a stage used twice there is defined once here. The four results:
  `res_boxes` (the rescaled, masked boxes, subjects then objects along axis 1), `res_verb` (the masked scores),
  `res_labels` (the categories less one where kept, −1 elsewhere, subjects then objects), `res_keep` (the kept bits).
-/
import proofs.«126910_j32856499814727_2_alg».proof.Proof.Gen.ReferenceIdeal
import Idealize.ShloMosaic.PureOps.Ideal

noncomputable section

namespace Cert.Proof.RefSide

open Cert.ReferenceIdeal Cert.ReferenceIdeal.Gen Idealize.ShloMosaic

/-- The scores' array type. -/
abbrev Scores : Type := (⟨S128x2048x117, .f32⟩ : BufTy).Contents (Elt Ideal)
/-- A box array's type. -/
abbrev Boxes : Type := (⟨S128x2048x4, .f32⟩ : BufTy).Contents (Elt Ideal)
/-- A category array's type. -/
abbrev Cats : Type := (⟨S128x2048, .i32⟩ : BufTy).Contents (Elt Ideal)
/-- An image-size array's type. -/
abbrev Sizes : Type := (⟨S128x2, .f32⟩ : BufTy).Contents (Elt Ideal)

/-! ## The box scale -/

/-- Column 1 of a size array (the widths), as a [128, 1] array. -/
def widthCol (x : Sizes) : (⟨S128x1, .f32⟩ : BufTy).Contents (Elt Ideal) :=
  extractStridedSlice S128x1 ![0, 1] x slices_S128x2_S128x1_0_1
/-- The widths as a vector. -/
def widths (x : Sizes) : (⟨S128, .f32⟩ : BufTy).Contents (Elt Ideal) :=
  shapeCast _ (widthCol x) shapeCasts_S128x1_S128
/-- The width ratio of each batch entry: original width over current width. -/
def scaleW (x5 x6 : Sizes) : (⟨S128, .f32⟩ : BufTy).Contents (Elt Ideal) :=
  Host.divf (F := Ideal) (φ := .f32) (widths x5) (widths x6)
/-- Column 0 of a size array (the heights), as a [128, 1] array. -/
def heightCol (x : Sizes) : (⟨S128x1, .f32⟩ : BufTy).Contents (Elt Ideal) :=
  extractStridedSlice S128x1 ![0, 0] x slices_S128x2_S128x1_0_0
/-- The heights as a vector. -/
def heights (x : Sizes) : (⟨S128, .f32⟩ : BufTy).Contents (Elt Ideal) :=
  shapeCast _ (heightCol x) shapeCasts_S128x1_S128
/-- The height ratio of each batch entry: original height over current height. -/
def scaleH (x5 x6 : Sizes) : (⟨S128, .f32⟩ : BufTy).Contents (Elt Ideal) :=
  Host.divf (F := Ideal) (φ := .f32) (heights x5) (heights x6)
/-- The width ratios as a [128, 1] column. -/
def scaleWCol (x5 x6 : Sizes) : (⟨S128x1, .f32⟩ : BufTy).Contents (Elt Ideal) :=
  broadcastInDim S128x1 ![0] bcast_S128_S128x1_0 (scaleW x5 x6)
/-- The height ratios as a [128, 1] column. -/
def scaleHCol (x5 x6 : Sizes) : (⟨S128x1, .f32⟩ : BufTy).Contents (Elt Ideal) :=
  broadcastInDim S128x1 ![0] bcast_S128_S128x1_0 (scaleH x5 x6)
/-- The four columns (width, height, width, height) joined along axis 1: the scale of each box coordinate. -/
def scale4 (x5 x6 : Sizes) : (⟨S128x4, .f32⟩ : BufTy).Contents (Elt Ideal) :=
  concatenate S128x4 1 [⟨S128x1, scaleWCol x5 x6⟩, ⟨S128x1, scaleHCol x5 x6⟩, ⟨S128x1, scaleWCol x5 x6⟩, ⟨S128x1, scaleHCol x5 x6⟩]
    concatenates_S128x1_S128x1_S128x1_S128x1_S128x4_d1
/-- The same with a unit candidate axis. -/
def scale14 (x5 x6 : Sizes) : (⟨S128x1x4, .f32⟩ : BufTy).Contents (Elt Ideal) :=
  broadcastInDim S128x1x4 ![0, 2] bcast_S128x4_S128x1x4_0_2 (scale4 x5 x6)
/-- The scale repeated for every candidate. -/
def scaleFull (x5 x6 : Sizes) : Boxes :=
  broadcastInDim S128x2048x4 ![0, 1, 2] bcast_S128x1x4_S128x2048x4_0_1_2 (scale14 x5 x6)

/-! ## The softmax over the classes, its largest probability, and the kept bit -/

/-- The scalar −∞ (the f32 word `0xFF800000`). -/
def negInf : (⟨S_, .f32⟩ : BufTy).Contents (Elt Ideal) :=
  constant (F := Ideal) S_ .f32 0xFF800000#32
/-- Each candidate's largest score: the maximum over the class axis, started from −∞. -/
def rowMaxes (x0 : Scores) : (⟨S128x2048, .f32⟩ : BufTy).Contents (Elt Ideal) :=
  Host.reduce (FloatOps.maximumf (F := Ideal) (φ := .f32)) x0 negInf reducesTo_S128x2048x117_S128x2048_d2 h_S_
/-- −∞ for every candidate. -/
def negInfs : (⟨S128x2048, .f32⟩ : BufTy).Contents (Elt Ideal) :=
  broadcastInDim S128x2048 ![] bcast_S_S128x2048 negInf
/-- The largest score again, as the maximum of −∞ and itself. -/
def rowMaxes' (x0 : Scores) : (⟨S128x2048, .f32⟩ : BufTy).Contents (Elt Ideal) :=
  maximumf (F := Ideal) (φ := .f32) negInfs (rowMaxes x0)
/-- The largest scores with a unit class axis. -/
def maxCol (x0 : Scores) : (⟨S128x2048x1, .f32⟩ : BufTy).Contents (Elt Ideal) :=
  broadcastInDim S128x2048x1 ![0, 1] bcast_S128x2048_S128x2048x1_0_1 (rowMaxes' x0)
/-- The largest score repeated along the class axis. -/
def maxFull (x0 : Scores) : Scores :=
  broadcastInDim S128x2048x117 ![0, 1, 2] bcast_S128x2048x1_S128x2048x117_0_1_2 (maxCol x0)
/-- The scores less their candidate's largest. -/
def shifted (x0 : Scores) : Scores :=
  subf (F := Ideal) (φ := .f32) x0 (maxFull x0)
/-- The exponentials of the shifted scores. -/
def expd (x0 : Scores) : Scores :=
  Host.exp (F := Ideal) (φ := .f32) (shifted x0)
/-- The scalar zero (the f32 word `0x00000000`). -/
def zero : (⟨S_, .f32⟩ : BufTy).Contents (Elt Ideal) :=
  constant (F := Ideal) S_ .f32 0x00000000#32
/-- Each candidate's sum of exponentials over the class axis, started from zero. -/
def rowSums (x0 : Scores) : (⟨S128x2048, .f32⟩ : BufTy).Contents (Elt Ideal) :=
  Host.reduceAdd (F := Ideal) (φ := .f32) (expd x0) zero reducesTo_S128x2048x117_S128x2048_d2 h_S_
/-- The sums with a unit class axis. -/
def sumCol (x0 : Scores) : (⟨S128x2048x1, .f32⟩ : BufTy).Contents (Elt Ideal) :=
  broadcastInDim S128x2048x1 ![0, 1] bcast_S128x2048_S128x2048x1_0_1 (rowSums x0)
/-- The sum repeated along the class axis. -/
def sumFull (x0 : Scores) : Scores :=
  broadcastInDim S128x2048x117 ![0, 1, 2] bcast_S128x2048x1_S128x2048x117_0_1_2 (sumCol x0)
/-- The class probabilities. -/
def probs (x0 : Scores) : Scores :=
  Host.divf (F := Ideal) (φ := .f32) (expd x0) (sumFull x0)
/-- Each candidate's largest probability: the maximum over the class axis, started from −∞. -/
def probMaxes (x0 : Scores) : (⟨S128x2048, .f32⟩ : BufTy).Contents (Elt Ideal) :=
  Host.reduce (FloatOps.maximumf (F := Ideal) (φ := .f32)) (probs x0) negInf reducesTo_S128x2048x117_S128x2048_d2 h_S_
/-- The scalar one half (the f32 word `0x3F000000`). -/
def half : (⟨S_, .f32⟩ : BufTy).Contents (Elt Ideal) :=
  constant (F := Ideal) S_ .f32 0x3F000000#32
/-- One half for every candidate. -/
def halves : (⟨S128x2048, .f32⟩ : BufTy).Contents (Elt Ideal) :=
  broadcastInDim S128x2048 ![] bcast_S_S128x2048 half
/-- The kept bits: whether the largest probability is at least one half. -/
def keepBits (x0 : Scores) : (⟨S128x2048, .i1⟩ : BufTy).Contents (Elt Ideal) :=
  cmpf (F := Ideal) (φ := .f32) .oge (probMaxes x0) halves
/-- The kept bits with a unit class axis. -/
def keepCol (x0 : Scores) : (⟨S128x2048x1, .i1⟩ : BufTy).Contents (Elt Ideal) :=
  broadcastInDim S128x2048x1 ![0, 1] bcast_S128x2048_S128x2048x1_0_1 (keepBits x0)
/-- The kept bits as floats (0 or 1). -/
def keepF (x0 : Scores) : (⟨S128x2048x1, .f32⟩ : BufTy).Contents (Elt Ideal) :=
  uitofp (F := Ideal) .f32 (keepCol x0)

/-! ## The boxes -/

/-- The kept floats repeated along the four box coordinates. -/
def keepF4 (x0 : Scores) : Boxes :=
  broadcastInDim S128x2048x4 ![0, 1, 2] bcast_S128x2048x1_S128x2048x4_0_1_2 (keepF x0)
/-- A box array rescaled to the original image. -/
def scaledBoxes (x : Boxes) (x5 x6 : Sizes) : Boxes :=
  mulf (F := Ideal) (φ := .f32) x (scaleFull x5 x6)
/-- The rescaled boxes, zero where the candidate is dropped. -/
def keptBoxes (x0 : Scores) (x : Boxes) (x5 x6 : Sizes) : Boxes :=
  mulf (F := Ideal) (φ := .f32) (scaledBoxes x x5 x6) (keepF4 x0)
/-- RESULT: the subjects' boxes then the objects' boxes, joined along the candidate axis. -/
def res_boxes (x0 : Scores) (x1 x2 : Boxes) (x5 x6 : Sizes) : (⟨S128x4096x4, .f32⟩ : BufTy).Contents (Elt Ideal) :=
  concatenate S128x4096x4 1 [⟨S128x2048x4, keptBoxes x0 x1 x5 x6⟩, ⟨S128x2048x4, keptBoxes x0 x2 x5 x6⟩]
    concatenates_S128x2048x4_S128x2048x4_S128x4096x4_d1

/-! ## The scores -/

/-- The kept floats repeated along the class axis. -/
def keepF117 (x0 : Scores) : Scores :=
  broadcastInDim S128x2048x117 ![0, 1, 2] bcast_S128x2048x1_S128x2048x117_0_1_2 (keepF x0)
/-- RESULT: the scores, zero where the candidate is dropped. -/
def res_verb (x0 : Scores) : Scores :=
  mulf (F := Ideal) (φ := .f32) x0 (keepF117 x0)

/-! ## The labels -/

/-- The scalar integer one. -/
def one : (⟨S_, .i32⟩ : BufTy).Contents (Elt Ideal) :=
  constantI S_ 32 1#32
/-- One for every candidate. -/
def ones : Cats :=
  broadcastInDim S128x2048 ![] bcast_S_S128x2048 one
/-- Categories less one. -/
def catsLess1 (x : Cats) : Cats :=
  subi x ones
/-- The subjects' then the objects' categories less one, joined along the candidate axis. -/
def labelsRaw (x3 x4 : Cats) : (⟨S128x4096, .i32⟩ : BufTy).Contents (Elt Ideal) :=
  concatenate S128x4096 1 [⟨S128x2048, catsLess1 x3⟩, ⟨S128x2048, catsLess1 x4⟩] concatenates_S128x2048_S128x2048_S128x4096_d1
/-- The kept bits twice, joined along the candidate axis. -/
def keep2 (x0 : Scores) : (⟨S128x4096, .i1⟩ : BufTy).Contents (Elt Ideal) :=
  concatenate S128x4096 1 [⟨S128x2048, keepBits x0⟩, ⟨S128x2048, keepBits x0⟩] concatenates_S128x2048_S128x2048_S128x4096_d1
/-- The scalar integer −1 (the word of all ones). -/
def minusOne : (⟨S_, .i32⟩ : BufTy).Contents (Elt Ideal) :=
  constantI S_ 32 4294967295#32
/-- −1 for every entry of the joined arrays (through the conversion to its own type, the identity). -/
def minusOnes : (⟨S128x4096, .i32⟩ : BufTy).Contents (Elt Ideal) :=
  broadcastInDim S128x4096 ![] bcast_S_S128x4096 (id minusOne)
/-- RESULT: the label where kept, −1 elsewhere. -/
def res_labels (x0 : Scores) (x3 x4 : Cats) : (⟨S128x4096, .i32⟩ : BufTy).Contents (Elt Ideal) :=
  select (keep2 x0) (labelsRaw x3 x4) minusOnes

/-! ## The kept bits -/

/-- RESULT: the kept bits. -/
def res_keep (x0 : Scores) : (⟨S128x2048, .i1⟩ : BufTy).Contents (Elt Ideal) :=
  keepBits x0

end Cert.Proof.RefSide

end
-- ==== Proof.RefSide.lean ====
/-
  The reference computation read at an index: the masked scores, the kept bits and either half of the boxes of
  `RefStages`, at explicit coordinates, are the row-wise specification `Spec` of the argument arrays (the labels
  and the joined boxes are functions of these and are not read here).

  The road: the layout operations (a broadcast along new or unit axes, a slice, a reshape) each read one element of
  their operand; a reduction over the class axis reads as a fold or a sum over that axis's 117 coordinates; the
  elementwise operations read elementwise. Chained for one candidate `(b, n)` — whose scores are the row
  `fun k => x0 (ix3 b n k)` — they give the row's maximum, exponentials, sum, probabilities, largest probability and
  kept bit of `Spec`. Two laws of the extended reals enter and no finiteness: the maximum of −∞ with a fold of `max`
  started from −∞ is that fold, and the zero word in front of a sum adds nothing.
-/
import proofs.«126910_j32856499814727_2_alg».proof.Proof.RefStages
import proofs.«126910_j32856499814727_2_alg».proof.Proof.Spec
import Idealize.ShloMosaic.Lib.Pipeline.Value
import Idealize.ShloMosaic.PureOps.Ideal.Laws
import Idealize.ShloMosaic.Lib.ValueIdx

noncomputable section

open scoped BigOperators

namespace Cert.Proof.RefSide

open Cert.ReferenceIdeal Cert.ReferenceIdeal.Gen Idealize.ShloMosaic Idealize.ShloMosaic.ValueIdx

/-! ## The layout operations at explicit coordinates -/

section Layout
variable {α : Type}

/-- A scalar repeated for every candidate reads the scalar. -/
theorem bcast_scalar_cands (y : S_.Idx → α) (b : Fin 128) (n : Fin 2048) :
    broadcastInDim S128x2048 ![] bcast_S_S128x2048 y (ix2 b n) = y ix0 :=
  broadcastInDim_apply _ bcast_S_S128x2048 y (ix2 b n) ix0 (fun a => a.elim0)

/-- A per-candidate array given a unit class axis reads the candidate's entry. -/
theorem bcast_col (y : S128x2048.Idx → α) (b : Fin 128) (n : Fin 2048) (z : Fin 1) :
    broadcastInDim S128x2048x1 ![0, 1] bcast_S128x2048_S128x2048x1_0_1 y (ix3 b n z) = y (ix2 b n) :=
  broadcastInDim_apply _ bcast_S128x2048_S128x2048x1_0_1 y (ix3 b n z) (ix2 b n) (fun a => match a with
    | ⟨0, _⟩ => by show b.val = if (128 : Nat) = 1 then 0 else b.val; rw [if_neg (by decide)]
    | ⟨1, _⟩ => by show n.val = if (2048 : Nat) = 1 then 0 else n.val; rw [if_neg (by decide)])

/-- A unit class axis repeated over the 117 classes reads the candidate's one entry. -/
theorem bcast_classes (y : S128x2048x1.Idx → α) (b : Fin 128) (n : Fin 2048) (k : Fin 117) :
    broadcastInDim S128x2048x117 ![0, 1, 2] bcast_S128x2048x1_S128x2048x117_0_1_2 y (ix3 b n k) = y (ix3 b n (0 : Fin 1)) :=
  broadcastInDim_apply _ bcast_S128x2048x1_S128x2048x117_0_1_2 y (ix3 b n k) (ix3 b n (0 : Fin 1)) (fun a => match a with
    | ⟨0, _⟩ => by show b.val = if (128 : Nat) = 1 then 0 else b.val; rw [if_neg (by decide)]
    | ⟨1, _⟩ => by show n.val = if (2048 : Nat) = 1 then 0 else n.val; rw [if_neg (by decide)]
    | ⟨2, _⟩ => by show (0 : Nat) = if (1 : Nat) = 1 then 0 else k.val; rw [if_pos rfl])

/-- A unit class axis repeated over the four box coordinates reads the candidate's one entry. -/
theorem bcast_coords (y : S128x2048x1.Idx → α) (b : Fin 128) (n : Fin 2048) (d : Fin 4) :
    broadcastInDim S128x2048x4 ![0, 1, 2] bcast_S128x2048x1_S128x2048x4_0_1_2 y (ix3 b n d) = y (ix3 b n (0 : Fin 1)) :=
  broadcastInDim_apply _ bcast_S128x2048x1_S128x2048x4_0_1_2 y (ix3 b n d) (ix3 b n (0 : Fin 1)) (fun a => match a with
    | ⟨0, _⟩ => by show b.val = if (128 : Nat) = 1 then 0 else b.val; rw [if_neg (by decide)]
    | ⟨1, _⟩ => by show n.val = if (2048 : Nat) = 1 then 0 else n.val; rw [if_neg (by decide)]
    | ⟨2, _⟩ => by show (0 : Nat) = if (1 : Nat) = 1 then 0 else d.val; rw [if_pos rfl])

end Layout

/-! ## The reductions over the class axis at a candidate -/

/-- The class axis can be reduced away (the witness that names the index with a class coordinate inserted). -/
theorem reduces_classes : S128x2048x117.Reduces [2] S128x2048 := by decide

/-- The candidate `(b, n)` with class coordinate `k` inserted is `(b, n, k)`. -/
theorem lift_cand (b : Fin 128) (n : Fin 2048) (k : Fin 117) :
    reduces_classes.lift (ix2 b n) k = ix3 b n k :=
  funext fun a => Fin.ext (by match a with | ⟨0, _⟩ => rfl | ⟨1, _⟩ => rfl | ⟨2, _⟩ => rfl)

/-- A maximum over the class axis started from −∞, at a candidate: the fold of `max` from −∞ over the 117 classes. -/
theorem maxReduce_at (y : Scores) (b : Fin 128) (n : Fin 2048) :
    Host.reduce (FloatOps.maximumf (F := Ideal) (φ := .f32)) y negInf reducesTo_S128x2048x117_S128x2048_d2 h_S_ (ix2 b n)
      = (Finset.univ : Finset (Fin 117)).fold max (Ideal.ofBits .f32 0xFF800000#32) (fun k => y (ix3 b n k)) := by
  refine (Host.reduce_eq_fold_single _ y negInf reducesTo_S128x2048x117_S128x2048_d2 reduces_classes h_S_ (ix2 b n)).trans ?_
  rw [show negInf (Shape.Idx.first h_S_) = Ideal.ofBits .f32 0xFF800000#32 from constant_apply _ _]
  exact congrArg (fun f => (Finset.univ : Finset (Fin 117)).fold max (Ideal.ofBits .f32 0xFF800000#32) f)
    (funext fun k => congrArg y (lift_cand b n k))

/-- A sum over the class axis started from the zero word, at a candidate: that word plus the sum over the 117 classes. -/
theorem sumReduce_at (y : Scores) (b : Fin 128) (n : Fin 2048) :
    Host.reduceAdd (F := Ideal) (φ := .f32) y zero reducesTo_S128x2048x117_S128x2048_d2 h_S_ (ix2 b n)
      = Ideal.ofBits .f32 0x00000000#32 + ∑ k : Fin 117, y (ix3 b n k) := by
  simp only [Host.reduceAdd, Ideal.hostReduceAdd_def]
  rw [Ideal.hostReduceAdd_single reducesTo_S128x2048x117_S128x2048_d2 reduces_classes,
    show zero (Shape.Idx.first h_S_) = Ideal.ofBits .f32 0x00000000#32 from constant_apply _ _]
  refine congrArg (Ideal.ofBits .f32 0x00000000#32 + ·) (Finset.sum_congr rfl fun k _ => ?_)
  exact congrArg y (lift_cand b n k)

/-! ## The elementwise operations of the ideal values at an index -/

section Pointwise
variable {s : Shape}

theorem hostExp_apply (y : FVec Ideal s .f32) (i : s.Idx) : Host.exp y i = Ideal.exp (y i) := rfl
theorem hostDivf_apply (a c : FVec Ideal s .f32) (i : s.Idx) : Host.divf a c i = Ideal.div (a i) (c i) := rfl
theorem cmpf_ideal_apply (p : CmpFPredicate) (a c : FVec Ideal s .f32) (i : s.Idx) :
    cmpf p a c i = Ideal.cmp p (a i) (c i) := rfl
theorem uitofp_bit_apply (c : IVec s 1) (i : s.Idx) :
    uitofp (F := Ideal) .f32 c i = (((c i).toNat : ℝ) : EReal) := rfl

end Pointwise

/-! ## The softmax chain at a candidate -/

/-- The candidate's largest score is the row's maximum. -/
theorem rowMaxes_at (x0 : Scores) (b : Fin 128) (n : Fin 2048) :
    rowMaxes x0 (ix2 b n) = Spec.rowMax (fun k => x0 (ix3 b n k)) := by
  unfold rowMaxes Spec.rowMax
  exact maxReduce_at x0 b n

theorem negInfs_at (b : Fin 128) (n : Fin 2048) : negInfs (ix2 b n) = Ideal.ofBits .f32 0xFF800000#32 := by
  unfold negInfs
  rw [bcast_scalar_cands]
  exact constant_apply _ _

/-- The further maximum with −∞ changes nothing. -/
theorem rowMaxes'_at (x0 : Scores) (b : Fin 128) (n : Fin 2048) :
    rowMaxes' x0 (ix2 b n) = Spec.rowMax (fun k => x0 (ix3 b n k)) := by
  unfold rowMaxes'
  rw [maximumf_apply, negInfs_at, rowMaxes_at]
  exact Spec.max_init_rowMax _

theorem maxFull_at (x0 : Scores) (b : Fin 128) (n : Fin 2048) (k : Fin 117) :
    maxFull x0 (ix3 b n k) = Spec.rowMax (fun k => x0 (ix3 b n k)) := by
  unfold maxFull maxCol
  rw [bcast_classes, bcast_col]
  exact rowMaxes'_at x0 b n

/-- The exponential of a score less its candidate's largest. -/
theorem expd_at (x0 : Scores) (b : Fin 128) (n : Fin 2048) (k : Fin 117) :
    expd x0 (ix3 b n k) = Spec.rowExp (fun k => x0 (ix3 b n k)) k := by
  unfold expd shifted Spec.rowExp
  rw [hostExp_apply, subf_apply, maxFull_at]

/-- The candidate's sum of exponentials; the zero word in front adds nothing. -/
theorem rowSums_at (x0 : Scores) (b : Fin 128) (n : Fin 2048) :
    rowSums x0 (ix2 b n) = Spec.rowSum (fun k => x0 (ix3 b n k)) := by
  unfold rowSums
  rw [sumReduce_at, Finset.sum_congr rfl (fun k _ => expd_at x0 b n k)]
  exact Spec.zero_add_rowSum _

theorem sumFull_at (x0 : Scores) (b : Fin 128) (n : Fin 2048) (k : Fin 117) :
    sumFull x0 (ix3 b n k) = Spec.rowSum (fun k => x0 (ix3 b n k)) := by
  unfold sumFull sumCol
  rw [bcast_classes, bcast_col]
  exact rowSums_at x0 b n

/-- A class's probability. -/
theorem probs_at (x0 : Scores) (b : Fin 128) (n : Fin 2048) (k : Fin 117) :
    probs x0 (ix3 b n k) = Spec.rowProb (fun k => x0 (ix3 b n k)) k := by
  unfold probs Spec.rowProb
  rw [hostDivf_apply, expd_at, sumFull_at]

/-- The candidate's largest probability. -/
theorem probMaxes_at (x0 : Scores) (b : Fin 128) (n : Fin 2048) :
    probMaxes x0 (ix2 b n) = Spec.rowPeak (fun k => x0 (ix3 b n k)) := by
  unfold probMaxes Spec.rowPeak
  rw [maxReduce_at]
  exact congrArg (fun f => (Finset.univ : Finset (Fin 117)).fold max (Ideal.ofBits .f32 0xFF800000#32) f)
    (funext fun k => probs_at x0 b n k)

theorem halves_at (b : Fin 128) (n : Fin 2048) : halves (ix2 b n) = Ideal.ofBits .f32 0x3F000000#32 := by
  unfold halves
  rw [bcast_scalar_cands]
  exact constant_apply _ _

/-- The candidate's kept bit. -/
theorem keepBits_at (x0 : Scores) (b : Fin 128) (n : Fin 2048) :
    keepBits x0 (ix2 b n) = Spec.rowKeep (fun k' => x0 (ix3 b n k')) := by
  unfold keepBits Spec.rowKeep
  rw [cmpf_ideal_apply, probMaxes_at, halves_at]

/-- The candidate's kept bit as a float. -/
theorem keepF_at (x0 : Scores) (b : Fin 128) (n : Fin 2048) (z : Fin 1) :
    keepF x0 (ix3 b n z) = Spec.rowKeepF (fun k' => x0 (ix3 b n k')) := by
  unfold keepF keepCol Spec.rowKeepF
  rw [uitofp_bit_apply, bcast_col, keepBits_at]

/-! ## The masked scores, the masked boxes and the kept bits -/

/-- RESULT `res_verb` at `(b, n, k)`: the score times the candidate's kept float. -/
theorem verb_at (x0 : Scores) (b : Fin 128) (n : Fin 2048) (k : Fin 117) :
    res_verb x0 (ix3 b n k) = x0 (ix3 b n k) * Spec.rowKeepF (fun k' => x0 (ix3 b n k')) := by
  unfold res_verb keepF117
  rw [mulf_apply, bcast_classes, keepF_at]

/-- The rescaled boxes at `(b, n, d)`: the box coordinate times its scale, times the candidate's kept float
    (either half of `res_boxes`, before the two are joined). -/
theorem keptBoxes_at (x0 : Scores) (x : Boxes) (x5 x6 : Sizes) (b : Fin 128) (n : Fin 2048) (d : Fin 4) :
    keptBoxes x0 x x5 x6 (ix3 b n d)
      = (x (ix3 b n d) * scaleFull x5 x6 (ix3 b n d)) * Spec.rowKeepF (fun k' => x0 (ix3 b n k')) := by
  unfold keptBoxes scaledBoxes keepF4
  rw [mulf_apply, mulf_apply, bcast_coords, keepF_at]

/-- RESULT `res_keep` at `(b, n)`: the candidate's kept bit. -/
theorem keep_at (x0 : Scores) (b : Fin 128) (n : Fin 2048) :
    res_keep x0 (ix2 b n) = Spec.rowKeep (fun k' => x0 (ix3 b n k')) :=
  keepBits_at x0 b n

end Cert.Proof.RefSide

end
-- ==== Proof.Flatten.lean ====
/-
  Flattening the candidates.

  The kernel works on arrays of 262144 = 128 · 2048 rows, one per candidate: candidate n of image b is row
  2048·b + n.  A [128, 2048, C] array re-laid as [262144, C] (and back) keeps row-major order, so the two read
  the same entry at (b, n, k) and at (2048·b + n, k).
-/
import Idealize.ShloMosaic.Lib.Pipeline.Value
import Idealize.ShloMosaic.Lib.ValueIdx

noncomputable section

namespace Cert.Proof.Flatten

open Idealize.ShloMosaic Idealize.ShloMosaic.ValueIdx

/-- Candidate n of image b is row 2048·b + n of the flattened arrays. -/
def flatRow (b : Fin 128) (n : Fin 2048) : Fin 262144 :=
  ⟨b.val * 2048 + n.val, by have := b.isLt; have := n.isLt; omega⟩

/-- A [262144, C] array re-laid as [128, 2048, C], read at (b, n, k). -/
theorem unflatten_at {α : Type} {C : ℕ} (Y : (⟨2, ![262144, C]⟩ : Shape).Idx → α)
    (h : (⟨2, ![262144, C]⟩ : Shape).ShapeCasts ⟨3, ![128, 2048, C]⟩) (b : Fin 128) (n : Fin 2048) (k : Fin C) :
    shapeCast ⟨3, ![128, 2048, C]⟩ Y h (ix3 b n k) = Y (ix2 (flatRow b n) k) := by
  refine shapeCast_apply Y h (ix3 b n k) (ix2 (flatRow b n) k) ?_
  rw [Shape.rowMajor_val_two, Shape.rowMajor_val_three]
  rfl

/-- A [128, 2048, C] array re-laid as [262144, C], read at (2048·b + n, k). -/
theorem flatten_at {α : Type} {C : ℕ} (x : (⟨3, ![128, 2048, C]⟩ : Shape).Idx → α)
    (h : (⟨3, ![128, 2048, C]⟩ : Shape).ShapeCasts ⟨2, ![262144, C]⟩) (b : Fin 128) (n : Fin 2048) (k : Fin C) :
    shapeCast ⟨2, ![262144, C]⟩ x h (ix2 (flatRow b n) k) = x (ix3 b n k) := by
  refine shapeCast_apply x h (ix2 (flatRow b n) k) (ix3 b n k) ?_
  rw [Shape.rowMajor_val_two, Shape.rowMajor_val_three]
  rfl

/-- A [262144, 1] column re-laid as [128, 2048], read at (b, n). -/
theorem unflattenCol_at {α : Type} (Y : (⟨2, ![262144, 1]⟩ : Shape).Idx → α)
    (h : (⟨2, ![262144, 1]⟩ : Shape).ShapeCasts ⟨2, ![128, 2048]⟩) (b : Fin 128) (n : Fin 2048) :
    shapeCast ⟨2, ![128, 2048]⟩ Y h (ix2 b n) = Y (ix2 (flatRow b n) (0 : Fin 1)) := by
  refine shapeCast_apply Y h (ix2 b n) (ix2 (flatRow b n) (0 : Fin 1)) ?_
  rw [Shape.rowMajor_val_two, Shape.rowMajor_val_two]
  show (b.val * 2048 + n.val) * 1 + 0 = b.val * 2048 + n.val
  omega

/-- Every row of the flattened arrays is some candidate's. -/
theorem exists_flatRow (p : Fin 262144) : ∃ (b : Fin 128) (n : Fin 2048), p = flatRow b n :=
  ⟨⟨p.val / 2048, by have := p.isLt; omega⟩, ⟨p.val % 2048, Nat.mod_lt _ (by decide)⟩,
    Fin.ext (by show p.val = p.val / 2048 * 2048 + p.val % 2048; omega)⟩

end Cert.Proof.Flatten

end
-- ==== Proof.Bridge.lean ====
/-
  The bridge between the flattened arrays and the arrays of the reference computation.

  The 262144 = 128 · 2048 candidates can be laid out as the rows of a two-axis array or along two axes; the
  re-laying keeps row-major order, so entry (b, n, k) of the one is entry (2048·b + n, k) of the other. Candidate
  (b, n)'s row of the flattened scores is therefore its row of the scores, and the row-wise functions of
  `ArrayFns` on the flattened arguments, laid back out, are the reference's stages of `RefStages`: the masked
  scores, the masked rescaled boxes, and the kept bits. For the bits one fact about words enters: a one-bit word
  widened to 32 bits without sign differs from zero exactly when the bit is one.
  The re-laying facts are hypotheses, so that they meet whatever proofs of them a program carries.
-/
import proofs.«126910_j32856499814727_2_alg».proof.Proof.RefSide
import proofs.«126910_j32856499814727_2_alg».proof.Proof.ArrayFns
import proofs.«126910_j32856499814727_2_alg».proof.Proof.Flatten
import Idealize.ShloMosaic.Lib.Pipeline.Value
import Idealize.ShloMosaic.Lib.ValueIdx

noncomputable section

namespace Cert.Proof.Bridge

open Idealize.ShloMosaic Idealize.ShloMosaic.ValueIdx
open Cert.Proof Cert.Proof.ArrayFns Cert.Proof.Flatten

/-- Candidate (b, n)'s row of the flattened scores is its row of the scores. -/
theorem rowOf_flat (x0 : RefSide.Scores) (hX : (⟨3, ![128, 2048, 117]⟩ : Shape).ShapeCasts ⟨2, ![262144, 117]⟩)
    (b : Fin 128) (n : Fin 2048) :
    rowOf (shapeCast SRows117 x0 hX) (flatRow b n) = fun k' => x0 (ix3 b n k') :=
  funext fun k' => flatten_at x0 hX b n k'

/-- The masked scores: the row-wise function on the flattened scores, laid back out. -/
theorem bridge_verb (x0 : RefSide.Scores)
    (hX : (⟨3, ![128, 2048, 117]⟩ : Shape).ShapeCasts ⟨2, ![262144, 117]⟩)
    (hX' : (⟨2, ![262144, 117]⟩ : Shape).ShapeCasts ⟨3, ![128, 2048, 117]⟩) :
    shapeCast ⟨3, ![128, 2048, 117]⟩ (gScores (shapeCast SRows117 x0 hX)) hX' = RefSide.res_verb x0 := by
  funext i
  obtain ⟨b, n, k, rfl⟩ : ∃ (b : Fin 128) (n : Fin 2048) (k : Fin 117), i = ix3 b n k := ⟨i 0, i 1, i 2, eq_ix3 i⟩
  rw [unflatten_at, gScores_at, flatten_at, rowOf_flat, RefSide.verb_at]

/-- A one-bit word widened to 32 bits without sign differs from the zero word exactly when the bit is one. -/
theorem widened_ne_zero (c : BitVec 1) : IntOp.cmpi .ne (c.setWidth 32) 0#32 = c := by
  rcases BitVec.eq_zero_or_eq_one c with h | h <;> subst h <;> decide

/-- The kept bits: the widened flags laid back out, compared with zero. -/
theorem bridge_keep (x0 : RefSide.Scores)
    (hX : (⟨3, ![128, 2048, 117]⟩ : Shape).ShapeCasts ⟨2, ![262144, 117]⟩)
    (hC' : (⟨2, ![262144, 1]⟩ : Shape).ShapeCasts ⟨2, ![128, 2048]⟩)
    (hz : (⟨0, ![]⟩ : Shape).BroadcastsInDim ⟨2, ![128, 2048]⟩ (![] : Fin 0 → Fin (⟨2, ![128, 2048]⟩ : Shape).rank)) :
    id (cmpi .ne (shapeCast ⟨2, ![128, 2048]⟩ (gFlag (shapeCast SRows117 x0 hX)) hC')
        (broadcastInDim ⟨2, ![128, 2048]⟩ ![] hz (constantI ⟨0, ![]⟩ 32 0#32)))
      = RefSide.keepBits x0 := by
  funext i
  obtain ⟨b, n, rfl⟩ : ∃ (b : Fin 128) (n : Fin 2048), i = ix2 b n := ⟨i 0, i 1, eq_ix2 i⟩
  show IntOp.cmpi .ne (shapeCast ⟨2, ![128, 2048]⟩ (gFlag (shapeCast SRows117 x0 hX)) hC' (ix2 b n))
      (broadcastInDim ⟨2, ![128, 2048]⟩ ![] hz (constantI ⟨0, ![]⟩ 32 0#32) (ix2 b n)) = _
  rw [unflattenCol_at, gFlag_at, rowOf_flat,
    broadcastInDim_apply _ hz (constantI ⟨0, ![]⟩ 32 0#32) (ix2 b n) ix0 (fun a => a.elim0),
    RefSide.keepBits_at]
  exact widened_ne_zero _

/-- The masked rescaled boxes: the row-wise function on the flattened scores, scale and boxes, laid back out. -/
theorem bridge_boxes (x0 : RefSide.Scores) (x : RefSide.Boxes) (x5 x6 : RefSide.Sizes)
    (hX : (⟨3, ![128, 2048, 117]⟩ : Shape).ShapeCasts ⟨2, ![262144, 117]⟩)
    (hB : (⟨3, ![128, 2048, 4]⟩ : Shape).ShapeCasts ⟨2, ![262144, 4]⟩)
    (hB' : (⟨2, ![262144, 4]⟩ : Shape).ShapeCasts ⟨3, ![128, 2048, 4]⟩) :
    shapeCast ⟨3, ![128, 2048, 4]⟩
        (gBoxes (shapeCast SRows117 x0 hX) (shapeCast SRows4 (RefSide.scaleFull x5 x6) hB) (shapeCast SRows4 x hB)) hB'
      = RefSide.keptBoxes x0 x x5 x6 := by
  funext i
  obtain ⟨b, n, d, rfl⟩ : ∃ (b : Fin 128) (n : Fin 2048) (d : Fin 4), i = ix3 b n d := ⟨i 0, i 1, i 2, eq_ix3 i⟩
  rw [unflatten_at, gBoxes_at, flatten_at x hB, flatten_at (RefSide.scaleFull x5 x6) hB, rowOf_flat, RefSide.keptBoxes_at]

/-- The labels: once the kept bits agree, so do the selections over the bits joined with themselves. -/
theorem bridge_labels {α : Type} (x0 : RefSide.Scores) (kk : (⟨2, ![128, 2048]⟩ : Shape).Idx → BitVec 1)
    (hk : kk = RefSide.keepBits x0)
    (hc : Shape.Concatenates [(⟨2, ![128, 2048]⟩ : Shape), ⟨2, ![128, 2048]⟩] ⟨2, ![128, 4096]⟩ 1)
    (L N : (⟨2, ![128, 4096]⟩ : Shape).Idx → α) :
    select (concatenate ⟨2, ![128, 4096]⟩ 1 [⟨⟨2, ![128, 2048]⟩, kk⟩, ⟨⟨2, ![128, 2048]⟩, kk⟩] hc) L N
      = select (concatenate ⟨2, ![128, 4096]⟩ 1
          [⟨⟨2, ![128, 2048]⟩, RefSide.keepBits x0⟩, ⟨⟨2, ![128, 2048]⟩, RefSide.keepBits x0⟩] hc) L N := by
  subst hk
  rfl

end Cert.Proof.Bridge

end
-- ==== Proof.KernelValue.lean ====
/-
  What the kernel program computes, at the ideal values: its four results as functions of its seven arguments.

  The region finds the scores, the two box arrays and the scale array flattened to 262144 rows (the host lines
  before it), leaves its four output arrays at the functions of those that the blocks-to-arrays step gives, and
  the host lines after it un-flatten them, join the two box arrays and the labels, and mask the labels.  Un-flattened,
  those functions are the reference's own stages: the masked scores, each half of the masked rescaled boxes, and
  the kept bits (a kept flag stored as a 32-bit word and tested against zero is the bit again); the labels are the
  same selection once the kept bits agree.  So each result buffer of the kernel program ends at the reference's
  term of the kernel program's own arguments.
-/
import proofs.«126910_j32856499814727_2_alg».proof.Proof.KernelIdealRegion
import proofs.«126910_j32856499814727_2_alg».proof.Proof.KernelArrays
import proofs.«126910_j32856499814727_2_alg».proof.Proof.KernelHost
import proofs.«126910_j32856499814727_2_alg».proof.Proof.Bridge
import Idealize.ShloMosaic.PureOps.Ideal

set_option maxRecDepth 16384
set_option maxHeartbeats 1000000

noncomputable section

namespace Cert.Proof.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Region
open Cert.Proof Cert.Proof.ArrayFns Cert.Proof.KernelArrays

variable (m : (ℓ : Loc nD τ sig) → Buf (Elt Ideal) ℓ) (ρ : Dev nD → PrngReg)

-- the host lines are read through the lemmas about them, never by evaluation
attribute [local irreducible] StableHlo.after

/-! ## The arrays the region finds are the arguments flattened -/

theorem inScores_eq (c : Dev nD) :
    inScores m c = shapeCast S262144x117 (m ((c.tc : Thread nD τ).loc main_arg0)) shapeCasts_S128x2048x117_S262144x117 := by
  show StableHlo.after (List.flatten [hostOps0]) (fun b => m (c, b)) (Proc.devRef .tc main_v18) = _
  simp only [List.flatten_cons, List.flatten_nil, List.append_nil]
  exact KernelHost.head_v18 _

theorem inBoxesA_eq (c : Dev nD) :
    inBoxesA m c = shapeCast S262144x4 (m ((c.tc : Thread nD τ).loc main_arg1)) shapeCasts_S128x2048x4_S262144x4 := by
  show StableHlo.after (List.flatten [hostOps0]) (fun b => m (c, b)) (Proc.devRef .tc main_v19) = _
  simp only [List.flatten_cons, List.flatten_nil, List.append_nil]
  exact KernelHost.head_v19 _

theorem inBoxesB_eq (c : Dev nD) :
    inBoxesB m c = shapeCast S262144x4 (m ((c.tc : Thread nD τ).loc main_arg2)) shapeCasts_S128x2048x4_S262144x4 := by
  show StableHlo.after (List.flatten [hostOps0]) (fun b => m (c, b)) (Proc.devRef .tc main_v20) = _
  simp only [List.flatten_cons, List.flatten_nil, List.append_nil]
  exact KernelHost.head_v20 _

/-- The kernel program's scale array is the reference's: the same operations over the same shapes. -/
theorem scaleFull_eq (x5 x6 : RefSide.Sizes) : KernelHost.scaleFullK (F := Ideal) x5 x6 = RefSide.scaleFull x5 x6 := by
  unfold KernelHost.scaleFullK KernelHost.scaleK KernelHost.scaleRowK KernelHost.concat4K KernelHost.ratio1K KernelHost.ratio0K
  unfold RefSide.scaleFull RefSide.scale14 RefSide.scale4 RefSide.scaleWCol RefSide.scaleHCol RefSide.scaleW RefSide.scaleH
    RefSide.widths RefSide.heights RefSide.widthCol RefSide.heightCol
  rfl

theorem inScale_eq (c : Dev nD) :
    inScale m c = shapeCast S262144x4
      (RefSide.scaleFull (m ((c.tc : Thread nD τ).loc main_arg5)) (m ((c.tc : Thread nD τ).loc main_arg6))) shapeCasts_S128x2048x4_S262144x4 := by
  show StableHlo.after (List.flatten [hostOps0]) (fun b => m (c, b)) (Proc.devRef .tc main_v17) = _
  simp only [List.flatten_cons, List.flatten_nil, List.append_nil]
  refine (KernelHost.head_v17 _).trans ?_
  exact congrArg (fun s => shapeCast S262144x4 s shapeCasts_S128x2048x4_S262144x4) (scaleFull_eq _ _)

/-! ## What the region leaves: the pipeline's arrays at their final contents, everything else untouched -/

/-- Core c's buffers when the region is left. -/
abbrev exitVal (c : Dev nD) : Valuation τ sig (Elt Ideal) :=
  Pipeline.withArrays spec0 c (V0 m c) fun w => (dats m 0 c).arrAt w cfg0.N

theorem exit_4 (c : Dev nD) : exitVal m c (Proc.devRef .tc main_v21_0) = gScores (inScores m c) :=
  (Pipeline.withArrays_arr spec0 launch0.win.arr_inj c _ _ 4).trans (final_4 m c)
theorem exit_5 (c : Dev nD) : exitVal m c (Proc.devRef .tc main_v21_1) = gBoxes (inScores m c) (inScale m c) (inBoxesA m c) :=
  (Pipeline.withArrays_arr spec0 launch0.win.arr_inj c _ _ 5).trans (final_5 m c)
theorem exit_6 (c : Dev nD) : exitVal m c (Proc.devRef .tc main_v21_2) = gBoxes (inScores m c) (inScale m c) (inBoxesB m c) :=
  (Pipeline.withArrays_arr spec0 launch0.win.arr_inj c _ _ 6).trans (final_6 m c)
theorem exit_7 (c : Dev nD) : exitVal m c (Proc.devRef .tc main_v21_3) = gFlag (inScores m c) :=
  (Pipeline.withArrays_arr spec0 launch0.win.arr_inj c _ _ 7).trans (final_7 m c)
theorem exit_arg3 (c : Dev nD) : exitVal m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem exit_arg4 (c : Dev nD) : exitVal m c (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)

/-- The host lines after the region, from what the region leaves. -/
theorem tail_eq (c : Dev nD) (b : Ref sig .tc) :
    Pipeline.afterTail₀ cfgs (dats m) 0 (V0 m) tailOps c b
      = StableHlo.after ((hostOps1 (F := Ideal)) ++ (hostOps1_1 (F := Ideal))) (exitVal m c) (Proc.devRef .tc b) := by
  unfold Pipeline.afterTail₀
  show StableHlo.after (List.flatten tailOps) (exitVal m c) (Proc.devRef .tc b) = _
  simp only [tailOps, List.flatten_cons, List.flatten_nil, List.append_nil]

/-! ## The four results -/

/-- The kept bits of the kernel program are the reference's. -/
theorem keepK_eq (c : Dev nD) :
    KernelHost.keepK (F := Ideal) (gFlag (inScores m c)) = RefSide.keepBits (m ((c.tc : Thread nD τ).loc main_arg0)) := by
  rw [inScores_eq]
  unfold KernelHost.keepK
  exact Bridge.bridge_keep (m ((c.tc : Thread nD τ).loc main_arg0)) shapeCasts_S128x2048x117_S262144x117
    shapeCasts_S262144x1_S128x2048 bcast_S_S128x2048

theorem res_v22 (c : Dev nD) :
    Pipeline.afterTail₀ cfgs (dats m) 0 (V0 m) tailOps c main_v22 = RefSide.res_verb (m ((c.tc : Thread nD τ).loc main_arg0)) := by
  rw [tail_eq, KernelHost.tail_v22, exit_4, inScores_eq]
  exact Bridge.bridge_verb (m ((c.tc : Thread nD τ).loc main_arg0)) shapeCasts_S128x2048x117_S262144x117 shapeCasts_S262144x117_S128x2048x117

theorem res_v28 (c : Dev nD) :
    Pipeline.afterTail₀ cfgs (dats m) 0 (V0 m) tailOps c main_v28 = RefSide.res_keep (m ((c.tc : Thread nD τ).loc main_arg0)) := by
  rw [tail_eq, KernelHost.tail_v28, exit_7, keepK_eq]
  rfl

theorem res_v29 (c : Dev nD) :
    Pipeline.afterTail₀ cfgs (dats m) 0 (V0 m) tailOps c main_v29
      = RefSide.res_boxes (m ((c.tc : Thread nD τ).loc main_arg0)) (m ((c.tc : Thread nD τ).loc main_arg1)) (m ((c.tc : Thread nD τ).loc main_arg2))
          (m ((c.tc : Thread nD τ).loc main_arg5)) (m ((c.tc : Thread nD τ).loc main_arg6)) := by
  rw [tail_eq, KernelHost.tail_v29, exit_5, exit_6, inScores_eq, inScale_eq, inBoxesA_eq, inBoxesB_eq]
  have hA := Bridge.bridge_boxes (m ((c.tc : Thread nD τ).loc main_arg0)) (m ((c.tc : Thread nD τ).loc main_arg1))
    (m ((c.tc : Thread nD τ).loc main_arg5)) (m ((c.tc : Thread nD τ).loc main_arg6))
    shapeCasts_S128x2048x117_S262144x117 shapeCasts_S128x2048x4_S262144x4 shapeCasts_S262144x4_S128x2048x4
  have hB := Bridge.bridge_boxes (m ((c.tc : Thread nD τ).loc main_arg0)) (m ((c.tc : Thread nD τ).loc main_arg2))
    (m ((c.tc : Thread nD τ).loc main_arg5)) (m ((c.tc : Thread nD τ).loc main_arg6))
    shapeCasts_S128x2048x117_S262144x117 shapeCasts_S128x2048x4_S262144x4 shapeCasts_S262144x4_S128x2048x4
  refine (congrArg₂ (KernelHost.concatBoxesK (F := Ideal)) hA hB).trans ?_
  unfold KernelHost.concatBoxesK RefSide.res_boxes
  rfl

theorem res_v36 (c : Dev nD) :
    Pipeline.afterTail₀ cfgs (dats m) 0 (V0 m) tailOps c main_v36
      = RefSide.res_labels (m ((c.tc : Thread nD τ).loc main_arg0)) (m ((c.tc : Thread nD τ).loc main_arg3)) (m ((c.tc : Thread nD τ).loc main_arg4)) := by
  rw [tail_eq, KernelHost.tail_v36, exit_7, exit_arg3, exit_arg4, keepK_eq]
  unfold KernelHost.concatKeepK KernelHost.concatLabelsK KernelHost.labelShiftK
  unfold RefSide.res_labels RefSide.keep2 RefSide.labelsRaw RefSide.catsLess1 RefSide.ones RefSide.one RefSide.minusOnes RefSide.minusOne
  rfl

/-! ## The value run -/

/-- Every weakly fair execution of the kernel program ends, without a fault, with its four results at the
    reference's terms of its own arguments, and its arguments as they were. -/
theorem run_value : θ_run defs (onTc (τ := τ) (main (F := Ideal))) ⟨m, fun _ => 0, ρ⟩ (fun r => ∀ c : Dev nD,
      r.2.mem ((c.tc : Thread nD τ).loc main_v29)
          = RefSide.res_boxes (m ((c.tc : Thread nD τ).loc main_arg0)) (m ((c.tc : Thread nD τ).loc main_arg1)) (m ((c.tc : Thread nD τ).loc main_arg2))
              (m ((c.tc : Thread nD τ).loc main_arg5)) (m ((c.tc : Thread nD τ).loc main_arg6))
      ∧ r.2.mem ((c.tc : Thread nD τ).loc main_v22) = RefSide.res_verb (m ((c.tc : Thread nD τ).loc main_arg0))
      ∧ r.2.mem ((c.tc : Thread nD τ).loc main_v36)
          = RefSide.res_labels (m ((c.tc : Thread nD τ).loc main_arg0)) (m ((c.tc : Thread nD τ).loc main_arg3)) (m ((c.tc : Thread nD τ).loc main_arg4))
      ∧ r.2.mem ((c.tc : Thread nD τ).loc main_v28) = RefSide.res_keep (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v29 (Pipeline.mem_restRefs_of main_v29 (by decide) (by decide))).trans (res_v29 m c),
     ((h c).2 main_v22 (Pipeline.mem_restRefs_of main_v22 (by decide) (by decide))).trans (res_v22 m c),
     ((h c).2 main_v36 (Pipeline.mem_restRefs_of main_v36 (by decide) (by decide))).trans (res_v36 m c),
     ((h c).2 main_v28 (Pipeline.mem_restRefs_of main_v28 (by decide) (by decide))).trans (res_v28 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c),
     ((h c).2 main_arg6 (Pipeline.mem_restRefs_of main_arg6 (by decide) (by decide))).trans (W_main_arg6 m (dats m) c)⟩) (run_main m ρ)

end Cert.Proof.KernelValue

end
-- ==== Proof.RefRun.lean ====
/-
  The reference program's run, read back: @main as the list of its 60 host operations, and — from any memory
  with zero counters — every weakly fair execution terminating with each of the four result buffers at a named
  term of the arguments' launch contents, the seven arguments unchanged. The terms are the composition of the
  operations the program prints, a value read by several later operations being one definition cited by each.
-/
import proofs.«126910_j32856499814727_2_alg».proof.Proof.Gen.ReferenceIdeal
import Idealize.ShloMosaic.Lib.StableHlo.Run

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-! ## The results as terms of the arguments

Each definition is one value of the program, written with the operations, shape facts and literals the program
prints; a value several later operations read is one definition, cited by each. The arguments are `x0 … x6`
(scores, the two box arrays, the two label arrays, the two size arrays). -/

/-- Two `128×2048×4` arrays laid end to end along axis 1. -/
def concatBoxes (a b : (⟨S128x2048x4, .f32⟩ : BufTy).Contents (Elt F)) : (⟨S128x4096x4, .f32⟩ : BufTy).Contents (Elt F) :=
  concatenate S128x4096x4 1 [⟨S128x2048x4, a⟩, ⟨S128x2048x4, b⟩] concatenates_S128x2048x4_S128x2048x4_S128x4096x4_d1

/-- Two `128×2048` integer arrays laid end to end along axis 1. -/
def concatLabels (a b : (⟨S128x2048, .i32⟩ : BufTy).Contents (Elt F)) : (⟨S128x4096, .i32⟩ : BufTy).Contents (Elt F) :=
  concatenate S128x4096 1 [⟨S128x2048, a⟩, ⟨S128x2048, b⟩] concatenates_S128x2048_S128x2048_S128x4096_d1

/-- Two `128×2048` bit arrays laid end to end along axis 1. -/
def concatKeep (a b : (⟨S128x2048, .i1⟩ : BufTy).Contents (Elt F)) : (⟨S128x4096, .i1⟩ : BufTy).Contents (Elt F) :=
  concatenate S128x4096 1 [⟨S128x2048, a⟩, ⟨S128x2048, b⟩] concatenates_S128x2048_S128x2048_S128x4096_d1

/-- Four `128×1` columns laid side by side. -/
def concat4 (a b c d : (⟨S128x1, .f32⟩ : BufTy).Contents (Elt F)) : (⟨S128x4, .f32⟩ : BufTy).Contents (Elt F) :=
  concatenate S128x4 1 [⟨S128x1, a⟩, ⟨S128x1, b⟩, ⟨S128x1, c⟩, ⟨S128x1, d⟩] concatenates_S128x1_S128x1_S128x1_S128x1_S128x4_d1

/-- Column 1 of `x5` over column 1 of `x6`, per image (`%4`). -/
def ratio1 (x5 x6 : (⟨S128x2, .f32⟩ : BufTy).Contents (Elt F)) : (⟨S128, .f32⟩ : BufTy).Contents (Elt F) :=
  Host.divf (shapeCast S128 (extractStridedSlice S128x1 ![0, 1] x5 slices_S128x2_S128x1_0_1) shapeCasts_S128x1_S128)
    (shapeCast S128 (extractStridedSlice S128x1 ![0, 1] x6 slices_S128x2_S128x1_0_1) shapeCasts_S128x1_S128)

/-- Column 0 of `x5` over column 0 of `x6`, per image (`%9`). -/
def ratio0 (x5 x6 : (⟨S128x2, .f32⟩ : BufTy).Contents (Elt F)) : (⟨S128, .f32⟩ : BufTy).Contents (Elt F) :=
  Host.divf (shapeCast S128 (extractStridedSlice S128x1 ![0, 0] x5 slices_S128x2_S128x1_0_0) shapeCasts_S128x1_S128)
    (shapeCast S128 (extractStridedSlice S128x1 ![0, 0] x6 slices_S128x2_S128x1_0_0) shapeCasts_S128x1_S128)

/-- The four scale factors of an image's boxes, `[r1, r0, r1, r0]` (`%14`). -/
def scaleRow (x5 x6 : (⟨S128x2, .f32⟩ : BufTy).Contents (Elt F)) : (⟨S128x4, .f32⟩ : BufTy).Contents (Elt F) :=
  concat4 (broadcastInDim S128x1 ![0] bcast_S128_S128x1_0 (ratio1 x5 x6)) (broadcastInDim S128x1 ![0] bcast_S128_S128x1_0 (ratio0 x5 x6))
    (broadcastInDim S128x1 ![0] bcast_S128_S128x1_0 (ratio1 x5 x6)) (broadcastInDim S128x1 ![0] bcast_S128_S128x1_0 (ratio0 x5 x6))

/-- The scale factors with a unit axis for the boxes (`%15`). -/
def scale (x5 x6 : (⟨S128x2, .f32⟩ : BufTy).Contents (Elt F)) : (⟨S128x1x4, .f32⟩ : BufTy).Contents (Elt F) :=
  broadcastInDim S128x1x4 ![0, 2] bcast_S128x4_S128x1x4_0_2 (scaleRow x5 x6)

/-- Each row's largest score, from below by `-∞` (`%18`). -/
def rowMax (x0 : (⟨S128x2048x117, .f32⟩ : BufTy).Contents (Elt F)) : (⟨S128x2048, .f32⟩ : BufTy).Contents (Elt F) :=
  maximumf (broadcastInDim S128x2048 ![] bcast_S_S128x2048 (constant S_ .f32 0xFF800000#32))
    (Host.reduce FloatOps.maximumf x0 (constant S_ .f32 0xFF800000#32) reducesTo_S128x2048x117_S128x2048_d2 h_S_)

/-- The exponential of each score less its row's largest (`%22`). -/
def expShift (x0 : (⟨S128x2048x117, .f32⟩ : BufTy).Contents (Elt F)) : (⟨S128x2048x117, .f32⟩ : BufTy).Contents (Elt F) :=
  Host.exp (subf x0 (broadcastInDim S128x2048x117 ![0, 1, 2] bcast_S128x2048x1_S128x2048x117_0_1_2
    (broadcastInDim S128x2048x1 ![0, 1] bcast_S128x2048_S128x2048x1_0_1 (rowMax x0))))

/-- Each row's softmax (`%26`). -/
def probs (x0 : (⟨S128x2048x117, .f32⟩ : BufTy).Contents (Elt F)) : (⟨S128x2048x117, .f32⟩ : BufTy).Contents (Elt F) :=
  Host.divf (expShift x0) (broadcastInDim S128x2048x117 ![0, 1, 2] bcast_S128x2048x1_S128x2048x117_0_1_2
    (broadcastInDim S128x2048x1 ![0, 1] bcast_S128x2048_S128x2048x1_0_1
      (Host.reduceAdd (expShift x0) (constant S_ .f32 0x00000000#32) reducesTo_S128x2048x117_S128x2048_d2 h_S_)))

/-- Whether a row's largest probability is at least one half (`%29`): the keep bits. -/
def keepBits (x0 : (⟨S128x2048x117, .f32⟩ : BufTy).Contents (Elt F)) : (⟨S128x2048, .i1⟩ : BufTy).Contents (Elt F) :=
  cmpf .oge (Host.reduce FloatOps.maximumf (probs x0) (constant S_ .f32 0xFF800000#32) reducesTo_S128x2048x117_S128x2048_d2 h_S_)
    (broadcastInDim S128x2048 ![] bcast_S_S128x2048 (constant S_ .f32 0x3F000000#32))

/-- The keep bits as floats, with a unit last axis (`%31`). -/
def keepCol (x0 : (⟨S128x2048x117, .f32⟩ : BufTy).Contents (Elt F)) : (⟨S128x2048x1, .f32⟩ : BufTy).Contents (Elt F) :=
  uitofp .f32 (broadcastInDim S128x2048x1 ![0, 1] bcast_S128x2048_S128x2048x1_0_1 (keepBits x0))

/-- One box array scaled per image and zeroed where the row is not kept (`%35` of `x1`, `%39` of `x2`). -/
def boxesHalf (xb : (⟨S128x2048x4, .f32⟩ : BufTy).Contents (Elt F)) (x0 : (⟨S128x2048x117, .f32⟩ : BufTy).Contents (Elt F))
    (x5 x6 : (⟨S128x2, .f32⟩ : BufTy).Contents (Elt F)) : (⟨S128x2048x4, .f32⟩ : BufTy).Contents (Elt F) :=
  mulf (mulf xb (broadcastInDim S128x2048x4 ![0, 1, 2] bcast_S128x1x4_S128x2048x4_0_1_2 (scale x5 x6)))
    (broadcastInDim S128x2048x4 ![0, 1, 2] bcast_S128x2048x1_S128x2048x4_0_1_2 (keepCol x0))

/-- The boxes (`%40`). -/
def boxesTerm (x0 : (⟨S128x2048x117, .f32⟩ : BufTy).Contents (Elt F)) (x1 x2 : (⟨S128x2048x4, .f32⟩ : BufTy).Contents (Elt F))
    (x5 x6 : (⟨S128x2, .f32⟩ : BufTy).Contents (Elt F)) : (⟨S128x4096x4, .f32⟩ : BufTy).Contents (Elt F) :=
  concatBoxes (boxesHalf x1 x0 x5 x6) (boxesHalf x2 x0 x5 x6)

/-- The scores, zeroed where the row is not kept (`%42`). -/
def scoresTerm (x0 : (⟨S128x2048x117, .f32⟩ : BufTy).Contents (Elt F)) : (⟨S128x2048x117, .f32⟩ : BufTy).Contents (Elt F) :=
  mulf x0 (broadcastInDim S128x2048x117 ![0, 1, 2] bcast_S128x2048x1_S128x2048x117_0_1_2 (keepCol x0))

/-- A label array less one (`%44` of `x3`, `%46` of `x4`). -/
def labelShift (x : (⟨S128x2048, .i32⟩ : BufTy).Contents (Elt F)) : (⟨S128x2048, .i32⟩ : BufTy).Contents (Elt F) :=
  subi x (broadcastInDim S128x2048 ![] bcast_S_S128x2048 (constantI S_ 32 1#32))

/-- The labels: the shifted labels where the row is kept, `-1` elsewhere (`%49`). -/
def labelsTerm (x0 : (⟨S128x2048x117, .f32⟩ : BufTy).Contents (Elt F)) (x3 x4 : (⟨S128x2048, .i32⟩ : BufTy).Contents (Elt F)) :
    (⟨S128x4096, .i32⟩ : BufTy).Contents (Elt F) :=
  select (concatKeep (keepBits x0) (keepBits x0)) (concatLabels (labelShift x3) (labelShift x4))
    (broadcastInDim S128x4096 ![] bcast_S_S128x4096 (id (constantI S_ 32 4294967295#32)))

/-- The keep bits (`%29`). -/
def keepTerm (x0 : (⟨S128x2048x117, .f32⟩ : BufTy).Contents (Elt F)) : (⟨S128x2048, .i1⟩ : BufTy).Contents (Elt F) :=
  keepBits x0

/-! ## The program as a list of operations -/

/-- @main's 60 operations, in order (the called function's three stand in its call's place). A concatenation's
    function is written by its plain-argument name above, which unfolds to the printed one. -/
abbrev ops : List (HloOp τ sig (Elt F)) :=
  [ unary main_arg5 main_v0 ((extractStridedSlice S128x1 ![0, 1] · slices_S128x2_S128x1_0_1) : (⟨S128x2, .f32⟩ : BufTy).Contents (Elt F) → (⟨S128x1, .f32⟩ : BufTy).Contents (Elt F)),
    reshape main_v0 main_v1 rfl shapeCasts_S128x1_S128,
    unary main_arg6 main_v2 ((extractStridedSlice S128x1 ![0, 1] · slices_S128x2_S128x1_0_1) : (⟨S128x2, .f32⟩ : BufTy).Contents (Elt F) → (⟨S128x1, .f32⟩ : BufTy).Contents (Elt F)),
    reshape main_v2 main_v3 rfl shapeCasts_S128x1_S128,
    binary main_v1 main_v3 main_v4 (Host.divf : (⟨S128, .f32⟩ : BufTy).Contents (Elt F) → (⟨S128, .f32⟩ : BufTy).Contents (Elt F) → (⟨S128, .f32⟩ : BufTy).Contents (Elt F)),
    unary main_arg5 main_v5 ((extractStridedSlice S128x1 ![0, 0] · slices_S128x2_S128x1_0_0) : (⟨S128x2, .f32⟩ : BufTy).Contents (Elt F) → (⟨S128x1, .f32⟩ : BufTy).Contents (Elt F)),
    reshape main_v5 main_v6 rfl shapeCasts_S128x1_S128,
    unary main_arg6 main_v7 ((extractStridedSlice S128x1 ![0, 0] · slices_S128x2_S128x1_0_0) : (⟨S128x2, .f32⟩ : BufTy).Contents (Elt F) → (⟨S128x1, .f32⟩ : BufTy).Contents (Elt F)),
    reshape main_v7 main_v8 rfl shapeCasts_S128x1_S128,
    binary main_v6 main_v8 main_v9 (Host.divf : (⟨S128, .f32⟩ : BufTy).Contents (Elt F) → (⟨S128, .f32⟩ : BufTy).Contents (Elt F) → (⟨S128, .f32⟩ : BufTy).Contents (Elt F)),
    unary main_v4 main_v10 (broadcastInDim S128x1 ![0] bcast_S128_S128x1_0 : (⟨S128, .f32⟩ : BufTy).Contents (Elt F) → (⟨S128x1, .f32⟩ : BufTy).Contents (Elt F)),
    unary main_v9 main_v11 (broadcastInDim S128x1 ![0] bcast_S128_S128x1_0 : (⟨S128, .f32⟩ : BufTy).Contents (Elt F) → (⟨S128x1, .f32⟩ : BufTy).Contents (Elt F)),
    unary main_v4 main_v12 (broadcastInDim S128x1 ![0] bcast_S128_S128x1_0 : (⟨S128, .f32⟩ : BufTy).Contents (Elt F) → (⟨S128x1, .f32⟩ : BufTy).Contents (Elt F)),
    unary main_v9 main_v13 (broadcastInDim S128x1 ![0] bcast_S128_S128x1_0 : (⟨S128, .f32⟩ : BufTy).Contents (Elt F) → (⟨S128x1, .f32⟩ : BufTy).Contents (Elt F)),
    nary ![main_v10, main_v11, main_v12, main_v13] main_v14 (fun u => concat4 (u 0) (u 1) (u 2) (u 3)),
    unary main_v14 main_v15 (broadcastInDim S128x1x4 ![0, 2] bcast_S128x4_S128x1x4_0_2 : (⟨S128x4, .f32⟩ : BufTy).Contents (Elt F) → (⟨S128x1x4, .f32⟩ : BufTy).Contents (Elt F)),
    nullary main_cst (constant S_ .f32 0xFF800000#32),
    binary main_arg0 main_cst main_v16 ((fun x v => Host.reduce FloatOps.maximumf x v reducesTo_S128x2048x117_S128x2048_d2 h_S_) : (⟨S128x2048x117, .f32⟩ : BufTy).Contents (Elt F) → (⟨S_, .f32⟩ : BufTy).Contents (Elt F) → (⟨S128x2048, .f32⟩ : BufTy).Contents (Elt F)),
    nullary main_cst_0 (constant S_ .f32 0xFF800000#32),
    unary main_cst_0 main_v17 (broadcastInDim S128x2048 ![] bcast_S_S128x2048 : (⟨S_, .f32⟩ : BufTy).Contents (Elt F) → (⟨S128x2048, .f32⟩ : BufTy).Contents (Elt F)),
    binary main_v17 main_v16 main_v18 (maximumf : (⟨S128x2048, .f32⟩ : BufTy).Contents (Elt F) → (⟨S128x2048, .f32⟩ : BufTy).Contents (Elt F) → (⟨S128x2048, .f32⟩ : BufTy).Contents (Elt F)),
    unary main_v18 main_v19 (broadcastInDim S128x2048x1 ![0, 1] bcast_S128x2048_S128x2048x1_0_1 : (⟨S128x2048, .f32⟩ : BufTy).Contents (Elt F) → (⟨S128x2048x1, .f32⟩ : BufTy).Contents (Elt F)),
    unary main_v19 main_v20 (broadcastInDim S128x2048x117 ![0, 1, 2] bcast_S128x2048x1_S128x2048x117_0_1_2 : (⟨S128x2048x1, .f32⟩ : BufTy).Contents (Elt F) → (⟨S128x2048x117, .f32⟩ : BufTy).Contents (Elt F)),
    binary main_arg0 main_v20 main_v21 (subf : (⟨S128x2048x117, .f32⟩ : BufTy).Contents (Elt F) → (⟨S128x2048x117, .f32⟩ : BufTy).Contents (Elt F) → (⟨S128x2048x117, .f32⟩ : BufTy).Contents (Elt F)),
    unary main_v21 main_v22 (Host.exp : (⟨S128x2048x117, .f32⟩ : BufTy).Contents (Elt F) → (⟨S128x2048x117, .f32⟩ : BufTy).Contents (Elt F)),
    nullary main_cst_1 (constant S_ .f32 0x00000000#32),
    binary main_v22 main_cst_1 main_v23 ((fun x v => Host.reduceAdd x v reducesTo_S128x2048x117_S128x2048_d2 h_S_) : (⟨S128x2048x117, .f32⟩ : BufTy).Contents (Elt F) → (⟨S_, .f32⟩ : BufTy).Contents (Elt F) → (⟨S128x2048, .f32⟩ : BufTy).Contents (Elt F)),
    unary main_v23 main_v24 (broadcastInDim S128x2048x1 ![0, 1] bcast_S128x2048_S128x2048x1_0_1 : (⟨S128x2048, .f32⟩ : BufTy).Contents (Elt F) → (⟨S128x2048x1, .f32⟩ : BufTy).Contents (Elt F)),
    unary main_v24 main_v25 (broadcastInDim S128x2048x117 ![0, 1, 2] bcast_S128x2048x1_S128x2048x117_0_1_2 : (⟨S128x2048x1, .f32⟩ : BufTy).Contents (Elt F) → (⟨S128x2048x117, .f32⟩ : BufTy).Contents (Elt F)),
    binary main_v22 main_v25 main_v26 (Host.divf : (⟨S128x2048x117, .f32⟩ : BufTy).Contents (Elt F) → (⟨S128x2048x117, .f32⟩ : BufTy).Contents (Elt F) → (⟨S128x2048x117, .f32⟩ : BufTy).Contents (Elt F)),
    nullary main_cst_2 (constant S_ .f32 0xFF800000#32),
    binary main_v26 main_cst_2 main_v27 ((fun x v => Host.reduce FloatOps.maximumf x v reducesTo_S128x2048x117_S128x2048_d2 h_S_) : (⟨S128x2048x117, .f32⟩ : BufTy).Contents (Elt F) → (⟨S_, .f32⟩ : BufTy).Contents (Elt F) → (⟨S128x2048, .f32⟩ : BufTy).Contents (Elt F)),
    nullary main_cst_3 (constant S_ .f32 0x3F000000#32),
    unary main_cst_3 main_v28 (broadcastInDim S128x2048 ![] bcast_S_S128x2048 : (⟨S_, .f32⟩ : BufTy).Contents (Elt F) → (⟨S128x2048, .f32⟩ : BufTy).Contents (Elt F)),
    binary main_v27 main_v28 main_v29 (cmpf .oge : (⟨S128x2048, .f32⟩ : BufTy).Contents (Elt F) → (⟨S128x2048, .f32⟩ : BufTy).Contents (Elt F) → (⟨S128x2048, .i1⟩ : BufTy).Contents (Elt F)),
    unary main_v29 main_v30 (broadcastInDim S128x2048x1 ![0, 1] bcast_S128x2048_S128x2048x1_0_1 : (⟨S128x2048, .i1⟩ : BufTy).Contents (Elt F) → (⟨S128x2048x1, .i1⟩ : BufTy).Contents (Elt F)),
    unary main_v30 main_v31 (uitofp .f32 : (⟨S128x2048x1, .i1⟩ : BufTy).Contents (Elt F) → (⟨S128x2048x1, .f32⟩ : BufTy).Contents (Elt F)),
    unary main_v15 main_v32 (broadcastInDim S128x2048x4 ![0, 1, 2] bcast_S128x1x4_S128x2048x4_0_1_2 : (⟨S128x1x4, .f32⟩ : BufTy).Contents (Elt F) → (⟨S128x2048x4, .f32⟩ : BufTy).Contents (Elt F)),
    binary main_arg1 main_v32 main_v33 (mulf : (⟨S128x2048x4, .f32⟩ : BufTy).Contents (Elt F) → (⟨S128x2048x4, .f32⟩ : BufTy).Contents (Elt F) → (⟨S128x2048x4, .f32⟩ : BufTy).Contents (Elt F)),
    unary main_v31 main_v34 (broadcastInDim S128x2048x4 ![0, 1, 2] bcast_S128x2048x1_S128x2048x4_0_1_2 : (⟨S128x2048x1, .f32⟩ : BufTy).Contents (Elt F) → (⟨S128x2048x4, .f32⟩ : BufTy).Contents (Elt F)),
    binary main_v33 main_v34 main_v35 (mulf : (⟨S128x2048x4, .f32⟩ : BufTy).Contents (Elt F) → (⟨S128x2048x4, .f32⟩ : BufTy).Contents (Elt F) → (⟨S128x2048x4, .f32⟩ : BufTy).Contents (Elt F)),
    unary main_v15 main_v36 (broadcastInDim S128x2048x4 ![0, 1, 2] bcast_S128x1x4_S128x2048x4_0_1_2 : (⟨S128x1x4, .f32⟩ : BufTy).Contents (Elt F) → (⟨S128x2048x4, .f32⟩ : BufTy).Contents (Elt F)),
    binary main_arg2 main_v36 main_v37 (mulf : (⟨S128x2048x4, .f32⟩ : BufTy).Contents (Elt F) → (⟨S128x2048x4, .f32⟩ : BufTy).Contents (Elt F) → (⟨S128x2048x4, .f32⟩ : BufTy).Contents (Elt F)),
    unary main_v31 main_v38 (broadcastInDim S128x2048x4 ![0, 1, 2] bcast_S128x2048x1_S128x2048x4_0_1_2 : (⟨S128x2048x1, .f32⟩ : BufTy).Contents (Elt F) → (⟨S128x2048x4, .f32⟩ : BufTy).Contents (Elt F)),
    binary main_v37 main_v38 main_v39 (mulf : (⟨S128x2048x4, .f32⟩ : BufTy).Contents (Elt F) → (⟨S128x2048x4, .f32⟩ : BufTy).Contents (Elt F) → (⟨S128x2048x4, .f32⟩ : BufTy).Contents (Elt F)),
    binary main_v35 main_v39 main_v40 (concatBoxes : (⟨S128x2048x4, .f32⟩ : BufTy).Contents (Elt F) → (⟨S128x2048x4, .f32⟩ : BufTy).Contents (Elt F) → (⟨S128x4096x4, .f32⟩ : BufTy).Contents (Elt F)),
    unary main_v31 main_v41 (broadcastInDim S128x2048x117 ![0, 1, 2] bcast_S128x2048x1_S128x2048x117_0_1_2 : (⟨S128x2048x1, .f32⟩ : BufTy).Contents (Elt F) → (⟨S128x2048x117, .f32⟩ : BufTy).Contents (Elt F)),
    binary main_arg0 main_v41 main_v42 (mulf : (⟨S128x2048x117, .f32⟩ : BufTy).Contents (Elt F) → (⟨S128x2048x117, .f32⟩ : BufTy).Contents (Elt F) → (⟨S128x2048x117, .f32⟩ : BufTy).Contents (Elt F)),
    nullary main_c (constantI S_ 32 1#32),
    unary main_c main_v43 (broadcastInDim S128x2048 ![] bcast_S_S128x2048 : (⟨S_, .i32⟩ : BufTy).Contents (Elt F) → (⟨S128x2048, .i32⟩ : BufTy).Contents (Elt F)),
    binary main_arg3 main_v43 main_v44 (subi : (⟨S128x2048, .i32⟩ : BufTy).Contents (Elt F) → (⟨S128x2048, .i32⟩ : BufTy).Contents (Elt F) → (⟨S128x2048, .i32⟩ : BufTy).Contents (Elt F)),
    nullary main_c_4 (constantI S_ 32 1#32),
    unary main_c_4 main_v45 (broadcastInDim S128x2048 ![] bcast_S_S128x2048 : (⟨S_, .i32⟩ : BufTy).Contents (Elt F) → (⟨S128x2048, .i32⟩ : BufTy).Contents (Elt F)),
    binary main_arg4 main_v45 main_v46 (subi : (⟨S128x2048, .i32⟩ : BufTy).Contents (Elt F) → (⟨S128x2048, .i32⟩ : BufTy).Contents (Elt F) → (⟨S128x2048, .i32⟩ : BufTy).Contents (Elt F)),
    binary main_v44 main_v46 main_v47 (concatLabels : (⟨S128x2048, .i32⟩ : BufTy).Contents (Elt F) → (⟨S128x2048, .i32⟩ : BufTy).Contents (Elt F) → (⟨S128x4096, .i32⟩ : BufTy).Contents (Elt F)),
    binary main_v29 main_v29 main_v48 (concatKeep : (⟨S128x2048, .i1⟩ : BufTy).Contents (Elt F) → (⟨S128x2048, .i1⟩ : BufTy).Contents (Elt F) → (⟨S128x4096, .i1⟩ : BufTy).Contents (Elt F)),
    nullary main_c_5 (constantI S_ 32 4294967295#32),
    TRef.unary (TRef.of (T := ⟨S_, .i32⟩) main_c_5) (TRef.of (T := ⟨S_, .i32⟩) main_call0_v0) id,
    TRef.unary (TRef.of (T := ⟨S_, .i32⟩) main_call0_v0) (TRef.of (T := ⟨S128x4096, .i32⟩) main_call0_v1) (broadcastInDim S128x4096 ![] bcast_S_S128x4096),
    TRef.ternary (TRef.of (T := ⟨S128x4096, .i1⟩) main_v48) (TRef.of (T := ⟨S128x4096, .i32⟩) main_v47) (TRef.of (T := ⟨S128x4096, .i32⟩) main_call0_v1) (TRef.of (T := ⟨S128x4096, .i32⟩) main_v49) select ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    reshape_bufs_sub .., unary_bufs_sub .., reshape_bufs_sub .., binary_bufs_sub .., unary_bufs_sub .., unary_bufs_sub ..,
    unary_bufs_sub .., unary_bufs_sub .., nary_bufs_sub .., unary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    nullary_bufs_sub .., binary_bufs_sub .., nullary_bufs_sub .., unary_bufs_sub .., binary_bufs_sub .., unary_bufs_sub ..,
    unary_bufs_sub .., unary_bufs_sub .., binary_bufs_sub .., unary_bufs_sub .., binary_bufs_sub .., unary_bufs_sub ..,
    binary_bufs_sub .., unary_bufs_sub .., binary_bufs_sub .., binary_bufs_sub .., unary_bufs_sub .., binary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., unary_bufs_sub .., ternary_bufs_sub ..⟩

/-! ## Reading the fold

Each concatenation is named by a function of plain arguments, equal to the printed one by unfolding, so its operands
are read like any other operation's. A reshape's and the four-operand concatenation's results are stated at these
references, for any contents. -/

theorem reshape_v1 (V : Valuation τ sig (Elt F)) (hx hy) :
    (reshape main_v0 main_v1 rfl shapeCasts_S128x1_S128 hx hy : HloOp τ sig (Elt F)).result V (no_index (Proc.devRef .tc main_v1))
      = shapeCast S128 (V (Proc.devRef .tc main_v0)) shapeCasts_S128x1_S128 := by
  rw [reshape_result]; rfl

theorem reshape_v3 (V : Valuation τ sig (Elt F)) (hx hy) :
    (reshape main_v2 main_v3 rfl shapeCasts_S128x1_S128 hx hy : HloOp τ sig (Elt F)).result V (no_index (Proc.devRef .tc main_v3))
      = shapeCast S128 (V (Proc.devRef .tc main_v2)) shapeCasts_S128x1_S128 := by
  rw [reshape_result]; rfl

theorem reshape_v6 (V : Valuation τ sig (Elt F)) (hx hy) :
    (reshape main_v5 main_v6 rfl shapeCasts_S128x1_S128 hx hy : HloOp τ sig (Elt F)).result V (no_index (Proc.devRef .tc main_v6))
      = shapeCast S128 (V (Proc.devRef .tc main_v5)) shapeCasts_S128x1_S128 := by
  rw [reshape_result]; rfl

theorem reshape_v8 (V : Valuation τ sig (Elt F)) (hx hy) :
    (reshape main_v7 main_v8 rfl shapeCasts_S128x1_S128 hx hy : HloOp τ sig (Elt F)).result V (no_index (Proc.devRef .tc main_v8))
      = shapeCast S128 (V (Proc.devRef .tc main_v7)) shapeCasts_S128x1_S128 := by
  rw [reshape_result]; rfl

theorem nary_v14 (V : Valuation τ sig (Elt F)) (hxs hy) :
    (nary ![main_v10, main_v11, main_v12, main_v13] main_v14 (fun u => concat4 (u 0) (u 1) (u 2) (u 3))
        hxs hy : HloOp τ sig (Elt F)).result V (no_index (Proc.devRef .tc main_v14))
      = concat4 (V (Proc.devRef .tc main_v10)) (V (Proc.devRef .tc main_v11)) (V (Proc.devRef .tc main_v12)) (V (Proc.devRef .tc main_v13)) := by
  rw [nary_result]; rfl

/-- The contents of a reference after the operations: the operation that writes it gives its function's value,
    every other leaves it. -/
macro "read_after" : tactic =>
  `(tactic| simp (disch := decide) only [after_cons, after_nil,
      reshape_v1, reshape_v3, reshape_v6, reshape_v8, nary_v14, cast_eq,
      nullary_result', unary_result', binary_result', ternary_result',
      nullary_result_ne', unary_result_ne', binary_result_ne', ternary_result_ne', reshape_result_ne', nary_result_ne'])

/-! ## The four results and the seven arguments, for any contents -/

set_option maxRecDepth 8192 in
set_option maxHeartbeats 2000000 in
theorem keep_eq (V : Valuation τ sig (Elt F)) :
    after (ops (F := F)) V (Proc.devRef .tc main_v29) = keepTerm (V (Proc.devRef .tc main_arg0)) := by
  read_after
  unfold keepTerm keepBits probs expShift rowMax
  with_reducible rfl

set_option maxRecDepth 8192 in
set_option maxHeartbeats 2000000 in
theorem scores_eq (V : Valuation τ sig (Elt F)) :
    after (ops (F := F)) V (Proc.devRef .tc main_v42) = scoresTerm (V (Proc.devRef .tc main_arg0)) := by
  read_after
  unfold scoresTerm keepCol keepBits probs expShift rowMax
  with_reducible rfl

set_option maxRecDepth 8192 in
set_option maxHeartbeats 2000000 in
theorem labels_eq (V : Valuation τ sig (Elt F)) :
    after (ops (F := F)) V (Proc.devRef .tc main_v49)
      = labelsTerm (V (Proc.devRef .tc main_arg0)) (V (Proc.devRef .tc main_arg3)) (V (Proc.devRef .tc main_arg4)) := by
  read_after
  unfold labelsTerm labelShift keepBits probs expShift rowMax
  with_reducible rfl

set_option maxRecDepth 8192 in
set_option maxHeartbeats 2000000 in
theorem boxes_eq (V : Valuation τ sig (Elt F)) :
    after (ops (F := F)) V (Proc.devRef .tc main_v40)
      = boxesTerm (V (Proc.devRef .tc main_arg0)) (V (Proc.devRef .tc main_arg1)) (V (Proc.devRef .tc main_arg2))
          (V (Proc.devRef .tc main_arg5)) (V (Proc.devRef .tc main_arg6)) := by
  read_after
  unfold boxesTerm boxesHalf scale scaleRow ratio1 ratio0 keepCol keepBits probs expShift rowMax
  with_reducible rfl

set_option maxRecDepth 8192 in
set_option maxHeartbeats 2000000 in
theorem arg0_eq (V : Valuation τ sig (Elt F)) : after (ops (F := F)) V (Proc.devRef .tc main_arg0) = V (Proc.devRef .tc main_arg0) := by
  read_after
set_option maxRecDepth 8192 in
set_option maxHeartbeats 2000000 in
theorem arg1_eq (V : Valuation τ sig (Elt F)) : after (ops (F := F)) V (Proc.devRef .tc main_arg1) = V (Proc.devRef .tc main_arg1) := by
  read_after
set_option maxRecDepth 8192 in
set_option maxHeartbeats 2000000 in
theorem arg2_eq (V : Valuation τ sig (Elt F)) : after (ops (F := F)) V (Proc.devRef .tc main_arg2) = V (Proc.devRef .tc main_arg2) := by
  read_after
set_option maxRecDepth 8192 in
set_option maxHeartbeats 2000000 in
theorem arg3_eq (V : Valuation τ sig (Elt F)) : after (ops (F := F)) V (Proc.devRef .tc main_arg3) = V (Proc.devRef .tc main_arg3) := by
  read_after
set_option maxRecDepth 8192 in
set_option maxHeartbeats 2000000 in
theorem arg4_eq (V : Valuation τ sig (Elt F)) : after (ops (F := F)) V (Proc.devRef .tc main_arg4) = V (Proc.devRef .tc main_arg4) := by
  read_after
set_option maxRecDepth 8192 in
set_option maxHeartbeats 2000000 in
theorem arg5_eq (V : Valuation τ sig (Elt F)) : after (ops (F := F)) V (Proc.devRef .tc main_arg5) = V (Proc.devRef .tc main_arg5) := by
  read_after
set_option maxRecDepth 8192 in
set_option maxHeartbeats 2000000 in
theorem arg6_eq (V : Valuation τ sig (Elt F)) : after (ops (F := F)) V (Proc.devRef .tc main_arg6) = V (Proc.devRef .tc main_arg6) := by
  read_after

/-! ## The run -/

/-- On every device, for any float values, from any memory with zero counters: every weakly fair execution of
    @main terminates with each result at its term of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = boxesTerm (m ((c.tc : Thread nD τ).loc main_arg0)) (m ((c.tc : Thread nD τ).loc main_arg1))
              (m ((c.tc : Thread nD τ).loc main_arg2)) (m ((c.tc : Thread nD τ).loc main_arg5)) (m ((c.tc : Thread nD τ).loc main_arg6))
      ∧ r.2.mem ((c.tc : Thread nD τ).loc main_v42) = scoresTerm (m ((c.tc : Thread nD τ).loc main_arg0))
      ∧ r.2.mem ((c.tc : Thread nD τ).loc main_v49)
          = labelsTerm (m ((c.tc : Thread nD τ).loc main_arg0)) (m ((c.tc : Thread nD τ).loc main_arg3)) (m ((c.tc : Thread nD τ).loc main_arg4))
      ∧ r.2.mem ((c.tc : Thread nD τ).loc main_v29) = keepTerm (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v40).trans (boxes_eq _), (h c main_v42).trans (scores_eq _),
      (h c main_v49).trans (labels_eq _), (h c main_v29).trans (keep_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _)⟩)
    (run_seq scopedRefs_eq scopedSems_eq defs main (fun _ => ops) main_eq (fun _ => ops_sub) m ρ)

end Cert.Proof.RefRun

end
-- ==== Proof.RefFrame.lean ====
/-
  The reference is a host program with no kernel launch: its run says that every weakly fair execution ends,
  without a fault, with each result at the composed term of the arguments and the arguments unchanged.
  Dropping the results leaves the frame.
-/
import proofs.«126910_j32856499814727_2_alg».proof.Defs
import proofs.«126910_j32856499814727_2_alg».proof.Proof.Gen.ReferenceIdeal
import proofs.«126910_j32856499814727_2_alg».proof.Proof.Gen.Pre_finite_inputs
import proofs.«126910_j32856499814727_2_alg».proof.Proof.RefRun

noncomputable section

open Idealize.ShloMosaic Idealize.ShloMosaic.TcCoe Idealize.SL.Sem

namespace Cert.Proof.RefFrame

/-- The reference runs to the end, faults nowhere and leaves its seven argument arrays as they were. -/
theorem frame_ri : Cert.frame_ReferenceIdeal := fun m ρ _ =>
  (θ_run Cert.ReferenceIdeal.defs _ _).mono (fun _ h c => (h c).2.2.2.2) (Cert.Proof.RefRun.run (F := Ideal) m ρ)

end Cert.Proof.RefFrame

end
-- ==== Proof.RefTerms.lean ====
/-
  The reference's results, written two ways, are one.

  The run states each result as the composition of the printed operations with every repeated value named once
  (module `RefRun`); the stage-by-stage reading names every operation (module `RefStages`).  Unfolding both leaves the same term.
-/
import proofs.«126910_j32856499814727_2_alg».proof.Proof.RefRun
import proofs.«126910_j32856499814727_2_alg».proof.Proof.RefStages

noncomputable section

namespace Cert.Proof.RefTerms

open Idealize.ShloMosaic
open Cert.ReferenceIdeal Cert.ReferenceIdeal.Gen
open Cert.Proof

theorem keepBits_eq (x0 : RefSide.Scores) : RefRun.keepBits (F := Ideal) x0 = RefSide.keepBits x0 := by
  unfold RefRun.keepBits RefRun.probs RefRun.expShift RefRun.rowMax
  unfold RefSide.keepBits RefSide.probMaxes RefSide.probs RefSide.sumFull RefSide.sumCol RefSide.rowSums RefSide.expd
    RefSide.shifted RefSide.maxFull RefSide.maxCol RefSide.rowMaxes' RefSide.negInfs RefSide.rowMaxes RefSide.negInf
    RefSide.halves RefSide.half RefSide.zero
  rfl

theorem keepCol_eq (x0 : RefSide.Scores) : RefRun.keepCol (F := Ideal) x0 = RefSide.keepF x0 := by
  unfold RefRun.keepCol RefSide.keepF RefSide.keepCol
  rw [keepBits_eq]

theorem scores_eq (x0 : RefSide.Scores) : RefRun.scoresTerm (F := Ideal) x0 = RefSide.res_verb x0 := by
  unfold RefRun.scoresTerm RefSide.res_verb RefSide.keepF117
  rw [keepCol_eq]

theorem keep_eq (x0 : RefSide.Scores) : RefRun.keepTerm (F := Ideal) x0 = RefSide.res_keep x0 := by
  unfold RefRun.keepTerm RefSide.res_keep
  exact keepBits_eq x0

theorem scale_eq (x5 x6 : RefSide.Sizes) : RefRun.scale (F := Ideal) x5 x6 = RefSide.scale14 x5 x6 := by
  unfold RefRun.scale RefRun.scaleRow RefRun.concat4 RefRun.ratio1 RefRun.ratio0
  unfold RefSide.scale14 RefSide.scale4 RefSide.scaleWCol RefSide.scaleHCol RefSide.scaleW RefSide.scaleH
    RefSide.widths RefSide.heights RefSide.widthCol RefSide.heightCol
  rfl

theorem boxesHalf_eq (x0 : RefSide.Scores) (x : RefSide.Boxes) (x5 x6 : RefSide.Sizes) :
    RefRun.boxesHalf (F := Ideal) x x0 x5 x6 = RefSide.keptBoxes x0 x x5 x6 := by
  unfold RefRun.boxesHalf RefSide.keptBoxes RefSide.scaledBoxes RefSide.keepF4 RefSide.scaleFull
  rw [keepCol_eq, scale_eq]

theorem boxes_eq (x0 : RefSide.Scores) (x1 x2 : RefSide.Boxes) (x5 x6 : RefSide.Sizes) :
    RefRun.boxesTerm (F := Ideal) x0 x1 x2 x5 x6 = RefSide.res_boxes x0 x1 x2 x5 x6 := by
  unfold RefRun.boxesTerm RefRun.concatBoxes RefSide.res_boxes
  rw [boxesHalf_eq, boxesHalf_eq]

theorem labels_eq (x0 : RefSide.Scores) (x3 x4 : RefSide.Cats) :
    RefRun.labelsTerm (F := Ideal) x0 x3 x4 = RefSide.res_labels x0 x3 x4 := by
  unfold RefRun.labelsTerm RefRun.concatKeep RefRun.concatLabels RefRun.labelShift
  unfold RefSide.res_labels RefSide.keep2 RefSide.labelsRaw RefSide.catsLess1 RefSide.ones RefSide.one RefSide.minusOnes RefSide.minusOne
  rw [keepBits_eq]

end Cert.Proof.RefTerms

end
-- ==== Proof.lean ====
/-
  Relation post-processing: per candidate, a softmax over 117 relation classes, a threshold of one half on the
  largest probability, and, where the candidate is kept, the raw scores, the two boxes rescaled to the original
  image, and the two category labels less one; elsewhere zeros and the label −1.

  The kernel program flattens the 128 · 2048 candidates to 262144 rows, runs one region over 64 blocks of 4096 rows
  that computes the keep flag of each row and masks the scores and the rescaled boxes with it, and un-flattens,
  joins and masks on the host; the reference does everything on the host over [128, 2048, ·] arrays.  At the ideal
  values both compute, for the row r of a candidate,
      M = max_k r_k,  e_k = exp (r_k − M),  p_k = e_k / Σ_j e_j,  keep = [max_k p_k ≥ 1/2],
  with the same grouping of every product, so the comparison needs no law of the extended reals beyond
  max (−∞, M) = M and 0 + s = s, and never uses that the inputs are finite.  The keep flag travels through the
  kernel program as a 32-bit word (0 or 1) and is tested against zero on the host: that is the bit again.

  The five claims:
  · the kernel program, as printed and as idealized, runs to the end, faults nowhere and leaves its arguments as
    they were (the run around the region, the same proof at both float instances);
  · the reference does (its run with the results dropped);
  · the idealization rewrote nothing, so there is nothing to preserve;
  · from memories agreeing on the arguments both idealized programs end with equal results: each result of the
    kernel program is the reference's term of the kernel program's own arguments, and the reference's run ends at the
    same terms of its own.
-/
import proofs.«126910_j32856499814727_2_alg».proof.Defs
import proofs.«126910_j32856499814727_2_alg».proof.Proof.Gen.Kernel
import proofs.«126910_j32856499814727_2_alg».proof.Proof.Gen.KernelIdeal
import proofs.«126910_j32856499814727_2_alg».proof.Proof.Gen.ReferenceIdeal
import proofs.«126910_j32856499814727_2_alg».proof.Proof.Gen.Pre_finite_inputs
import proofs.«126910_j32856499814727_2_alg».proof.Proof.KernelRegion
import proofs.«126910_j32856499814727_2_alg».proof.Proof.KernelIdealRegion
import proofs.«126910_j32856499814727_2_alg».proof.Proof.KernelValue
import proofs.«126910_j32856499814727_2_alg».proof.Proof.RefFrame
import proofs.«126910_j32856499814727_2_alg».proof.Proof.RefRun
import proofs.«126910_j32856499814727_2_alg».proof.Proof.RefTerms
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its seven arguments unchanged. -/
theorem frame_kernel : Cert.frame_Kernel := fun m ρ _ => Cert.Kernel.Region.frame (F := Bits) m ρ

/-- So does its idealization. -/
theorem frame_kernelIdeal : Cert.frame_KernelIdeal := fun m ρ _ => Cert.KernelIdeal.Region.frame (F := Ideal) m ρ

/-- The idealization rewrote no operation. -/
theorem preserves : Cert.preserves_Kernel_KernelIdeal := trivial

/-- From memories agreeing on the arguments the two idealized programs end with equal results: the boxes, the
    masked scores, the labels and the kept bits are, on both sides, the reference's terms of the arguments. -/
theorem algebraic : Cert.algebraic_KernelIdeal_ReferenceIdeal := by
  intro m ρ m' ρ' _ hagree
  refine ⟨_, _, _, _, Cert.Proof.KernelValue.run_value m ρ, ?_⟩
  refine (θ_run Cert.ReferenceIdeal.defs _ _).mono (fun _ h c => ?_) (Cert.Proof.RefRun.run (F := Ideal) m' ρ')
  obtain ⟨h0, h1, h2, h3, hrest⟩ := h c
  obtain ⟨a0, a1, a2, a3, a4, a5, a6⟩ := hagree c
  refine ⟨?_, ?_, ?_, ?_, hrest⟩
  · rw [h0, RefTerms.boxes_eq, a0, a1, a2, a5, a6]
  · rw [h1, RefTerms.scores_eq, a0]
  · rw [h2, RefTerms.labels_eq, a0, a3, a4]
  · rw [h3, RefTerms.keep_eq, a0]

theorem claim : Cert.Claim :=
  ⟨Cert.Kernel.Gen.facts, Cert.KernelIdeal.Gen.facts, Cert.ReferenceIdeal.Gen.facts, Cert.Pre_finite_inputs.Gen.facts,
    frame_kernel, frame_kernelIdeal, RefFrame.frame_ri, preserves, algebraic⟩

end Cert.Proof

end
